-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x7168 : Shape := ⟨2, ![4096, 7168]⟩
abbrev S7168x1536 : Shape := ⟨2, ![7168, 1536]⟩
abbrev S1536x24576 : Shape := ⟨2, ![1536, 24576]⟩
abbrev S7168x576 : Shape := ⟨2, ![7168, 576]⟩
abbrev S4096x64 : Shape := ⟨2, ![4096, 64]⟩
abbrev S1536 : Shape := ⟨1, ![1536]⟩
abbrev S512 : Shape := ⟨1, ![512]⟩
abbrev S_ : Shape := ⟨0, ![]⟩

class Facts : Prop where
  bcast_S_S4096x7168 : S_.BroadcastsInDim S4096x7168 (![] : Fin 0 → Fin S4096x7168.rank)
  reducesTo_S4096x7168_S_d0_1 : S4096x7168.ReducesTo [0, 1] S_
  h_S_ : 0 < S_.numel
  bcast_S_S7168x1536 : S_.BroadcastsInDim S7168x1536 (![] : Fin 0 → Fin S7168x1536.rank)
  reducesTo_S7168x1536_S_d0_1 : S7168x1536.ReducesTo [0, 1] S_
  bcast_S_S1536x24576 : S_.BroadcastsInDim S1536x24576 (![] : Fin 0 → Fin S1536x24576.rank)
  reducesTo_S1536x24576_S_d0_1 : S1536x24576.ReducesTo [0, 1] S_
  bcast_S_S7168x576 : S_.BroadcastsInDim S7168x576 (![] : Fin 0 → Fin S7168x576.rank)
  reducesTo_S7168x576_S_d0_1 : S7168x576.ReducesTo [0, 1] S_
  bcast_S_S4096x64 : S_.BroadcastsInDim S4096x64 (![] : Fin 0 → Fin S4096x64.rank)
  reducesTo_S4096x64_S_d0_1 : S4096x64.ReducesTo [0, 1] S_
  bcast_S_S1536 : S_.BroadcastsInDim S1536 (![] : Fin 0 → Fin S1536.rank)
  reducesTo_S1536_S_d0 : S1536.ReducesTo [0] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S4096x64 .f32) (main_arg5 : FVec F S4096x64 .f32) (main_arg6 : FVec F S1536 .f32) (main_arg7 : FVec F S512 .f32) (main_v13 : IVec S_ 1) (main_v16 : IVec S7168x576 1) : IVec S_ 1 :=
  let main_c_5 : IVec S_ 1 := constantI S_ 1 1#1
  let main_v17 : IVec S_ 1 := (fun x v => Host.reduce IntOp.andi x v reducesTo_S7168x576_S_d0_1 h_S_) main_v16 main_c_5
  let main_v18 : IVec S_ 1 := andi main_v13 main_v17
  let main_v19 : FVec F S4096x64 .f32 := Host.absf main_arg4
  let main_cst_6 : FVec F S_ .f32 := constant S_ .f32 0x7F800000#32
  let main_v20 : FVec F S4096x64 .f32 := broadcastInDim S4096x64 ![] bcast_S_S4096x64 main_cst_6
  let main_v21 : IVec S4096x64 1 := cmpf .olt main_v19 main_v20
  let main_c_7 : IVec S_ 1 := constantI S_ 1 1#1
  let main_v22 : IVec S_ 1 := (fun x v => Host.reduce IntOp.andi x v reducesTo_S4096x64_S_d0_1 h_S_) main_v21 main_c_7
  let main_v23 : IVec S_ 1 := andi main_v18 main_v22
  let main_v24 : FVec F S4096x64 .f32 := Host.absf main_arg5
  let main_cst_8 : FVec F S_ .f32 := constant S_ .f32 0x7F800000#32
  let main_v25 : FVec F S4096x64 .f32 := broadcastInDim S4096x64 ![] bcast_S_S4096x64 main_cst_8
  let main_v26 : IVec S4096x64 1 := cmpf .olt main_v24 main_v25
  let main_c_9 : IVec S_ 1 := constantI S_ 1 1#1
  let main_v27 : IVec S_ 1 := (fun x v => Host.reduce IntOp.andi x v reducesTo_S4096x64_S_d0_1 h_S_) main_v26 main_c_9
  let main_v28 : IVec S_ 1 := andi main_v23 main_v27
  let main_v29 : FVec F S1536 .f32 := Host.absf main_arg6
  let main_cst_10 : FVec F S_ .f32 := constant S_ .f32 0x7F800000#32
  let main_v30 : FVec F S1536 .f32 := broadcastInDim S1536 ![] bcast_S_S1536 main_cst_10
  let main_v31 : IVec S1536 1 := cmpf .olt main_v29 main_v30
  let main_c_11 : IVec S_ 1 := constantI S_ 1 1#1
  let main_v32 : IVec S_ 1 := (fun x v => Host.reduce IntOp.andi x v reducesTo_S1536_S_d0 h_S_) main_v31 main_c_11
  let main_v33 : IVec S_ 1 := andi main_v28 main_v32
  fn_part2 (F := F) main_arg7 main_v33

def fn {F : FTy → Type} [FloatOps F] (main_arg0 : FVec F S4096x7168 .f32) (main_arg1 : FVec F S7168x1536 .f32) (main_arg2 : FVec F S1536x24576 .f32) (main_arg3 : FVec F S7168x576 .f32) (main_arg4 : FVec F S4096x64 .f32) (main_arg5 : FVec F S4096x64 .f32) (main_arg6 : FVec F S1536 .f32) (main_arg7 : FVec F S512 .f32) : IVec S_ 1 :=
  let main_v0 : FVec F S4096x7168 .f32 := Host.absf main_arg0
  let main_cst : FVec F S_ .f32 := constant S_ .f32 0x7F800000#32
  let main_v1 : FVec F S4096x7168 .f32 := broadcastInDim S4096x7168 ![] bcast_S_S4096x7168 main_cst
  let main_v2 : IVec S4096x7168 1 := cmpf .olt main_v0 main_v1
  let main_c : IVec S_ 1 := constantI S_ 1 1#1
  let main_v3 : IVec S_ 1 := (fun x v => Host.reduce IntOp.andi x v reducesTo_S4096x7168_S_d0_1 h_S_) main_v2 main_c
  let main_v4 : FVec F S7168x1536 .f32 := Host.absf main_arg1
  let main_cst_0 : FVec F S_ .f32 := constant S_ .f32 0x7F800000#32
  let main_v5 : FVec F S7168x1536 .f32 := broadcastInDim S7168x1536 ![] bcast_S_S7168x1536 main_cst_0
  let main_v6 : IVec S7168x1536 1 := cmpf .olt main_v4 main_v5
  let main_c_1 : IVec S_ 1 := constantI S_ 1 1#1
  let main_v7 : IVec S_ 1 := (fun x v => Host.reduce IntOp.andi x v reducesTo_S7168x1536_S_d0_1 h_S_) main_v6 main_c_1
  let main_v8 : IVec S_ 1 := andi main_v3 main_v7
  let main_v9 : FVec F S1536x24576 .f32 := Host.absf main_arg2
  let main_cst_2 : FVec F S_ .f32 := constant S_ .f32 0x7F800000#32
  let main_v10 : FVec F S1536x24576 .f32 := broadcastInDim S1536x24576 ![] bcast_S_S1536x24576 main_cst_2
  let main_v11 : IVec S1536x24576 1 := cmpf .olt main_v9 main_v10
  let main_c_3 : IVec S_ 1 := constantI S_ 1 1#1
  let main_v12 : IVec S_ 1 := (fun x v => Host.reduce IntOp.andi x v reducesTo_S1536x24576_S_d0_1 h_S_) main_v11 main_c_3
  let main_v13 : IVec S_ 1 := andi main_v8 main_v12
  let main_v14 : FVec F S7168x576 .f32 := Host.absf main_arg3
  let main_cst_4 : FVec F S_ .f32 := constant S_ .f32 0x7F800000#32
  let main_v15 : FVec F S7168x576 .f32 := broadcastInDim S7168x576 ![] bcast_S_S7168x576 main_cst_4
  let main_v16 : IVec S7168x576 1 := cmpf .olt main_v14 main_v15
  fn_part1 (F := F) main_arg4 main_arg5 main_arg6 main_arg7 main_v13 main_v16
-- ==== Kernel.lean ====
abbrev S4096x7168 : Shape := ⟨2, ![4096, 7168]⟩
abbrev S7168x1536 : Shape := ⟨2, ![7168, 1536]⟩
abbrev S1536x24576 : Shape := ⟨2, ![1536, 24576]⟩
abbrev S7168x576 : Shape := ⟨2, ![7168, 576]⟩
abbrev S4096x64 : Shape := ⟨2, ![4096, 64]⟩
abbrev S1536 : Shape := ⟨1, ![1536]⟩
abbrev S512 : Shape := ⟨1, ![512]⟩
abbrev S4096x1536 : Shape := ⟨2, ![4096, 1536]⟩
abbrev S4096x576 : Shape := ⟨2, ![4096, 576]⟩
abbrev S1024x1792 : Shape := ⟨2, ![1024, 1792]⟩
abbrev S1792x1536 : Shape := ⟨2, ![1792, 1536]⟩
abbrev S1792x576 : Shape := ⟨2, ![1792, 576]⟩
abbrev S1024x64 : Shape := ⟨2, ![1024, 64]⟩
abbrev S1024x1536 : Shape := ⟨2, ![1024, 1536]⟩
abbrev S1024x576 : Shape := ⟨2, ![1024, 576]⟩
abbrev S1024 : Shape := ⟨1, ![1024]⟩
abbrev S1024x1 : Shape := ⟨2, ![1024, 1]⟩
abbrev S1x1536 : Shape := ⟨2, ![1, 1536]⟩
abbrev S1024x512 : Shape := ⟨2, ![1024, 512]⟩
abbrev S1x512 : Shape := ⟨2, ![1, 512]⟩
abbrev S1024x32 : Shape := ⟨2, ![1024, 32]⟩
abbrev S4096x24576 : Shape := ⟨2, ![4096, 24576]⟩
abbrev S256x1536 : Shape := ⟨2, ![256, 1536]⟩
abbrev S1536x3072 : Shape := ⟨2, ![1536, 3072]⟩
abbrev S256x64 : Shape := ⟨2, ![256, 64]⟩
abbrev S256x3072 : Shape := ⟨2, ![256, 3072]⟩
abbrev S256x16x192 : Shape := ⟨3, ![256, 16, 192]⟩
abbrev S256x16x128 : Shape := ⟨3, ![256, 16, 128]⟩
abbrev S256x16x64 : Shape := ⟨3, ![256, 16, 64]⟩
abbrev S256x1x64 : Shape := ⟨3, ![256, 1, 64]⟩
abbrev S256x16x32 : Shape := ⟨3, ![256, 16, 32]⟩
abbrev S4096x25152 : Shape := ⟨2, ![4096, 25152]⟩

abbrev nBuf : Space → Nat
  | .hbm => 15
  | .vmem => 28
  | .smem => 0
  | _ => 0

abbrev bufTy : (tb : Table) → Fin (tcTables nBuf tb) → BufTy
  | .hbm, ⟨0, _⟩ => ⟨S4096x7168, .f32⟩
  | .hbm, ⟨1, _⟩ => ⟨S7168x1536, .f32⟩
  | .hbm, ⟨2, _⟩ => ⟨S1536x24576, .f32⟩
  | .hbm, ⟨3, _⟩ => ⟨S7168x576, .f32⟩
  | .hbm, ⟨4, _⟩ => ⟨S4096x64, .f32⟩
  | .hbm, ⟨5, _⟩ => ⟨S4096x64, .f32⟩
  | .hbm, ⟨6, _⟩ => ⟨S1536, .f32⟩
  | .hbm, ⟨7, _⟩ => ⟨S512, .f32⟩
  | .hbm, ⟨8, _⟩ => ⟨S7168x1536, .bf16⟩
  | .hbm, ⟨9, _⟩ => ⟨S1536x24576, .bf16⟩
  | .hbm, ⟨10, _⟩ => ⟨S7168x576, .bf16⟩
  | .hbm, ⟨11, _⟩ => ⟨S4096x1536, .bf16⟩
  | .hbm, ⟨12, _⟩ => ⟨S4096x576, .f32⟩
  | .hbm, ⟨13, _⟩ => ⟨S4096x24576, .f32⟩
  | .hbm, ⟨14, _⟩ => ⟨S4096x25152, .f32⟩
  | .local _ .vmem, ⟨0, _⟩ => ⟨S1024x1792, .f32⟩
  | .local _ .vmem, ⟨1, _⟩ => ⟨S1024x1792, .f32⟩
  | .local _ .vmem, ⟨2, _⟩ => ⟨S1792x1536, .bf16⟩
  | .local _ .vmem, ⟨3, _⟩ => ⟨S1792x1536, .bf16⟩
  | .local _ .vmem, ⟨4, _⟩ => ⟨S1792x576, .bf16⟩
  | .local _ .vmem, ⟨5, _⟩ => ⟨S1792x576, .bf16⟩
  | .local _ .vmem, ⟨6, _⟩ => ⟨S1536, .f32⟩
  | .local _ .vmem, ⟨7, _⟩ => ⟨S512, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x1536, .bf16⟩
  | .local _ .vmem, ⟨13, _⟩ => ⟨S1024x1536, .bf16⟩
  | .local _ .vmem, ⟨14, _⟩ => ⟨S1024x576, .f32⟩
  | .local _ .vmem, ⟨15, _⟩ => ⟨S1024x576, .f32⟩
  | .local _ .vmem, ⟨16, _⟩ => ⟨S1024x1536, .f32⟩
  | .local _ .vmem, ⟨17, _⟩ => ⟨S1024x576, .f32⟩
  | .local _ .vmem, ⟨18, _⟩ => ⟨S256x1536, .bf16⟩
  | .local _ .vmem, ⟨19, _⟩ => ⟨S256x1536, .bf16⟩
  | .local _ .vmem, ⟨20, _⟩ => ⟨S1536x3072, .bf16⟩
  | .local _ .vmem, ⟨21, _⟩ => ⟨S1536x3072, .bf16⟩
  | .local _ .vmem, ⟨22, _⟩ => ⟨S256x64, .f32⟩
  | .local _ .vmem, ⟨23, _⟩ => ⟨S256x64, .f32⟩
  | .local _ .vmem, ⟨24, _⟩ => ⟨S256x64, .f32⟩
  | .local _ .vmem, ⟨25, _⟩ => ⟨S256x64, .f32⟩
  | .local _ .vmem, ⟨26, _⟩ => ⟨S256x3072, .f32⟩
  | .local _ .vmem, ⟨27, _⟩ => ⟨S256x3072, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1792x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1792x576 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x576 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1536x3072 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S256x3072 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  bitsLt_bf16_f32 : FTy.bits .bf16 < FTy.bits .f32
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  inb_S1024x576_S1024x576_0_0 : ∀ a, (![0, 0] : Fin 2 → Nat) a + S1024x576.size a ≤ S1024x576.size a
  h_S1024x576 : 0 < S1024x576.numel
  shapeCasts_S1024x576_S1024x576 : S1024x576.ShapeCasts S1024x576
  inb_S1024x1792_S1024x1792_0_0 : ∀ a, (![0, 0] : Fin 2 → Nat) a + S1024x1792.size a ≤ S1024x1792.size a
  h_S1024x1792 : 0 < S1024x1792.numel
  inb_S1792x1536_S1792x1536_0_0 : ∀ a, (![0, 0] : Fin 2 → Nat) a + S1792x1536.size a ≤ S1792x1536.size a
  h_S1792x1536 : 0 < S1792x1536.numel
  shapeCasts_S1792x1536_S1792x1536 : S1792x1536.ShapeCasts S1792x1536
  inb_S1792x576_S1792x576_0_0 : ∀ a, (![0, 0] : Fin 2 → Nat) a + S1792x576.size a ≤ S1792x576.size a
  h_S1792x576 : 0 < S1792x576.numel
  shapeCasts_S1792x576_S1792x576 : S1792x576.ShapeCasts S1792x576
  reduces_S1024x1536_S1024 : S1024x1536.Reduces [1] S1024
  shapeCasts_S1024_S1024x1 : S1024.ShapeCasts S1024x1
  broadcasts_S1024x1_S1024x1536 : S1024x1.Broadcasts S1024x1536
  inb_S1536_S1536_0 : ∀ a, (![0] : Fin 1 → Nat) a + S1536.size a ≤ S1536.size a
  h_S1536 : 0 < S1536.numel
  shapeCasts_S1536_S1x1536 : S1536.ShapeCasts S1x1536
  broadcasts_S1x1536_S1024x1536 : S1x1536.Broadcasts S1024x1536
  packedbf16_S1024x1536_S1024x1536_0_0 : (Rect.unit (s := S1024x1536) ![0, 0] S1024x1536.size inb_S1024x1536_S1024x1536_0_0).PackedRows (EltTy.packing .bf16)
  slices_S1024x576_o0_0_S1024x512 : S1024x576.Slices ![0, 0] S1024x512
  slices_S1024x576_o0_512_S1024x64 : S1024x576.Slices ![0, 512] S1024x64
  reduces_S1024x512_S1024 : S1024x512.Reduces [1] S1024
  broadcasts_S1024x1_S1024x512 : S1024x1.Broadcasts S1024x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1024x64_S1024x64_0_0 : ∀ a, (![0, 0] : Fin 2 → Nat) a + S1024x64.size a ≤ S1024x64.size a
  h_S1024x64 : 0 < S1024x64.numel
  slices_S1024x64_o0_0_S1024x32 : S1024x64.Slices ![0, 0] S1024x32
  slices_S1024x64_o0_32_S1024x32 : S1024x64.Slices ![0, 32] S1024x32
  concatenates_S1024x32_S1024x32_S1024x64_d1 : Shape.Concatenates [S1024x32, S1024x32] S1024x64 1
  concatenates_S1024x512_S1024x64_S1024x576_d1 : Shape.Concatenates [S1024x512, S1024x64] S1024x576 1
  inb_S256x1536_S256x1536_0_0 : ∀ a, (![0, 0] : Fin 2 → Nat) a + S256x1536.size a ≤ S256x1536.size a
  h_S256x1536 : 0 < S256x1536.numel
  shapeCasts_S256x1536_S256x1536 : S256x1536.ShapeCasts S256x1536
  inb_S1536x3072_S1536x3072_0_0 : ∀ a, (![0, 0] : Fin 2 → Nat) a + S1536x3072.size a ≤ S1536x3072.size a
  h_S1536x3072 : 0 < S1536x3072.numel
  shapeCasts_S1536x3072_S1536x3072 : S1536x3072.ShapeCasts S1536x3072
  shapeCasts_S256x3072_S256x16x192 : S256x3072.ShapeCasts S256x16x192
  slices_S256x16x192_o0_0_0_S256x16x128 : S256x16x192.Slices ![0, 0, 0] S256x16x128
  slices_S256x16x192_o0_0_128_S256x16x64 : S256x16x192.Slices ![0, 0, 128] S256x16x64
  inb_S256x64_S256x64_0_0 : ∀ a, (![0, 0] : Fin 2 → Nat) a + S256x64.size a ≤ S256x64.size a
  h_S256x64 : 0 < S256x64.numel
  shapeCasts_S256x64_S256x1x64 : S256x64.ShapeCasts S256x1x64
  slices_S256x16x64_o0_0_0_S256x16x32 : S256x16x64.Slices ![0, 0, 0] S256x16x32
  slices_S256x16x64_o0_0_32_S256x16x32 : S256x16x64.Slices ![0, 0, 32] S256x16x32
  concatenates_S256x16x32_S256x16x32_S256x16x64_d2 : Shape.Concatenates [S256x16x32, S256x16x32] S256x16x64 2
  broadcasts_S256x1x64_S256x16x64 : S256x1x64.Broadcasts S256x16x64
  concatenates_S256x16x128_S256x16x64_S256x16x192_d2 : Shape.Concatenates [S256x16x128, S256x16x64] S256x16x192 2
  shapeCasts_S256x16x192_S256x3072 : S256x16x192.ShapeCasts S256x3072
  inb_S256x3072_S256x3072_0_0 : ∀ a, (![0, 0] : Fin 2 → Nat) a + S256x3072.size a ≤ S256x3072.size a
  h_S256x3072 : 0 < S256x3072.numel
  concatenates_S4096x24576_S4096x576_S4096x25152_d1 : Shape.Concatenates [S4096x24576, S4096x576] S4096x25152 1
  dot_S1024x1792_S1792x1536_S1024x1536_1_0_0_1_n_n_wf : DotDims.WF S1024x1792 S1792x1536 S1024x1536 [1] [0] [0] [1] [] []
  dot_S1024x1792_S1792x576_S1024x576_1_0_0_1_n_n_wf : DotDims.WF S1024x1792 S1792x576 S1024x576 [1] [0] [0] [1] [] []
  dot_S256x1536_S1536x3072_S256x3072_1_0_0_1_n_n_wf : DotDims.WF S256x1536 S1536x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1792.size a ≤ S4096x7168.size a
  hwx0_0 : ∀ i : grid0.Coords, EltTy.bits .f32 = 32 ∨ (Rect.block (s := S4096x7168) S1024x1792.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1792x1536.size a ≤ S7168x1536.size a
  hwx0_1 : ∀ i : grid0.Coords, EltTy.bits .bf16 = 32 ∨ (Rect.block (s := S7168x1536) S1792x1536.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1792x576.size a ≤ S7168x576.size a
  hwx0_2 : ∀ i : grid0.Coords, EltTy.bits .bf16 = 32 ∨ (Rect.block (s := S7168x576) S1792x576.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1536.size a ≤ S1536.size a
  hwx0_3 : ∀ i : grid0.Coords, EltTy.bits .f32 = 32 ∨ (Rect.block (s := S1536) S1536.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S4096x64.size a
  hwx0_5 : ∀ i : grid0.Coords, EltTy.bits .f32 = 32 ∨ (Rect.block (s := S4096x64) S1024x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S4096x64.size a
  hwx0_6 : ∀ i : grid0.Coords, EltTy.bits .f32 = 32 ∨ (Rect.block (s := S4096x64) S1024x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1536.size a ≤ S4096x1536.size a
  hwx0_7 : ∀ i : grid0.Coords, EltTy.bits .bf16 = 32 ∨ (Rect.block (s := S4096x1536) S1024x1536.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x576.size a ≤ S4096x576.size a
  hwx0_8 : ∀ i : grid0.Coords, EltTy.bits .f32 = 32 ∨ (Rect.block (s := S4096x576) S1024x576.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1536.size a ≤ S4096x1536.size a
  hwx1_0 : ∀ i : grid1.Coords, EltTy.bits .bf16 = 32 ∨ (Rect.block (s := S4096x1536) S256x1536.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1536x3072.size a ≤ S1536x24576.size a
  hwx1_1 : ∀ i : grid1.Coords, EltTy.bits .bf16 = 32 ∨ (Rect.block (s := S1536x24576) S1536x3072.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S4096x64.size a
  hwx1_2 : ∀ i : grid1.Coords, EltTy.bits .f32 = 32 ∨ (Rect.block (s := S4096x64) S256x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S4096x64.size a
  hwx1_3 : ∀ i : grid1.Coords, EltTy.bits .f32 = 32 ∨ (Rect.block (s := S4096x64) S256x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x3072.size a ≤ S4096x24576.size a
  hwx1_4 : ∀ i : grid1.Coords, EltTy.bits .f32 = 32 ∨ (Rect.block (s := S4096x24576) S256x3072.size (cc1_transform_4 i) (hinb1_4 i)).WholeWords (EltTy.packing .f32)

variable [Facts₀]

def dot_S1024x1792_S1792x1536_S1024x1536_1_0_0_1_n_n : DotDims S1024x1792 S1792x1536 S1024x1536 where
  lhsContracting := [1]
  rhsContracting := [0]
  lhsNonContracting := [0]
  rhsNonContracting := [1]
  lhsBatch := []
  rhsBatch := []
  wf := dot_S1024x1792_S1792x1536_S1024x1536_1_0_0_1_n_n_wf
def dot_S1024x1792_S1792x576_S1024x576_1_0_0_1_n_n : DotDims S1024x1792 S1792x576 S1024x576 where
  lhsContracting := [1]
  rhsContracting := [0]
  lhsNonContracting := [0]
  rhsNonContracting := [1]
  lhsBatch := []
  rhsBatch := []
  wf := dot_S1024x1792_S1792x576_S1024x576_1_0_0_1_n_n_wf
def dot_S256x1536_S1536x3072_S256x3072_1_0_0_1_n_n : DotDims S256x1536 S1536x3072 S256x3072 where
  lhsContracting := [1]
  rhsContracting := [0]
  lhsNonContracting := [0]
  rhsNonContracting := [1]
  lhsBatch := []
  rhsBatch := []
  wf := dot_S256x1536_S1536x3072_S256x3072_1_0_0_1_n_n_wf

abbrev win0_0 : Pipeline.Window sig grid0 :=
  Pipeline.Window.ofSpec (Memref.whole main_arg0) S1024x1792.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1792x1536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1792x576.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1024x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1024x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S1024x1536.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S1024x576.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v3_0) S256x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1536x3072.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S256x3072.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x7168 : Shape := ⟨2, ![4096, 7168]⟩
abbrev S7168x1536 : Shape := ⟨2, ![7168, 1536]⟩
abbrev S1536x24576 : Shape := ⟨2, ![1536, 24576]⟩
abbrev S7168x576 : Shape := ⟨2, ![7168, 576]⟩
abbrev S4096x64 : Shape := ⟨2, ![4096, 64]⟩
abbrev S1536 : Shape := ⟨1, ![1536]⟩
abbrev S512 : Shape := ⟨1, ![512]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1x1536 : Shape := ⟨2, ![1, 1536]⟩
abbrev S4096x24576 : Shape := ⟨2, ![4096, 24576]⟩
abbrev S4096x128x192 : Shape := ⟨3, ![4096, 128, 192]⟩
abbrev S4096x128x128 : Shape := ⟨3, ![4096, 128, 128]⟩
abbrev S4096x128x64 : Shape := ⟨3, ![4096, 128, 64]⟩
abbrev S4096x1x64 : Shape := ⟨3, ![4096, 1, 64]⟩
abbrev S4096x128x32 : Shape := ⟨3, ![4096, 128, 32]⟩
abbrev S4096x576 : Shape := ⟨2, ![4096, 576]⟩
abbrev S4096x512 : Shape := ⟨2, ![4096, 512]⟩
abbrev S1x512 : Shape := ⟨2, ![1, 512]⟩
abbrev S4096x32 : Shape := ⟨2, ![4096, 32]⟩
abbrev S4096x25152 : Shape := ⟨2, ![4096, 25152]⟩

abbrev nBuf : Space → Nat
  | .hbm => 69
  | .vmem => 0
  | .smem => 0
  | _ => 0

abbrev bufTy : (tb : Table) → Fin (tcTables nBuf tb) → BufTy
  | .hbm, ⟨0, _⟩ => ⟨S4096x7168, .f32⟩
  | .hbm, ⟨1, _⟩ => ⟨S7168x1536, .f32⟩
  | .hbm, ⟨2, _⟩ => ⟨S1536x24576, .f32⟩
  | .hbm, ⟨3, _⟩ => ⟨S7168x576, .f32⟩
  | .hbm, ⟨4, _⟩ => ⟨S4096x64, .f32⟩
  | .hbm, ⟨5, _⟩ => ⟨S4096x64, .f32⟩
  | .hbm, ⟨6, _⟩ => ⟨S1536, .f32⟩
  | .hbm, ⟨7, _⟩ => ⟨S512, .f32⟩
  | .hbm, ⟨8, _⟩ => ⟨S4096x1536, .f32⟩
  | .hbm, ⟨9, _⟩ => ⟨S4096x1536, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1536, .f32⟩
  | .hbm, ⟨21, _⟩ => ⟨S4096x1536, .f32⟩
  | .hbm, ⟨22, _⟩ => ⟨S1x1536, .f32⟩
  | .hbm, ⟨23, _⟩ => ⟨S4096x1536, .f32⟩
  | .hbm, ⟨24, _⟩ => ⟨S4096x1536, .f32⟩
  | .hbm, ⟨25, _⟩ => ⟨S4096x24576, .f32⟩
  | .hbm, ⟨26, _⟩ => ⟨S4096x128x192, .f32⟩
  | .hbm, ⟨27, _⟩ => ⟨S4096x128x128, .f32⟩
  | .hbm, ⟨28, _⟩ => ⟨S4096x128x64, .f32⟩
  | .hbm, ⟨29, _⟩ => ⟨S4096x1x64, .f32⟩
  | .hbm, ⟨30, _⟩ => ⟨S4096x1x64, .f32⟩
  | .hbm, ⟨31, _⟩ => ⟨S4096x128x32, .f32⟩
  | .hbm, ⟨32, _⟩ => ⟨S4096x128x32, .f32⟩
  | .hbm, ⟨33, _⟩ => ⟨S4096x128x32, .f32⟩
  | .hbm, ⟨34, _⟩ => ⟨S4096x128x64, .f32⟩
  | .hbm, ⟨35, _⟩ => ⟨S4096x128x64, .f32⟩
  | .hbm, ⟨36, _⟩ => ⟨S4096x128x64, .f32⟩
  | .hbm, ⟨37, _⟩ => ⟨S4096x128x64, .f32⟩
  | .hbm, ⟨38, _⟩ => ⟨S4096x128x64, .f32⟩
  | .hbm, ⟨39, _⟩ => ⟨S4096x128x64, .f32⟩
  | .hbm, ⟨40, _⟩ => ⟨S4096x128x192, .f32⟩
  | .hbm, ⟨41, _⟩ => ⟨S4096x576, .f32⟩
  | .hbm, ⟨42, _⟩ => ⟨S4096x512, .f32⟩
  | .hbm, ⟨43, _⟩ => ⟨S4096x512, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S4096x512, .f32⟩
  | .hbm, ⟨55, _⟩ => ⟨S4096x512, .f32⟩
  | .hbm, ⟨56, _⟩ => ⟨S1x512, .f32⟩
  | .hbm, ⟨57, _⟩ => ⟨S4096x512, .f32⟩
  | .hbm, ⟨58, _⟩ => ⟨S4096x512, .f32⟩
  | .hbm, ⟨59, _⟩ => ⟨S4096x64, .f32⟩
  | .hbm, ⟨60, _⟩ => ⟨S4096x32, .f32⟩
  | .hbm, ⟨61, _⟩ => ⟨S4096x32, .f32⟩
  | .hbm, ⟨62, _⟩ => ⟨S4096x32, .f32⟩
  | .hbm, ⟨63, _⟩ => ⟨S4096x64, .f32⟩
  | .hbm, ⟨64, _⟩ => ⟨S4096x64, .f32⟩
  | .hbm, ⟨65, _⟩ => ⟨S4096x64, .f32⟩
  | .hbm, ⟨66, _⟩ => ⟨S4096x64, .f32⟩
  | .hbm, ⟨67, _⟩ => ⟨S4096x24576, .f32⟩
  | .hbm, ⟨68, _⟩ => ⟨S4096x25152, .f32⟩
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]

class Facts₀ : Prop where
  reducesTo_S4096x1536_S4096_d1 : S4096x1536.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1536_0_1 : S4096x1.BroadcastsInDim S4096x1536 (![0, 1] : Fin 2 → Fin S4096x1536.rank)
  bcast_S1536_S1x1536_1 : S1536.BroadcastsInDim S1x1536 (![1] : Fin 1 → Fin S1x1536.rank)
  bcast_S1x1536_S4096x1536_0_1 : S1x1536.BroadcastsInDim S4096x1536 (![0, 1] : Fin 2 → Fin S4096x1536.rank)
  shapeCasts_S4096x24576_S4096x128x192 : S4096x24576.ShapeCasts S4096x128x192
  slices_S4096x128x192_S4096x128x128_0_0_0 : S4096x128x192.Slices ![0, 0, 0] S4096x128x128
  slices_S4096x128x192_S4096x128x64_0_0_128 : S4096x128x192.Slices ![0, 0, 128] S4096x128x64
  bcast_S4096x64_S4096x1x64_0_2 : S4096x64.BroadcastsInDim S4096x1x64 (![0, 2] : Fin 2 → Fin S4096x1x64.rank)
  slices_S4096x128x64_S4096x128x32_0_0_0 : S4096x128x64.Slices ![0, 0, 0] S4096x128x32
  slices_S4096x128x64_S4096x128x32_0_0_32 : S4096x128x64.Slices ![0, 0, 32] S4096x128x32
  concatenates_S4096x128x32_S4096x128x32_S4096x128x64_d2 : Shape.Concatenates [S4096x128x32, S4096x128x32] S4096x128x64 2
  bcast_S4096x1x64_S4096x128x64_0_1_2 : S4096x1x64.BroadcastsInDim S4096x128x64 (![0, 1, 2] : Fin 3 → Fin S4096x128x64.rank)
  concatenates_S4096x128x128_S4096x128x64_S4096x128x192_d2 : Shape.Concatenates [S4096x128x128, S4096x128x64] S4096x128x192 2
  slices_S4096x576_S4096x512_0_0 : S4096x576.Slices ![0, 0] S4096x512
  reducesTo_S4096x512_S4096_d1 : S4096x512.ReducesTo [1] S4096
  bcast_S4096x1_S4096x512_0_1 : S4096x1.BroadcastsInDim S4096x512 (![0, 1] : Fin 2 → Fin S4096x512.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  slices_S4096x576_S4096x64_0_512 : S4096x576.Slices ![0, 512] S4096x64
  slices_S4096x64_S4096x32_0_0 : S4096x64.Slices ![0, 0] S4096x32
  slices_S4096x64_S4096x32_0_32 : S4096x64.Slices ![0, 32] S4096x32
  concatenates_S4096x32_S4096x32_S4096x64_d1 : Shape.Concatenates [S4096x32, S4096x32] S4096x64 1
  shapeCasts_S4096x128x192_S4096x24576 : S4096x128x192.ShapeCasts S4096x24576
  concatenates_S4096x24576_S4096x512_S4096x64_S4096x25152_d1 : Shape.Concatenates [S4096x24576, S4096x512, S4096x64] S4096x25152 1
  dot_S4096x7168_S7168x1536_S4096x1536_1_0_0_1_n_n_wf : DotDims.WF S4096x7168 S7168x1536 S4096x1536 [1] [0] [0] [1] [] []
  dot_S4096x1536_S1536x24576_S4096x24576_1_0_0_1_n_n_wf : DotDims.WF S4096x1536 S1536x24576 S4096x24576 [1] [0] [0] [1] [] []
  dot_S4096x7168_S7168x576_S4096x576_1_0_0_1_n_n_wf : DotDims.WF S4096x7168 S7168x576 S4096x576 [1] [0] [0] [1] [] []

variable [Facts₀]

def dot_S4096x7168_S7168x1536_S4096x1536_1_0_0_1_n_n : DotDims S4096x7168 S7168x1536 S4096x1536 where
  lhsContracting := [1]
  rhsContracting := [0]
  lhsNonContracting := [0]
  rhsNonContracting := [1]
  lhsBatch := []
  rhsBatch := []
  wf := dot_S4096x7168_S7168x1536_S4096x1536_1_0_0_1_n_n_wf
def dot_S4096x1536_S1536x24576_S4096x24576_1_0_0_1_n_n : DotDims S4096x1536 S1536x24576 S4096x24576 where
  lhsContracting := [1]
  rhsContracting := [0]
  lhsNonContracting := [0]
  rhsNonContracting := [1]
  lhsBatch := []
  rhsBatch := []
  wf := dot_S4096x1536_S1536x24576_S4096x24576_1_0_0_1_n_n_wf
def dot_S4096x7168_S7168x576_S4096x576_1_0_0_1_n_n : DotDims S4096x7168 S7168x576 S4096x576 where
  lhsContracting := [1]
  rhsContracting := [0]
  lhsNonContracting := [0]
  rhsNonContracting := [1]
  lhsBatch := []
  rhsBatch := []
  wf := dot_S4096x7168_S7168x576_S4096x576_1_0_0_1_n_n_wf

class Facts : Prop extends Facts₀ where

variable [Facts]
-- ==== Proof.KRegion0Kit.lean ====
/-
  Region 0 (the fused down-projection kernel, grid 4 × 4: row block i, contraction block k) — what its
  three control cases share.  The body zeroes its two accumulators when k = 0, adds one block product to each at
  every k, and at k = 3 normalises the rows and rotates the rope lanes into its two output blocks.  Here: the two
  branch conditions in closed form over the 16 grid points (k = t mod 4), where the output windows are idle,
  the staging and scratch memrefs by name, the region's scoped rest enumerated, each window's block at a point read
  off the arrays as the region finds them (a parameter `V`), and that an input window's staging buffer holds that
  block at every point whether or not the point fetches it.
-/
import proofs.«158685_j77395310674148_2_alg».proof.Proof.Gen.Kernel.Launch
import proofs.«158685_j77395310674148_2_alg».proof.Proof.Gen.Kernel.Skeleton
import proofs.«158685_j77395310674148_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions -/

/-- The first branch of the body: the contraction block is the first (k = 0). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch: the contraction block is the last (k = 3). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from k = 3 the body stores nothing into either output block, and the block is not written back. -/
theorem idleAt0_7 : ∀ t : Fin cfg0.N, ¬cond0_1 (grid0.coords t) → cfg0.idle 7 (grid0.coords t) = true := by decide +kernel
theorem idleAt0_8 : ∀ t : Fin cfg0.N, ¬cond0_1 (grid0.coords t) → cfg0.idle 8 (grid0.coords t) = true := by decide +kernel
theorem noFlush0_7 : ∀ t : Fin cfg0.N, ¬cond0_1 (grid0.coords t) → (cfg0.win 7).flush t = false := by decide +kernel
theorem noFlush0_8 : ∀ t : Fin cfg0.N, ¬cond0_1 (grid0.coords t) → (cfg0.win 8).flush t = false := by decide +kernel
/-- At k = 3 both output blocks are stored whole. -/
theorem liveAt0_7 : ∀ t : Fin cfg0.N, cond0_1 (grid0.coords t) → cfg0.idle 7 (grid0.coords t) = false := by decide +kernel
theorem liveAt0_8 : ∀ t : Fin cfg0.N, cond0_1 (grid0.coords t) → cfg0.idle 8 (grid0.coords t) = false := by decide +kernel

/-! ## The memrefs the body is called with -/

abbrev ms0_0 (t : Fin cfg0.N) : Memref sig .tc .vmem S1024x1792 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1792x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1792x576 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1536 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x576 .f32 := win0_8.stage (cfg0.slots t 8)
abbrev hs0_8 (t : Fin cfg0.N) : (ms0_8 t).IsWhole := hstage0_8 ((cfg0.slots t 8).cast nbuf0_8)
/-- The two accumulators: whole scoped buffers of the kernel's own. -/
abbrev scM0_0 : Memref sig .tc .vmem S1024x1536 .f32 := Memref.whole cc0_scratch0
abbrev scM0_1 : Memref sig .tc .vmem S1024x576 .f32 := Memref.whole cc0_scratch1
/-- Views through which an output block's and an accumulator's contents are stated. -/
abbrev VO0_7 : View sig .tc .vmem S1024x1536 .bf16 := (Memref.whole cc0_stg7_0 : Memref sig .tc .vmem S1024x1536 .bf16).view
abbrev VO0_8 : View sig .tc .vmem S1024x576 .f32 := (Memref.whole cc0_stg8_0 : Memref sig .tc .vmem S1024x576 .f32).view
abbrev VS0_0 : View sig .tc .vmem S1024x1536 .f32 := scM0_0.view
abbrev VS0_1 : View sig .tc .vmem S1024x576 .f32 := scM0_1.view

/-! ## The region's scoped rest -/

/-- The scoped buffers region 0 never touches (the second kernel's staging buffers), each whole at some contents. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherScoped0 c) ∗ (∃ r, prngReg c r)) := by
  unfold Pipeline.ΦA otherScoped0; rw [scopedRest0_eq]; simp only [scM0_0, scM0_1, owns_whole]; try rfl

/-! ## The windows' blocks -/

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end Blocks

end Cert.Kernel.Hand

end
-- ==== Proof.KRegion0RunA.lean ====
/-
  Region 0's body at a point with k = 0 (first branch taken, second not): both accumulators are zeroed and then
  receive the first block product.  The body's triple on whole memrefs: the input block and the two weight blocks at
  their contents, the accumulators at anything; it ends with the inputs as they were and each accumulator holding the
  pieces its stores wrote (found by running the body).
-/
import proofs.«158685_j77395310674148_2_alg».proof.Proof.KRegion0Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : cond0_0 i) (hc1 : ¬cond0_1 i)
    (x0 : Vec F S1024x1792 .f32) (x1 : Vec F S1792x1536 .bf16) (x2 : Vec F S1792x576 .bf16) :
    Σ' (LS0 : List (View.Piece (Elt F) S1024x1536 .f32)), { LS1 : List (View.Piece (Elt F) S1024x576 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__cqkv_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__cqkv_kernel_eq_skeleton]; unfold cc0__cqkv_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.KRegion0RunB.lean ====
/-
  Region 0's body at a point with k = 1 or 2 (neither branch taken): each accumulator, holding what the point
  before left, receives one more block product.  The triple on whole memrefs, the pieces found by running the body.
-/
import proofs.«158685_j77395310674148_2_alg».proof.Proof.KRegion0Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : ¬cond0_1 i)
    (x0 : Vec F S1024x1792 .f32) (x1 : Vec F S1792x1536 .bf16) (x2 : Vec F S1792x576 .bf16) (xs0 : Vec F S1024x1536 .f32) (xs1 : Vec F S1024x576 .f32) :
    Σ' (LS0 : List (View.Piece (Elt F) S1024x1536 .f32)), { LS1 : List (View.Piece (Elt F) S1024x576 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__cqkv_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__cqkv_kernel_eq_skeleton]; unfold cc0__cqkv_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.KRegion0RunC.lean ====
/-
  Region 0's body at a point with k = 3 (second branch taken, first not): each accumulator receives the last block
  product, then the rows of the first are scaled by the reciprocal root of their mean square and by the first gain
  vector into output block 7, and the second accumulator's first 512 lanes likewise and its last 64 lanes rotated
  by the cosine and sine blocks into output block 8.  The triple on whole memrefs, the pieces found by running the
  body through its printed part.
-/
import proofs.«158685_j77395310674148_2_alg».proof.Proof.KRegion0Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
noncomputable def kernelRun0_C (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : cond0_1 i)
    (x0 : Vec F S1024x1792 .f32) (x1 : Vec F S1792x1536 .bf16) (x2 : Vec F S1792x576 .bf16) (x3 : Vec F S1536 .f32) (x4 : Vec F S512 .f32) (x5 : Vec F S1024x64 .f32) (x6 : Vec F S1024x64 .f32) (xs0 : Vec F S1024x1536 .f32) (xs1 : Vec F S1024x576 .f32) :
    Σ' (L7 : List (View.Piece (Elt F) S1024x1536 .bf16)) (L8 : List (View.Piece (Elt F) S1024x576 .f32)) (LS0 : List (View.Piece (Elt F) S1024x1536 .f32)), { LS1 : List (View.Piece (Elt F) S1024x576 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__cqkv_kernel i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__cqkv_kernel_eq_skeleton]; unfold cc0__cqkv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [HS0]; · iexists _; iexact HS0
    iexists _; iexact HS1

end Cert.Kernel.Hand

end
-- ==== Proof.KRegion0Frame.lean ====
/-
  Region 0's frame half, at the contents `V` the region finds in the unscoped buffers.  What the two accumulators
  hold after each of the 16 grid points (t = 4·i + k), by recursion on the point: at k = 0 the zeroed accumulator
  plus the first block product, afterwards what the point before left plus this point's block product; at k = 3
  the two output blocks besides.  The invariant between points carries the accumulators at those contents; the
  proof data, the body obligation (by cases on k), and how the invariant starts from and returns to the class's.
-/
import proofs.«158685_j77395310674148_2_alg».proof.Proof.KRegion0RunA
import proofs.«158685_j77395310674148_2_alg».proof.Proof.KRegion0RunB
import proofs.«158685_j77395310674148_2_alg».proof.Proof.KRegion0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

theorem scover0_A_0 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : cond0_0 i) (hc1 : ¬cond0_1 i)
    (x0 : Vec F S1024x1792 .f32) (x1 : Vec F S1792x1536 .bf16) (x2 : Vec F S1792x576 .bf16) (y : S1024x1536.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2).1 S1024x1536.size (by sl_kernel_rfl) y

theorem scover0_A_1 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : cond0_0 i) (hc1 : ¬cond0_1 i)
    (x0 : Vec F S1024x1792 .f32) (x1 : Vec F S1792x1536 .bf16) (x2 : Vec F S1792x576 .bf16) (y : S1024x576.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2).2.1 S1024x576.size (by sl_kernel_rfl) y

/-- What the case k = 0 leaves in the first accumulator: its pieces read back. -/
def sout0_A_0 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : cond0_0 i) (hc1 : ¬cond0_1 i)
    (x0 : Vec F S1024x1792 .f32) (x1 : Vec F S1792x1536 .bf16) (x2 : Vec F S1792x576 .bf16) : Vec F S1024x1536 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2).1)

def sout0_A_1 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : cond0_0 i) (hc1 : ¬cond0_1 i)
    (x0 : Vec F S1024x1792 .f32) (x1 : Vec F S1792x1536 .bf16) (x2 : Vec F S1792x576 .bf16) : Vec F S1024x576 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 x0 x1 x2).2.1)

theorem scover0_B_0 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : ¬cond0_1 i)
    (x0 : Vec F S1024x1792 .f32) (x1 : Vec F S1792x1536 .bf16) (x2 : Vec F S1792x576 .bf16) (xs0 : Vec F S1024x1536 .f32) (xs1 : Vec F S1024x576 .f32) (y : S1024x1536.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 xs0 xs1).1 S1024x1536.size (by sl_kernel_rfl) y

theorem scover0_B_1 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : ¬cond0_1 i)
    (x0 : Vec F S1024x1792 .f32) (x1 : Vec F S1792x1536 .bf16) (x2 : Vec F S1792x576 .bf16) (xs0 : Vec F S1024x1536 .f32) (xs1 : Vec F S1024x576 .f32) (y : S1024x576.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 xs0 xs1).2.1 S1024x576.size (by sl_kernel_rfl) y

def sout0_B_0 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : ¬cond0_1 i)
    (x0 : Vec F S1024x1792 .f32) (x1 : Vec F S1792x1536 .bf16) (x2 : Vec F S1792x576 .bf16) (xs0 : Vec F S1024x1536 .f32) (xs1 : Vec F S1024x576 .f32) : Vec F S1024x1536 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 xs0 xs1).1)

def sout0_B_1 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : ¬cond0_1 i)
    (x0 : Vec F S1024x1792 .f32) (x1 : Vec F S1792x1536 .bf16) (x2 : Vec F S1792x576 .bf16) (xs0 : Vec F S1024x1536 .f32) (xs1 : Vec F S1024x576 .f32) : Vec F S1024x576 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 hc0 hc1 x0 x1 x2 xs0 xs1).2.1)

theorem cover0_C_7 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : cond0_1 i)
    (x0 : Vec F S1024x1792 .f32) (x1 : Vec F S1792x1536 .bf16) (x2 : Vec F S1792x576 .bf16) (x3 : Vec F S1536 .f32) (x4 : Vec F S512 .f32) (x5 : Vec F S1024x64 .f32) (x6 : Vec F S1024x64 .f32) (xs0 : Vec F S1024x1536 .f32) (xs1 : Vec F S1024x576 .f32) (y : S1024x1536.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S1024x1536.size (by sl_kernel_rfl) y

theorem cover0_C_8 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : cond0_1 i)
    (x0 : Vec F S1024x1792 .f32) (x1 : Vec F S1792x1536 .bf16) (x2 : Vec F S1792x576 .bf16) (x3 : Vec F S1536 .f32) (x4 : Vec F S512 .f32) (x5 : Vec F S1024x64 .f32) (x6 : Vec F S1024x64 .f32) (xs0 : Vec F S1024x1536 .f32) (xs1 : Vec F S1024x576 .f32) (y : S1024x576.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S1024x576.size (by sl_kernel_rfl) y

theorem scover0_C_0 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : cond0_1 i)
    (x0 : Vec F S1024x1792 .f32) (x1 : Vec F S1792x1536 .bf16) (x2 : Vec F S1792x576 .bf16) (x3 : Vec F S1536 .f32) (x4 : Vec F S512 .f32) (x5 : Vec F S1024x64 .f32) (x6 : Vec F S1024x64 .f32) (xs0 : Vec F S1024x1536 .f32) (xs1 : Vec F S1024x576 .f32) (y : S1024x1536.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1024x1536.size (by sl_kernel_rfl) y

theorem scover0_C_1 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : cond0_1 i)
    (x0 : Vec F S1024x1792 .f32) (x1 : Vec F S1792x1536 .bf16) (x2 : Vec F S1792x576 .bf16) (x3 : Vec F S1536 .f32) (x4 : Vec F S512 .f32) (x5 : Vec F S1024x64 .f32) (x6 : Vec F S1024x64 .f32) (xs0 : Vec F S1024x1536 .f32) (xs1 : Vec F S1024x576 .f32) (y : S1024x576.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S1024x576.size (by sl_kernel_rfl) y

/-- What the case k = 3 leaves in output block 7 (the normalised query latent) and 8 (the normalised key-value
    latent beside the rotated rope key). -/
def out0_C_7 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : cond0_1 i)
    (x0 : Vec F S1024x1792 .f32) (x1 : Vec F S1792x1536 .bf16) (x2 : Vec F S1792x576 .bf16) (x3 : Vec F S1536 .f32) (x4 : Vec F S512 .f32) (x5 : Vec F S1024x64 .f32) (x6 : Vec F S1024x64 .f32) (xs0 : Vec F S1024x1536 .f32) (xs1 : Vec F S1024x576 .f32) : Vec F S1024x1536 .bf16 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

def out0_C_8 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : cond0_1 i)
    (x0 : Vec F S1024x1792 .f32) (x1 : Vec F S1792x1536 .bf16) (x2 : Vec F S1792x576 .bf16) (x3 : Vec F S1536 .f32) (x4 : Vec F S512 .f32) (x5 : Vec F S1024x64 .f32) (x6 : Vec F S1024x64 .f32) (xs0 : Vec F S1024x1536 .f32) (xs1 : Vec F S1024x576 .f32) : Vec F S1024x576 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

def sout0_C_0 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : cond0_1 i)
    (x0 : Vec F S1024x1792 .f32) (x1 : Vec F S1792x1536 .bf16) (x2 : Vec F S1792x576 .bf16) (x3 : Vec F S1536 .f32) (x4 : Vec F S512 .f32) (x5 : Vec F S1024x64 .f32) (x6 : Vec F S1024x64 .f32) (xs0 : Vec F S1024x1536 .f32) (xs1 : Vec F S1024x576 .f32) : Vec F S1024x1536 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

def sout0_C_1 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : cond0_1 i)
    (x0 : Vec F S1024x1792 .f32) (x1 : Vec F S1792x1536 .bf16) (x2 : Vec F S1792x576 .bf16) (x3 : Vec F S1536 .f32) (x4 : Vec F S512 .f32) (x5 : Vec F S1024x64 .f32) (x6 : Vec F S1024x64 .f32) (xs0 : Vec F S1024x1536 .f32) (xs1 : Vec F S1024x576 .f32) : Vec F S1024x576 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

section Frame
variable (V : (c : Dev nD) → (b : Ref sig .tc) → Buf (Elt F) ((c : Thread nD τ).loc b))

/-- An output block at a point that stores nothing into it: a placeholder nothing consults. -/
def idle0_7 : Vec F S1024x1536 .bf16 := VO0_7.read (Elt F) VO0_7.junk
def idle0_8 : Vec F S1024x576 .f32 := VO0_8.read (Elt F) VO0_8.junk

/-! ## What the buffers hold after each point -/

/-- The accumulation: the two output blocks and the two accumulators after the body at position `n`. -/
def outsAt0 (c : Dev nD) : (n : ℕ) → n < cfg0.N → Vec F S1024x1536 .bf16 × Vec F S1024x576 .f32 × Vec F S1024x1536 .f32 × Vec F S1024x576 .f32
  | 0, hn => (idle0_7, idle0_8, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by omega)
      else
        (idle0_7, idle0_8, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.1 (outsAt0 c n (Nat.lt_of_succ_lt hn)).2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.1 (outsAt0 c n (Nat.lt_of_succ_lt hn)).2.2.2)
      else
        (idle0_7, idle0_8, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 4 = 0) (h1 : ¬t.val % 4 = 3) :
    outsAt0 V c t.val t.isLt = (idle0_7, idle0_8, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (idle0_7, idle0_8, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the class's invariant (every scoped buffer at anything); afterwards the two accumulators
    at what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ otherScoped0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ otherScoped0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ otherScoped0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem after0_8 (c : Dev nD) (t : Fin cfg0.N) : (dat0 V c).after 8 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

end Frame

end Cert.Kernel.Hand

end
-- ==== Proof.KRegion0Body.lean ====
/-
  Region 0's body obligation: at every grid point the body, called on the current staging buffers holding the
  windows' blocks and on the invariant before the point, returns the invariant after it and each window's buffer at
  what the proof data says — by cases on k = t mod 4: k = 0 (accumulators reset then added to), k = 1, 2 (added to),
  k = 3 (added to, then both output blocks stored).  And the invariant's two ends: it starts as the class's invariant
  and gives it back after the last point, forgetting what the accumulators hold.
-/
import proofs.«158685_j77395310674148_2_alg».proof.Proof.KRegion0Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Body
variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨⟨%ds0, HS0⟩, ⟨%ds1, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t)).2.2 Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
      · rw [PhiS_castSucc V c t, PhiS_pos V c _ _ hz]
        iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t)).2.2 Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8

  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t ((hcond0_1 t).mpr h1)], after0_7]
      rw [show (dat0 V c).leavesExact 8 t = owns (c : Thread nD τ) (ms0_8 t) fullShare ((dat0 V c).after 8 t) from by
        unfold Dat.leavesExact; rw [liveAt0_8 t ((hcond0_1 t).mpr h1)], after0_8]
      rw [outsAt0_C V c t h0 h1]
      unfold out0_C_7 out0_C_8 sout0_C_0 sout0_C_1; (try dsimp only)
      by_cases hz : t.val = 0
      · exfalso; omega
      · rw [PhiS_castSucc V c t, PhiS_pos V c _ _ hz]
        iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HS1]; · iexact HS1
        iintro ⟨H0, H1, H2, H3, H4, H5, H6, ⟨%e7, H7⟩, ⟨%e8, H8⟩, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _ _ _)
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _ _ _)

    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_B V c t h0 h1]
      unfold sout0_B_0 sout0_B_1; (try dsimp only)
      by_cases hz : t.val = 0
      · exfalso; omega
      · rw [PhiS_castSucc V c t, PhiS_pos V c _ _ hz]
        iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) _ _).2.2 Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the class's back: what the accumulators hold is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

theorem hout0 (c : Dev nD) : (dat0 V c).Φ (Fin.last cfg0.N) ⊢ Pipeline.ΦA spec0 c :=
  Phi_out0 V c _ (by rw [Fin.val_last]; have : cfg0.N = 16 := N_0; omega)

end Body

end Cert.Kernel.Hand

end
-- ==== Proof.KRegion1.lean ====
/-
  Region 1 of @main (the second pallas_call, `cc1__q_kernel`, grid 8 × 16) at the buffer contents `V` the
  region is entered with: what each window's block is at a grid point, what the body leaves in the one
  output window's staging buffer, the body's triple, the pipeline's proof data and the body obligation.

  The body loads its four input buffers whole, computes one value from them and stores it whole into the
  output buffer; nothing is carried from one grid point to the next. So after the body each input buffer
  still holds its block, and the output buffer holds the payload of the four input blocks. An input window
  that the pipeline does not fetch at a point (the weight window moves only with the first grid axis) still
  holds its block there: its block index has not moved since the point before.
-/
import proofs.«158685_j77395310674148_2_alg».proof.Proof.Gen.Kernel.Launch
import proofs.«158685_j77395310674148_2_alg».proof.Proof.Gen.Kernel.Skeleton
import proofs.«158685_j77395310674148_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: where the window is not fetched its block
    index has not moved, so the block of the point before is this point's. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s and whose body leaves the block in place: where the window is not fetched its block
    index has not moved, so the block of the point before is this point's. The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s and whose body leaves the block in place: where the window is not fetched its block
    index has not moved, so the block of the point before is this point's. The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s and whose body leaves the block in place: where the window is not fetched its block
    index has not moved, so the block of the point before is this point's. The window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store is of a whole buffer -/

abbrev r1_0 : Rect S256x1536 := Rect.unit (s := S256x1536) ![0, 0] S256x1536.size inb_S256x1536_S256x1536_0_0
abbrev r1_1 : Rect S1536x3072 := Rect.unit (s := S1536x3072) ![0, 0] S1536x3072.size inb_S1536x3072_S1536x3072_0_0
abbrev r1_2 : Rect S256x64 := Rect.unit (s := S256x64) ![0, 0] S256x64.size inb_S256x64_S256x64_0_0
abbrev r1_4 : Rect S256x3072 := Rect.unit (s := S256x3072) ![0, 0] S256x3072.size inb_S256x3072_S256x3072_0_0

/-! ## What the body leaves in the output window's buffer -/

/-- Window 4's staging buffer after the body, from the input windows' blocks: its one store, of the payload
    of the four loads. -/
def out1_4 (x0 : Vec F S256x1536 .bf16) (x1 : Vec F S1536x3072 .bf16) (x2 x3 : Vec F S256x64 .f32) : Vec F S256x3072 .f32 :=
  View.canon [⟨r1_4, k1_pay1 (View.ld x0 r1_0) (View.ld x1 r1_1) (View.ld x2 r1_2) (View.ld x3 r1_2)⟩]

/-- The one store is of the whole buffer, so it covers it. -/
theorem cover1_4 (p0 : Vec F S256x3072 .f32) (y : S256x3072.Idx) :
    ∃ pc ∈ ([⟨r1_4, p0⟩] : List (View.Piece (Elt F) S256x3072 .f32)), y ∈ pc.1.set :=
  View.cover_of_tiled [⟨r1_4, p0⟩] S256x3072.size (by rfl) y

/-- The offsets of every access are zero. -/
theorem hz1 : (![0, 0] : Fin 2 → Nat) = fun _ => 0 := funext fun a => by fin_cases a <;> rfl

/-- Loads and store being whole, what the body leaves is the payload of the blocks themselves. -/
theorem out1_4_eq (x0 : Vec F S256x1536 .bf16) (x1 : Vec F S1536x3072 .bf16) (x2 x3 : Vec F S256x64 .f32) :
    out1_4 x0 x1 x2 x3 = k1_pay1 x0 x1 x2 x3 := by
  unfold out1_4
  rw [View.canon_unit_zero hz1]
  rw [View.ld_unit_zero (S := S256x1536) hz1, View.ld_unit_zero (S := S1536x3072) hz1, View.ld_unit_zero (S := S256x64) hz1,
    View.ld_unit_zero (S := S256x64) hz1]

/-! ## The body's triple -/

set_option maxHeartbeats 1000000 in
/-- The kernel body on whole staging memrefs, the inputs' at read contents `xW` and the output's at anything, runs to
    the continuation holding the inputs' as they were and the output's at `out1_4` of the inputs'. -/
theorem sound_kernel1 (c : Dev nD) (E : Set ℕ) (i : grid1.Coords)
    (arg0 : Memref sig .tc .vmem S256x1536 .bf16) (harg0 : arg0.IsWhole) (arg1 : Memref sig .tc .vmem S1536x3072 .bf16) (harg1 : arg1.IsWhole)
    (arg2 : Memref sig .tc .vmem S256x64 .f32) (harg2 : arg2.IsWhole) (arg3 : Memref sig .tc .vmem S256x64 .f32) (harg3 : arg3.IsWhole)
    (arg4 : Memref sig .tc .vmem S256x3072 .f32) (harg4 : arg4.IsWhole)
    (x0 : Vec F S256x1536 .bf16) (x1 : Vec F S1536x3072 .bf16) (x2 : Vec F S256x64 .f32) (x3 : Vec F S256x64 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__q_kernel i arg0 harg0 arg1 harg1 arg2 harg2 arg3 harg3 arg4 harg4) K := by
  simp only [cc1__q_kernel_eq_skeleton]; unfold cc1__q_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at
    point `t` each input's buffer at its block and the output's at `out1_4` of the input blocks; the invariant is
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole program as four segments — the three host conversions, region 0, region 1, the host concatenation —
  run from any launch memory: the buffers' contents at each boundary as a fold from the launch memory (a host
  stretch applies its operations; a region leaves its arrays at what its write-backs make of them and every other
  buffer as it found it), each region as a segment over the thread state "every unscoped buffer at the boundary's
  contents, the generator register at some state, nothing owed", and the run: every weakly fair execution
  terminates with every unscoped buffer at the last boundary's contents.
-/
import proofs.«158685_j77395310674148_2_alg».proof.Proof.KRegion0Body
import proofs.«158685_j77395310674148_2_alg».proof.Proof.KRegion1
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After region 1, entered straight from region 0's exit contents. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the host concatenation: the end. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : ∀ (A B : sProp 𝕄), iprop((∃ r, prngReg c r) ∗ A ∗ B) ⊢ iprop(B ∗ ∃ r, prngReg c r) := fun A B => by
      iintro ⟨Hp, -, Hr⟩
      isplitl [Hr]; · iexact Hr
      iexact Hp
    have h0 := hin0 (V1 m ρ) c
    unfold Pipeline.ΦA at h0
    exact (h _ _).trans h0
  hout c := by
    have h : ∀ (B : sProp 𝕄), iprop(B ∗ ∃ r, prngReg c r) ⊢ iprop((∃ r, prngReg c r) ∗ BI.emp ∗ B) := fun B => by
      iintro ⟨Hr, Hp⟩
      isplitl [Hp]; · iexact Hp
      isplitr; · iempintro
      iexact Hr
    have h0 := hout0 (V1 m ρ) c
    unfold Pipeline.ΦA at h0
    rw [Pipeline.ownSems0_none]
    exact h0.trans (h _)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

/-- The last thread state without the `owes`. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- THE RUN: from any memory with zero counters every weakly fair execution of the program terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (StableHlo.after hostOps2 (W3 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.KFrameArgs.lean ====
/-
  Every argument array ends as launched: no host operation writes one, and a region either stages it through an
  input window (whose array the pipeline leaves as it found it) or does not touch it; so the fold of the buffers'
  contents, read at an argument, walks back to the launch memory.  With the run, that is the frame claim.
-/
import proofs.«158685_j77395310674148_2_alg».proof.Proof.KRun
import proofs.«158685_j77395310674148_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := (W3_arr m ρ c 2).trans (((dat1 (V2 m ρ) c).arrAt_in 2 rfl _).trans (A_eq1 (V2 m ρ) c 2))
    _ = W1 m ρ c (Proc.devRef .tc main_arg4) := (W2_arr m ρ c 5).trans (((dat0 (V1 m ρ) c).arrAt_in 5 rfl _).trans (A_eq0 (V1 m ρ) c 5))
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := (W3_arr m ρ c 3).trans (((dat1 (V2 m ρ) c).arrAt_in 3 rfl _).trans (A_eq1 (V2 m ρ) c 3))
    _ = W1 m ρ c (Proc.devRef .tc main_arg5) := (W2_arr m ρ c 6).trans (((dat0 (V1 m ρ) c).arrAt_in 6 rfl _).trans (A_eq0 (V1 m ρ) c 6))
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_writes_sub hostOps2 _ hostOps2_writes (by decide)
    _ = W2 m ρ c (Proc.devRef .tc main_arg6) := W3_of_ne m ρ c main_arg6 (by decide)
    _ = W1 m ρ c (Proc.devRef .tc main_arg6) := (W2_arr m ρ c 3).trans (((dat0 (V1 m ρ) c).arrAt_in 3 rfl _).trans (A_eq0 (V1 m ρ) c 3))
    _ = W0 m ρ c (Proc.devRef .tc main_arg6) := StableHlo.after_of_writes_sub hostOps0 _ hostOps0_writes (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := StableHlo.after_of_writes_sub hostOps2 _ hostOps2_writes (by decide)
    _ = W2 m ρ c (Proc.devRef .tc main_arg7) := W3_of_ne m ρ c main_arg7 (by decide)
    _ = W1 m ρ c (Proc.devRef .tc main_arg7) := (W2_arr m ρ c 4).trans (((dat0 (V1 m ρ) c).arrAt_in 4 rfl _).trans (A_eq0 (V1 m ρ) c 4))
    _ = W0 m ρ c (Proc.devRef .tc main_arg7) := StableHlo.after_of_writes_sub hostOps0 _ hostOps0_writes (by decide)
    _ = m ((c : Thread nD τ).loc main_arg7) := rfl

/-- The frame claim's statement at any `F`: the run, its last valuation read at the arguments. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_all m ρ)

end Cert.Kernel.Hand

end
-- ==== Proof.KIRegion0Kit.lean ====
/-
  Region 0 (the fused down-projection kernel, grid 4 × 4: row block i, contraction block k) — what its
  three control cases share.  The body zeroes its two accumulators when k = 0, adds one block product to each at
  every k, and at k = 3 normalises the rows and rotates the rope lanes into its two output blocks.  Here: the two
  branch conditions in closed form over the 16 grid points (k = t mod 4), where the output windows are idle,
  the staging and scratch memrefs by name, the region's scoped rest enumerated, each window's block at a point read
  off the arrays as the region finds them (a parameter `V`), and that an input window's staging buffer holds that
  block at every point whether or not the point fetches it.
-/
import proofs.«158685_j77395310674148_2_alg».proof.Proof.Gen.KernelIdeal.Launch
import proofs.«158685_j77395310674148_2_alg».proof.Proof.Gen.KernelIdeal.Skeleton
import proofs.«158685_j77395310674148_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions -/

/-- The first branch of the body: the contraction block is the first (k = 0). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch: the contraction block is the last (k = 3). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from k = 3 the body stores nothing into either output block, and the block is not written back. -/
theorem idleAt0_7 : ∀ t : Fin cfg0.N, ¬cond0_1 (grid0.coords t) → cfg0.idle 7 (grid0.coords t) = true := by decide +kernel
theorem idleAt0_8 : ∀ t : Fin cfg0.N, ¬cond0_1 (grid0.coords t) → cfg0.idle 8 (grid0.coords t) = true := by decide +kernel
theorem noFlush0_7 : ∀ t : Fin cfg0.N, ¬cond0_1 (grid0.coords t) → (cfg0.win 7).flush t = false := by decide +kernel
theorem noFlush0_8 : ∀ t : Fin cfg0.N, ¬cond0_1 (grid0.coords t) → (cfg0.win 8).flush t = false := by decide +kernel
/-- At k = 3 both output blocks are stored whole. -/
theorem liveAt0_7 : ∀ t : Fin cfg0.N, cond0_1 (grid0.coords t) → cfg0.idle 7 (grid0.coords t) = false := by decide +kernel
theorem liveAt0_8 : ∀ t : Fin cfg0.N, cond0_1 (grid0.coords t) → cfg0.idle 8 (grid0.coords t) = false := by decide +kernel

/-! ## The memrefs the body is called with -/

abbrev ms0_0 (t : Fin cfg0.N) : Memref sig .tc .vmem S1024x1792 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1792x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1792x576 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1536 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x576 .f32 := win0_8.stage (cfg0.slots t 8)
abbrev hs0_8 (t : Fin cfg0.N) : (ms0_8 t).IsWhole := hstage0_8 ((cfg0.slots t 8).cast nbuf0_8)
/-- The two accumulators: whole scoped buffers of the kernel's own. -/
abbrev scM0_0 : Memref sig .tc .vmem S1024x1536 .f32 := Memref.whole cc0_scratch0
abbrev scM0_1 : Memref sig .tc .vmem S1024x576 .f32 := Memref.whole cc0_scratch1
/-- Views through which an output block's and an accumulator's contents are stated. -/
abbrev VO0_7 : View sig .tc .vmem S1024x1536 .bf16 := (Memref.whole cc0_stg7_0 : Memref sig .tc .vmem S1024x1536 .bf16).view
abbrev VO0_8 : View sig .tc .vmem S1024x576 .f32 := (Memref.whole cc0_stg8_0 : Memref sig .tc .vmem S1024x576 .f32).view
abbrev VS0_0 : View sig .tc .vmem S1024x1536 .f32 := scM0_0.view
abbrev VS0_1 : View sig .tc .vmem S1024x576 .f32 := scM0_1.view

/-! ## The region's scoped rest -/

/-- The scoped buffers region 0 never touches (the second kernel's staging buffers), each whole at some contents. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherScoped0 c) ∗ (∃ r, prngReg c r)) := by
  unfold Pipeline.ΦA otherScoped0; rw [scopedRest0_eq]; simp only [scM0_0, scM0_1, owns_whole]; try rfl

/-! ## The windows' blocks -/

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end Blocks

end Cert.KernelIdeal.Hand

end
-- ==== Proof.KIRegion0RunA.lean ====
/-
  Region 0's body at a point with k = 0 (first branch taken, second not): both accumulators are zeroed and then
  receive the first block product.  The body's triple on whole memrefs: the input block and the two weight blocks at
  their contents, the accumulators at anything; it ends with the inputs as they were and each accumulator holding the
  pieces its stores wrote (found by running the body).
-/
import proofs.«158685_j77395310674148_2_alg».proof.Proof.KIRegion0Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : cond0_0 i) (hc1 : ¬cond0_1 i)
    (x0 : Vec F S1024x1792 .f32) (x1 : Vec F S1792x1536 .bf16) (x2 : Vec F S1792x576 .bf16) :
    Σ' (LS0 : List (View.Piece (Elt F) S1024x1536 .f32)), { LS1 : List (View.Piece (Elt F) S1024x576 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__cqkv_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__cqkv_kernel_eq_skeleton]; unfold cc0__cqkv_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.KIRegion0RunB.lean ====
/-
  Region 0's body at a point with k = 1 or 2 (neither branch taken): each accumulator, holding what the point
  before left, receives one more block product.  The triple on whole memrefs, the pieces found by running the body.
-/
import proofs.«158685_j77395310674148_2_alg».proof.Proof.KIRegion0Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : ¬cond0_1 i)
    (x0 : Vec F S1024x1792 .f32) (x1 : Vec F S1792x1536 .bf16) (x2 : Vec F S1792x576 .bf16) (xs0 : Vec F S1024x1536 .f32) (xs1 : Vec F S1024x576 .f32) :
    Σ' (LS0 : List (View.Piece (Elt F) S1024x1536 .f32)), { LS1 : List (View.Piece (Elt F) S1024x576 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__cqkv_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__cqkv_kernel_eq_skeleton]; unfold cc0__cqkv_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.KIRegion0RunC.lean ====
/-
  Region 0's body at a point with k = 3 (second branch taken, first not): each accumulator receives the last block
  product, then the rows of the first are scaled by the reciprocal root of their mean square and by the first gain
  vector into output block 7, and the second accumulator's first 512 lanes likewise and its last 64 lanes rotated
  by the cosine and sine blocks into output block 8.  The triple on whole memrefs, the pieces found by running the
  body through its printed part.
-/
import proofs.«158685_j77395310674148_2_alg».proof.Proof.KIRegion0Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
noncomputable def kernelRun0_C (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : cond0_1 i)
    (x0 : Vec F S1024x1792 .f32) (x1 : Vec F S1792x1536 .bf16) (x2 : Vec F S1792x576 .bf16) (x3 : Vec F S1536 .f32) (x4 : Vec F S512 .f32) (x5 : Vec F S1024x64 .f32) (x6 : Vec F S1024x64 .f32) (xs0 : Vec F S1024x1536 .f32) (xs1 : Vec F S1024x576 .f32) :
    Σ' (L7 : List (View.Piece (Elt F) S1024x1536 .bf16)) (L8 : List (View.Piece (Elt F) S1024x576 .f32)) (LS0 : List (View.Piece (Elt F) S1024x1536 .f32)), { LS1 : List (View.Piece (Elt F) S1024x576 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__cqkv_kernel i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__cqkv_kernel_eq_skeleton]; unfold cc0__cqkv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [HS0]; · iexists _; iexact HS0
    iexists _; iexact HS1

end Cert.KernelIdeal.Hand

end
-- ==== Proof.KIRegion0Frame.lean ====
/-
  Region 0's frame half, at the contents `V` the region finds in the unscoped buffers.  What the two accumulators
  hold after each of the 16 grid points (t = 4·i + k), by recursion on the point: at k = 0 the zeroed accumulator
  plus the first block product, afterwards what the point before left plus this point's block product; at k = 3
  the two output blocks besides.  The invariant between points carries the accumulators at those contents; the
  proof data, the body obligation (by cases on k), and how the invariant starts from and returns to the class's.
-/
import proofs.«158685_j77395310674148_2_alg».proof.Proof.KIRegion0RunA
import proofs.«158685_j77395310674148_2_alg».proof.Proof.KIRegion0RunB
import proofs.«158685_j77395310674148_2_alg».proof.Proof.KIRegion0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

theorem scover0_A_0 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : cond0_0 i) (hc1 : ¬cond0_1 i)
    (x0 : Vec F S1024x1792 .f32) (x1 : Vec F S1792x1536 .bf16) (x2 : Vec F S1792x576 .bf16) (y : S1024x1536.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2).1 S1024x1536.size (by sl_kernel_rfl) y

theorem scover0_A_1 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : cond0_0 i) (hc1 : ¬cond0_1 i)
    (x0 : Vec F S1024x1792 .f32) (x1 : Vec F S1792x1536 .bf16) (x2 : Vec F S1792x576 .bf16) (y : S1024x576.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2).2.1 S1024x576.size (by sl_kernel_rfl) y

/-- What the case k = 0 leaves in the first accumulator: its pieces read back. -/
def sout0_A_0 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : cond0_0 i) (hc1 : ¬cond0_1 i)
    (x0 : Vec F S1024x1792 .f32) (x1 : Vec F S1792x1536 .bf16) (x2 : Vec F S1792x576 .bf16) : Vec F S1024x1536 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2).1)

def sout0_A_1 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : cond0_0 i) (hc1 : ¬cond0_1 i)
    (x0 : Vec F S1024x1792 .f32) (x1 : Vec F S1792x1536 .bf16) (x2 : Vec F S1792x576 .bf16) : Vec F S1024x576 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 x0 x1 x2).2.1)

theorem scover0_B_0 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : ¬cond0_1 i)
    (x0 : Vec F S1024x1792 .f32) (x1 : Vec F S1792x1536 .bf16) (x2 : Vec F S1792x576 .bf16) (xs0 : Vec F S1024x1536 .f32) (xs1 : Vec F S1024x576 .f32) (y : S1024x1536.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 xs0 xs1).1 S1024x1536.size (by sl_kernel_rfl) y

theorem scover0_B_1 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : ¬cond0_1 i)
    (x0 : Vec F S1024x1792 .f32) (x1 : Vec F S1792x1536 .bf16) (x2 : Vec F S1792x576 .bf16) (xs0 : Vec F S1024x1536 .f32) (xs1 : Vec F S1024x576 .f32) (y : S1024x576.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 xs0 xs1).2.1 S1024x576.size (by sl_kernel_rfl) y

def sout0_B_0 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : ¬cond0_1 i)
    (x0 : Vec F S1024x1792 .f32) (x1 : Vec F S1792x1536 .bf16) (x2 : Vec F S1792x576 .bf16) (xs0 : Vec F S1024x1536 .f32) (xs1 : Vec F S1024x576 .f32) : Vec F S1024x1536 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 xs0 xs1).1)

def sout0_B_1 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : ¬cond0_1 i)
    (x0 : Vec F S1024x1792 .f32) (x1 : Vec F S1792x1536 .bf16) (x2 : Vec F S1792x576 .bf16) (xs0 : Vec F S1024x1536 .f32) (xs1 : Vec F S1024x576 .f32) : Vec F S1024x576 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 hc0 hc1 x0 x1 x2 xs0 xs1).2.1)

theorem cover0_C_7 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : cond0_1 i)
    (x0 : Vec F S1024x1792 .f32) (x1 : Vec F S1792x1536 .bf16) (x2 : Vec F S1792x576 .bf16) (x3 : Vec F S1536 .f32) (x4 : Vec F S512 .f32) (x5 : Vec F S1024x64 .f32) (x6 : Vec F S1024x64 .f32) (xs0 : Vec F S1024x1536 .f32) (xs1 : Vec F S1024x576 .f32) (y : S1024x1536.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S1024x1536.size (by sl_kernel_rfl) y

theorem cover0_C_8 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : cond0_1 i)
    (x0 : Vec F S1024x1792 .f32) (x1 : Vec F S1792x1536 .bf16) (x2 : Vec F S1792x576 .bf16) (x3 : Vec F S1536 .f32) (x4 : Vec F S512 .f32) (x5 : Vec F S1024x64 .f32) (x6 : Vec F S1024x64 .f32) (xs0 : Vec F S1024x1536 .f32) (xs1 : Vec F S1024x576 .f32) (y : S1024x576.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S1024x576.size (by sl_kernel_rfl) y

theorem scover0_C_0 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : cond0_1 i)
    (x0 : Vec F S1024x1792 .f32) (x1 : Vec F S1792x1536 .bf16) (x2 : Vec F S1792x576 .bf16) (x3 : Vec F S1536 .f32) (x4 : Vec F S512 .f32) (x5 : Vec F S1024x64 .f32) (x6 : Vec F S1024x64 .f32) (xs0 : Vec F S1024x1536 .f32) (xs1 : Vec F S1024x576 .f32) (y : S1024x1536.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1024x1536.size (by sl_kernel_rfl) y

theorem scover0_C_1 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : cond0_1 i)
    (x0 : Vec F S1024x1792 .f32) (x1 : Vec F S1792x1536 .bf16) (x2 : Vec F S1792x576 .bf16) (x3 : Vec F S1536 .f32) (x4 : Vec F S512 .f32) (x5 : Vec F S1024x64 .f32) (x6 : Vec F S1024x64 .f32) (xs0 : Vec F S1024x1536 .f32) (xs1 : Vec F S1024x576 .f32) (y : S1024x576.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S1024x576.size (by sl_kernel_rfl) y

/-- What the case k = 3 leaves in output block 7 (the normalised query latent) and 8 (the normalised key-value
    latent beside the rotated rope key). -/
def out0_C_7 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : cond0_1 i)
    (x0 : Vec F S1024x1792 .f32) (x1 : Vec F S1792x1536 .bf16) (x2 : Vec F S1792x576 .bf16) (x3 : Vec F S1536 .f32) (x4 : Vec F S512 .f32) (x5 : Vec F S1024x64 .f32) (x6 : Vec F S1024x64 .f32) (xs0 : Vec F S1024x1536 .f32) (xs1 : Vec F S1024x576 .f32) : Vec F S1024x1536 .bf16 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

def out0_C_8 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : cond0_1 i)
    (x0 : Vec F S1024x1792 .f32) (x1 : Vec F S1792x1536 .bf16) (x2 : Vec F S1792x576 .bf16) (x3 : Vec F S1536 .f32) (x4 : Vec F S512 .f32) (x5 : Vec F S1024x64 .f32) (x6 : Vec F S1024x64 .f32) (xs0 : Vec F S1024x1536 .f32) (xs1 : Vec F S1024x576 .f32) : Vec F S1024x576 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

def sout0_C_0 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : cond0_1 i)
    (x0 : Vec F S1024x1792 .f32) (x1 : Vec F S1792x1536 .bf16) (x2 : Vec F S1792x576 .bf16) (x3 : Vec F S1536 .f32) (x4 : Vec F S512 .f32) (x5 : Vec F S1024x64 .f32) (x6 : Vec F S1024x64 .f32) (xs0 : Vec F S1024x1536 .f32) (xs1 : Vec F S1024x576 .f32) : Vec F S1024x1536 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

def sout0_C_1 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : cond0_1 i)
    (x0 : Vec F S1024x1792 .f32) (x1 : Vec F S1792x1536 .bf16) (x2 : Vec F S1792x576 .bf16) (x3 : Vec F S1536 .f32) (x4 : Vec F S512 .f32) (x5 : Vec F S1024x64 .f32) (x6 : Vec F S1024x64 .f32) (xs0 : Vec F S1024x1536 .f32) (xs1 : Vec F S1024x576 .f32) : Vec F S1024x576 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

section Frame
variable (V : (c : Dev nD) → (b : Ref sig .tc) → Buf (Elt F) ((c : Thread nD τ).loc b))

/-- An output block at a point that stores nothing into it: a placeholder nothing consults. -/
def idle0_7 : Vec F S1024x1536 .bf16 := VO0_7.read (Elt F) VO0_7.junk
def idle0_8 : Vec F S1024x576 .f32 := VO0_8.read (Elt F) VO0_8.junk

/-! ## What the buffers hold after each point -/

/-- The accumulation: the two output blocks and the two accumulators after the body at position `n`. -/
def outsAt0 (c : Dev nD) : (n : ℕ) → n < cfg0.N → Vec F S1024x1536 .bf16 × Vec F S1024x576 .f32 × Vec F S1024x1536 .f32 × Vec F S1024x576 .f32
  | 0, hn => (idle0_7, idle0_8, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by omega)
      else
        (idle0_7, idle0_8, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.1 (outsAt0 c n (Nat.lt_of_succ_lt hn)).2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.1 (outsAt0 c n (Nat.lt_of_succ_lt hn)).2.2.2)
      else
        (idle0_7, idle0_8, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 4 = 0) (h1 : ¬t.val % 4 = 3) :
    outsAt0 V c t.val t.isLt = (idle0_7, idle0_8, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (idle0_7, idle0_8, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the class's invariant (every scoped buffer at anything); afterwards the two accumulators
    at what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ otherScoped0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ otherScoped0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ otherScoped0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem after0_8 (c : Dev nD) (t : Fin cfg0.N) : (dat0 V c).after 8 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

end Frame

end Cert.KernelIdeal.Hand

end
-- ==== Proof.KIRegion0Body.lean ====
/-
  Region 0's body obligation: at every grid point the body, called on the current staging buffers holding the
  windows' blocks and on the invariant before the point, returns the invariant after it and each window's buffer at
  what the proof data says — by cases on k = t mod 4: k = 0 (accumulators reset then added to), k = 1, 2 (added to),
  k = 3 (added to, then both output blocks stored).  And the invariant's two ends: it starts as the class's invariant
  and gives it back after the last point, forgetting what the accumulators hold.
-/
import proofs.«158685_j77395310674148_2_alg».proof.Proof.KIRegion0Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Body
variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨⟨%ds0, HS0⟩, ⟨%ds1, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t)).2.2 Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8
      · rw [PhiS_castSucc V c t, PhiS_pos V c _ _ hz]
        iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t)).2.2 Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8

  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t ((hcond0_1 t).mpr h1)], after0_7]
      rw [show (dat0 V c).leavesExact 8 t = owns (c : Thread nD τ) (ms0_8 t) fullShare ((dat0 V c).after 8 t) from by
        unfold Dat.leavesExact; rw [liveAt0_8 t ((hcond0_1 t).mpr h1)], after0_8]
      rw [outsAt0_C V c t h0 h1]
      unfold out0_C_7 out0_C_8 sout0_C_0 sout0_C_1; (try dsimp only)
      by_cases hz : t.val = 0
      · exfalso; omega
      · rw [PhiS_castSucc V c t, PhiS_pos V c _ _ hz]
        iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HS1]; · iexact HS1
        iintro ⟨H0, H1, H2, H3, H4, H5, H6, ⟨%e7, H7⟩, ⟨%e8, H8⟩, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _ _ _)
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _ _ _)

    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_B V c t h0 h1]
      unfold sout0_B_0 sout0_B_1; (try dsimp only)
      by_cases hz : t.val = 0
      · exfalso; omega
      · rw [PhiS_castSucc V c t, PhiS_pos V c _ _ hz]
        iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) _ _).2.2 Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the class's back: what the accumulators hold is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

theorem hout0 (c : Dev nD) : (dat0 V c).Φ (Fin.last cfg0.N) ⊢ Pipeline.ΦA spec0 c :=
  Phi_out0 V c _ (by rw [Fin.val_last]; have : cfg0.N = 16 := N_0; omega)

end Body

end Cert.KernelIdeal.Hand

end
-- ==== Proof.KIRegion1.lean ====
/-
  Region 1 of @main (the second pallas_call, `cc1__q_kernel`, grid 8 × 16) at the buffer contents `V` the
  region is entered with: what each window's block is at a grid point, what the body leaves in the one
  output window's staging buffer, the body's triple, the pipeline's proof data and the body obligation.

  The body loads its four input buffers whole, computes one value from them and stores it whole into the
  output buffer; nothing is carried from one grid point to the next. So after the body each input buffer
  still holds its block, and the output buffer holds the payload of the four input blocks. An input window
  that the pipeline does not fetch at a point (the weight window moves only with the first grid axis) still
  holds its block there: its block index has not moved since the point before.
-/
import proofs.«158685_j77395310674148_2_alg».proof.Proof.Gen.KernelIdeal.Launch
import proofs.«158685_j77395310674148_2_alg».proof.Proof.Gen.KernelIdeal.Skeleton
import proofs.«158685_j77395310674148_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: where the window is not fetched its block
    index has not moved, so the block of the point before is this point's. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s and whose body leaves the block in place: where the window is not fetched its block
    index has not moved, so the block of the point before is this point's. The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s and whose body leaves the block in place: where the window is not fetched its block
    index has not moved, so the block of the point before is this point's. The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s and whose body leaves the block in place: where the window is not fetched its block
    index has not moved, so the block of the point before is this point's. The window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store is of a whole buffer -/

abbrev r1_0 : Rect S256x1536 := Rect.unit (s := S256x1536) ![0, 0] S256x1536.size inb_S256x1536_S256x1536_0_0
abbrev r1_1 : Rect S1536x3072 := Rect.unit (s := S1536x3072) ![0, 0] S1536x3072.size inb_S1536x3072_S1536x3072_0_0
abbrev r1_2 : Rect S256x64 := Rect.unit (s := S256x64) ![0, 0] S256x64.size inb_S256x64_S256x64_0_0
abbrev r1_4 : Rect S256x3072 := Rect.unit (s := S256x3072) ![0, 0] S256x3072.size inb_S256x3072_S256x3072_0_0

/-! ## What the body leaves in the output window's buffer -/

/-- Window 4's staging buffer after the body, from the input windows' blocks: its one store, of the payload
    of the four loads. -/
def out1_4 (x0 : Vec F S256x1536 .bf16) (x1 : Vec F S1536x3072 .bf16) (x2 x3 : Vec F S256x64 .f32) : Vec F S256x3072 .f32 :=
  View.canon [⟨r1_4, k1_pay1 (View.ld x0 r1_0) (View.ld x1 r1_1) (View.ld x2 r1_2) (View.ld x3 r1_2)⟩]

/-- The one store is of the whole buffer, so it covers it. -/
theorem cover1_4 (p0 : Vec F S256x3072 .f32) (y : S256x3072.Idx) :
    ∃ pc ∈ ([⟨r1_4, p0⟩] : List (View.Piece (Elt F) S256x3072 .f32)), y ∈ pc.1.set :=
  View.cover_of_tiled [⟨r1_4, p0⟩] S256x3072.size (by rfl) y

/-- The offsets of every access are zero. -/
theorem hz1 : (![0, 0] : Fin 2 → Nat) = fun _ => 0 := funext fun a => by fin_cases a <;> rfl

/-- Loads and store being whole, what the body leaves is the payload of the blocks themselves. -/
theorem out1_4_eq (x0 : Vec F S256x1536 .bf16) (x1 : Vec F S1536x3072 .bf16) (x2 x3 : Vec F S256x64 .f32) :
    out1_4 x0 x1 x2 x3 = k1_pay1 x0 x1 x2 x3 := by
  unfold out1_4
  rw [View.canon_unit_zero hz1]
  rw [View.ld_unit_zero (S := S256x1536) hz1, View.ld_unit_zero (S := S1536x3072) hz1, View.ld_unit_zero (S := S256x64) hz1,
    View.ld_unit_zero (S := S256x64) hz1]

/-! ## The body's triple -/

set_option maxHeartbeats 1000000 in
/-- The kernel body on whole staging memrefs, the inputs' at read contents `xW` and the output's at anything, runs to
    the continuation holding the inputs' as they were and the output's at `out1_4` of the inputs'. -/
theorem sound_kernel1 (c : Dev nD) (E : Set ℕ) (i : grid1.Coords)
    (arg0 : Memref sig .tc .vmem S256x1536 .bf16) (harg0 : arg0.IsWhole) (arg1 : Memref sig .tc .vmem S1536x3072 .bf16) (harg1 : arg1.IsWhole)
    (arg2 : Memref sig .tc .vmem S256x64 .f32) (harg2 : arg2.IsWhole) (arg3 : Memref sig .tc .vmem S256x64 .f32) (harg3 : arg3.IsWhole)
    (arg4 : Memref sig .tc .vmem S256x3072 .f32) (harg4 : arg4.IsWhole)
    (x0 : Vec F S256x1536 .bf16) (x1 : Vec F S1536x3072 .bf16) (x2 : Vec F S256x64 .f32) (x3 : Vec F S256x64 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__q_kernel i arg0 harg0 arg1 harg1 arg2 harg2 arg3 harg3 arg4 harg4) K := by
  simp only [cc1__q_kernel_eq_skeleton]; unfold cc1__q_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at
    point `t` each input's buffer at its block and the output's at `out1_4` of the input blocks; the invariant is
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The whole program as four segments — the three host conversions, region 0, region 1, the host concatenation —
  run from any launch memory: the buffers' contents at each boundary as a fold from the launch memory (a host
  stretch applies its operations; a region leaves its arrays at what its write-backs make of them and every other
  buffer as it found it), each region as a segment over the thread state "every unscoped buffer at the boundary's
  contents, the generator register at some state, nothing owed", and the run: every weakly fair execution
  terminates with every unscoped buffer at the last boundary's contents.
-/
import proofs.«158685_j77395310674148_2_alg».proof.Proof.KIRegion0Body
import proofs.«158685_j77395310674148_2_alg».proof.Proof.KIRegion1
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After region 1, entered straight from region 0's exit contents. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the host concatenation: the end. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : ∀ (A B : sProp 𝕄), iprop((∃ r, prngReg c r) ∗ A ∗ B) ⊢ iprop(B ∗ ∃ r, prngReg c r) := fun A B => by
      iintro ⟨Hp, -, Hr⟩
      isplitl [Hr]; · iexact Hr
      iexact Hp
    have h0 := hin0 (V1 m ρ) c
    unfold Pipeline.ΦA at h0
    exact (h _ _).trans h0
  hout c := by
    have h : ∀ (B : sProp 𝕄), iprop(B ∗ ∃ r, prngReg c r) ⊢ iprop((∃ r, prngReg c r) ∗ BI.emp ∗ B) := fun B => by
      iintro ⟨Hr, Hp⟩
      isplitl [Hp]; · iexact Hp
      isplitr; · iempintro
      iexact Hr
    have h0 := hout0 (V1 m ρ) c
    unfold Pipeline.ΦA at h0
    rw [Pipeline.ownSems0_none]
    exact h0.trans (h _)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

/-- The last thread state without the `owes`. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- THE RUN: from any memory with zero counters every weakly fair execution of the program terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (StableHlo.after hostOps2 (W3 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.KIFrameArgs.lean ====
/-
  Every argument array ends as launched: no host operation writes one, and a region either stages it through an
  input window (whose array the pipeline leaves as it found it) or does not touch it; so the fold of the buffers'
  contents, read at an argument, walks back to the launch memory.  With the run, that is the frame claim.
-/
import proofs.«158685_j77395310674148_2_alg».proof.Proof.KIRun
import proofs.«158685_j77395310674148_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := (W3_arr m ρ c 2).trans (((dat1 (V2 m ρ) c).arrAt_in 2 rfl _).trans (A_eq1 (V2 m ρ) c 2))
    _ = W1 m ρ c (Proc.devRef .tc main_arg4) := (W2_arr m ρ c 5).trans (((dat0 (V1 m ρ) c).arrAt_in 5 rfl _).trans (A_eq0 (V1 m ρ) c 5))
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := (W3_arr m ρ c 3).trans (((dat1 (V2 m ρ) c).arrAt_in 3 rfl _).trans (A_eq1 (V2 m ρ) c 3))
    _ = W1 m ρ c (Proc.devRef .tc main_arg5) := (W2_arr m ρ c 6).trans (((dat0 (V1 m ρ) c).arrAt_in 6 rfl _).trans (A_eq0 (V1 m ρ) c 6))
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_writes_sub hostOps2 _ hostOps2_writes (by decide)
    _ = W2 m ρ c (Proc.devRef .tc main_arg6) := W3_of_ne m ρ c main_arg6 (by decide)
    _ = W1 m ρ c (Proc.devRef .tc main_arg6) := (W2_arr m ρ c 3).trans (((dat0 (V1 m ρ) c).arrAt_in 3 rfl _).trans (A_eq0 (V1 m ρ) c 3))
    _ = W0 m ρ c (Proc.devRef .tc main_arg6) := StableHlo.after_of_writes_sub hostOps0 _ hostOps0_writes (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := StableHlo.after_of_writes_sub hostOps2 _ hostOps2_writes (by decide)
    _ = W2 m ρ c (Proc.devRef .tc main_arg7) := W3_of_ne m ρ c main_arg7 (by decide)
    _ = W1 m ρ c (Proc.devRef .tc main_arg7) := (W2_arr m ρ c 4).trans (((dat0 (V1 m ρ) c).arrAt_in 4 rfl _).trans (A_eq0 (V1 m ρ) c 4))
    _ = W0 m ρ c (Proc.devRef .tc main_arg7) := StableHlo.after_of_writes_sub hostOps0 _ hostOps0_writes (by decide)
    _ = m ((c : Thread nD τ).loc main_arg7) := rfl

/-- The frame claim's statement at any `F`: the run, its last valuation read at the arguments. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_all m ρ)

end Cert.KernelIdeal.Hand

end
-- ==== Proof.RefFrame.lean ====
/-
  The reference's frame: every weakly fair execution of the host program terminates, faults nowhere and
  leaves its eight argument arrays as it found them. The host program is a straight line of pure array
  operations, each writing a fresh buffer; its run, read back, has this as the second half of its postcondition.
-/
import proofs.«158685_j77395310674148_2_alg».proof.Defs
import proofs.«158685_j77395310674148_2_alg».proof.Proof.Gen.ReferenceIdeal
import proofs.«158685_j77395310674148_2_alg».proof.Proof.Gen.Pre_finite_inputs
import proofs.«158685_j77395310674148_2_alg».proof.Proof.Gen.ReferenceIdeal.Run

noncomputable section

open Idealize.ShloMosaic Idealize.ShloMosaic.TcCoe Idealize.SL.Sem

namespace Cert.ReferenceIdeal.RefFrame

/-- The argument arrays are unchanged at the end of the reference's run: the run's postcondition with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefFrame

end
-- ==== Proof.Frames.lean ====
/-
  Four of the certificate's five claims.  Each kernel program — the three host conversions, the fused
  down-projection region, the query region, the host concatenation — runs to the end from any launch memory and
  leaves its eight argument arrays as launched (the run over its four segments, each argument read back through the
  boundary contents); the reference, a straight line of host operations, likewise (its run with the result dropped);
  and the idealized kernel is the kernel's own text read over the extended reals, no operation rewritten.
-/
import proofs.«158685_j77395310674148_2_alg».proof.Defs
import proofs.«158685_j77395310674148_2_alg».proof.Proof.KFrameArgs
import proofs.«158685_j77395310674148_2_alg».proof.Proof.KIFrameArgs
import proofs.«158685_j77395310674148_2_alg».proof.Proof.RefFrame
import proofs.«158685_j77395310674148_2_alg».proof.Proof.Gen.Kernel
import proofs.«158685_j77395310674148_2_alg».proof.Proof.Gen.KernelIdeal
import proofs.«158685_j77395310674148_2_alg».proof.Proof.Gen.ReferenceIdeal
import proofs.«158685_j77395310674148_2_alg».proof.Proof.Gen.Pre_finite_inputs

noncomputable section

namespace Cert.Proof.Frames

open Idealize.ShloMosaic Idealize.SL.Sem

theorem frame_k : Cert.frame_Kernel := fun m ρ _ => Cert.Kernel.Hand.frame_all (F := Bits) m ρ
theorem frame_ki : Cert.frame_KernelIdeal := fun m ρ _ => Cert.KernelIdeal.Hand.frame_all (F := Ideal) m ρ
theorem frame_ri : Cert.frame_ReferenceIdeal := Cert.ReferenceIdeal.RefFrame.frame_ri
theorem preserves : Cert.preserves_Kernel_KernelIdeal := trivial

end Cert.Proof.Frames

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibGroupCast.lean ====
/-
  An axis of N = G · L entries cut into G groups of L, and the groups put back side by side, read at an index, for any
  number of rows R.

  In row-major order entry (r, g, l) of an array [R, G, L] and entry (r, g · L + l) of an array [R, N] sit at the same
  position, r · N + g · L + l. So the array [R, N] recast as [R, G, L] reads (r, g, l) at (r, g · L + l), and the array
  [R, G, L] recast as [R, N] reads (r, c) at (r, c / L, c % L).
-/
import Idealize.ShloMosaic.Lib.Pipeline.Value
import Idealize.ShloMosaic.Lib.ValueIdx

noncomputable section

namespace Cert.LibGroupCast

open Idealize.ShloMosaic Idealize.ShloMosaic.ValueIdx

variable {R G L N : Nat} {α : Type}

/-- A row cut into groups: entry (r, g, l) is entry g · L + l of row r. -/
theorem shapeCast_groups_apply (hN : N = G * L) (v : (⟨2, ![R, N]⟩ : Shape).Idx → α)
    (h : (⟨2, ![R, N]⟩ : Shape).ShapeCasts ⟨3, ![R, G, L]⟩) (r : Fin R) (g : Fin G) (l : Fin L) (c : Fin N)
    (hc : c.val = g.val * L + l.val) :
    shapeCast ⟨3, ![R, G, L]⟩ v h (ix3 r g l) = v (ix2 r c) := by
  refine shapeCast_apply v h _ _ ?_
  rw [Shape.rowMajor_val_three, Shape.rowMajor_val_two]
  show r.val * N + c.val = (r.val * G + g.val) * L + l.val
  rw [hc, hN, Nat.add_mul, Nat.mul_assoc, Nat.add_assoc]

/-- Groups put back side by side: entry c of row r is lane c % L of group c / L. -/
theorem shapeCast_ungroup_apply (hN : N = G * L) (v : (⟨3, ![R, G, L]⟩ : Shape).Idx → α)
    (h : (⟨3, ![R, G, L]⟩ : Shape).ShapeCasts ⟨2, ![R, N]⟩) (r : Fin R) (c : Fin N) (g : Fin G) (l : Fin L)
    (hg : g.val = c.val / L) (hl : l.val = c.val % L) :
    shapeCast ⟨2, ![R, N]⟩ v h (ix2 r c) = v (ix3 r g l) := by
  refine shapeCast_apply v h _ _ ?_
  rw [Shape.rowMajor_val_three, Shape.rowMajor_val_two]
  show (r.val * G + g.val) * L + l.val = r.val * N + c.val
  rw [hg, hl, Nat.add_mul, Nat.mul_assoc, Nat.add_assoc, Nat.div_add_mod', ← hN]

end Cert.LibGroupCast

end
-- ==== Proof.LibLastAxis3.lean ====
/-
  Rank-3 arrays cut, joined and broadcast along an axis, read at an index.

  For an array [n0, n1, n2]:
    * the slice of its last axis that starts at position o reads (a, b, j) at (a, b, o + j);
    * two arrays [n0, n1, a] and [n0, n1, b] joined along the last axis read (r, g, l) in the first one at
      (r, g, l) when l < a, and in the second one at (r, g, l − a) otherwise;
    * a matrix [n0, n2] given a unit middle axis and then repeated n1 times along it reads (r, g, e) at (r, e).
-/
import Idealize.ShloMosaic.Lib.Pipeline.Value
import Idealize.ShloMosaic.Lib.ValueIdx

noncomputable section

namespace Cert.LibLastAxis3

open Idealize.ShloMosaic Idealize.ShloMosaic.ValueIdx

variable {α : Type} {n0 n1 n2 : Nat}

/-- A rank-3 array cut along its last axis from `o` reads, at `(a, b, j)`, the source at `(a, b, k)` with `k = o + j`. -/
theorem slice_last_apply {m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- Two arrays joined along the last axis, read below the first one's extent: the first one there. -/
theorem concat_last_left {a b c : Nat} (x₁ : (⟨3, ![n0, n1, a]⟩ : Shape).Idx → α) (x₂ : (⟨3, ![n0, n1, b]⟩ : Shape).Idx → α)
    (h : Shape.Concatenates [⟨3, ![n0, n1, a]⟩, ⟨3, ![n0, n1, b]⟩] ⟨3, ![n0, n1, c]⟩ 2)
    (r : Fin n0) (g : Fin n1) (l : Fin c) (l' : Fin a) (hl : l'.val = l.val) :
    concatenate ⟨3, ![n0, n1, c]⟩ 2 [⟨⟨3, ![n0, n1, a]⟩, x₁⟩, ⟨⟨3, ![n0, n1, b]⟩, x₂⟩] h (ix3 r g l) = x₁ (ix3 r g l') :=
  concatenate_pair_apply_left 2 x₁ x₂ h (ix3 r g l) rfl (ix3 r g l') (fun ax => by
    match ax with
    | ⟨0, _⟩ => rfl
    | ⟨1, _⟩ => rfl
    | ⟨2, _⟩ => exact hl)

/-- Two arrays joined along the last axis, read at or past the first one's extent: the second one, that extent less. -/
theorem concat_last_right {a b c : Nat} (x₁ : (⟨3, ![n0, n1, a]⟩ : Shape).Idx → α) (x₂ : (⟨3, ![n0, n1, b]⟩ : Shape).Idx → α)
    (h : Shape.Concatenates [⟨3, ![n0, n1, a]⟩, ⟨3, ![n0, n1, b]⟩] ⟨3, ![n0, n1, c]⟩ 2)
    (r : Fin n0) (g : Fin n1) (l : Fin c) (l' : Fin b) (hl : l'.val + a = l.val) :
    concatenate ⟨3, ![n0, n1, c]⟩ 2 [⟨⟨3, ![n0, n1, a]⟩, x₁⟩, ⟨⟨3, ![n0, n1, b]⟩, x₂⟩] h (ix3 r g l) = x₂ (ix3 r g l') :=
  concatenate_pair_apply_right 2 x₁ x₂ h (ix3 r g l) rfl rfl (ix3 r g l') (fun ax hax => by
    match ax with
    | ⟨0, _⟩ => rfl
    | ⟨1, _⟩ => rfl
    | ⟨2, _⟩ => exact absurd rfl hax) hl

/-- A matrix given a unit middle axis and repeated along it reads `(r, g, e)` at `(r, e)`. -/
theorem bcast_mid_of_cast (h0 : n0 ≠ 1) (h2 : n2 ≠ 1) (v : (⟨2, ![n0, n2]⟩ : Shape).Idx → α)
    (hc : (⟨2, ![n0, n2]⟩ : Shape).ShapeCasts ⟨3, ![n0, 1, n2]⟩) (hb : (⟨3, ![n0, 1, n2]⟩ : Shape).Broadcasts ⟨3, ![n0, n1, n2]⟩)
    (r : Fin n0) (g : Fin n1) (e : Fin n2) :
    broadcastTo ⟨3, ![n0, n1, n2]⟩ (shapeCast ⟨3, ![n0, 1, n2]⟩ v hc) hb (ix3 r g e) = v (ix2 r e) := by
  refine (broadcastTo_apply _ hb (ix3 r g e) (ix3 r (0 : Fin 1) e) (fun ax => ?_)).trans ?_
  · match ax with
    | ⟨0, _⟩ => exact (if_neg h0).symm
    | ⟨1, _⟩ => exact (if_pos rfl).symm
    | ⟨2, _⟩ => exact (if_neg h2).symm
  · refine shapeCast_apply v hc _ _ ?_
    rw [Shape.rowMajor_val_three, Shape.rowMajor_val_two]
    show r.val * n2 + e.val = (r.val * 1 + 0) * n2 + e.val
    rw [Nat.mul_one, Nat.add_zero]

end Cert.LibLastAxis3

end
-- ==== Proof.KIRegion1Value.lean ====
/-
  What region 1's body stores, read entry by entry over the extended reals.

  The body multiplies a block of 256 rows of activations x0 [256, 1536] by a block of weights x1 [1536, 3072], reads
  each row of the product as 16 groups of 192 lanes, and leaves lanes 0 … 127 of every group as they are. Lanes
  128 … 191 of a group, 64 of them, are rotated pairwise: with u the 64 lanes, c = x2 and s = x3 the row's two tables
  of 64 factors, lane e becomes u[e] · c[e] + w[e] · s[e], where w[e] = 0 − u[e + 32] for e < 32 and w[e] = u[e − 32]
  for e ≥ 32 (the body writes the negation as a subtraction from zero).

  So with q(r, n) = Σ_j x0[r, j] · x1[j, n], entry (r, n) of the stored value, n = 192 g + d, is q(r, n) for d < 128,
  and for d = 128 + e it is q(r, n) · x2[r, e] + w · x3[r, e] with w = 0 − q(r, n + 32) (e < 32) or q(r, n − 32) (e ≥ 32).
  Only the shape of the index arithmetic and 0 + s = s inside the product are used: nothing here needs finiteness.
-/
import proofs.«158685_j77395310674148_2_alg».proof.Proof.Gen.KernelIdeal.Skeleton
import proofs.«158685_j77395310674148_2_alg».proof.Proof.LibDotRows
import proofs.«158685_j77395310674148_2_alg».proof.Proof.LibGroupCast
import proofs.«158685_j77395310674148_2_alg».proof.Proof.LibLastAxis3
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-- Entry (r, n) of the product of the block of activations with the block of weights. -/
def qprod (x0 : FVec Ideal S256x1536 .bf16) (x1 : FVec Ideal S1536x3072 .bf16) (r : Fin 256) (n : Fin 3072) : EReal :=
  ∑ j : Fin 1536, x0 (ix2 r j) * x1 (ix2 j n)

/-- The body's matrix product, accumulated into the zero splat, at an entry. -/
theorem matmul_block_apply (x0 : FVec Ideal S256x1536 .bf16) (x1 : FVec Ideal S1536x3072 .bf16) (r : Fin 256) (n : Fin 3072) :
    matmul (F := Ideal) dot_S256x1536_S1536x3072_S256x3072_1_0_0_1_n_n none
        (shapeCast S256x1536 x0 shapeCasts_S256x1536_S256x1536) (shapeCast S1536x3072 x1 shapeCasts_S1536x3072_S1536x3072)
        (constant S256x3072 .f32 0x00000000#32) (ix2 r n) = qprod x0 x1 r n := by
  rw [shapeCast_self, shapeCast_self]
  exact Cert.Lib.DotRows.matmul_plain_apply (M := 256) (K := 1536) (N := 3072) x0 x1 r n

/-- Lane e of the rotated part of group g of a row [3072] read as 16 groups of 192: entry 192 g + 128 + e of the row. -/
theorem tail_lane_apply (v4 : FVec Ideal S256x3072 .f32) (r : Fin 256) (g : Fin 16) (e : Fin 64) (n : Fin 3072)
    (hn : n.val = g.val * 192 + 128 + e.val) :
    extractStridedSlice S256x16x64 ![0, 0, 128] (shapeCast S256x16x192 v4 shapeCasts_S256x3072_S256x16x192)
        slices_S256x16x192_o0_0_128_S256x16x64 (ix3 r g e) = v4 (ix2 r n) := by
  refine (Cert.LibLastAxis3.slice_last_apply 128 _ _ r g e ⟨128 + e.val, by omega⟩ rfl).trans ?_
  exact Cert.LibGroupCast.shapeCast_groups_apply (N := 3072) rfl v4 _ r g ⟨128 + e.val, by omega⟩ n (by show n.val = g.val * 192 + (128 + e.val); omega)

/-- Lanes 0 … 127 of a group: the product's entry. -/
theorem k1_pay1_apply_lo (x0 : Vec Ideal S256x1536 .bf16) (x1 : Vec Ideal S1536x3072 .bf16) (x2 x3 : Vec Ideal S256x64 .f32)
    (r : Fin 256) (g : Fin 16) (d : Fin 192) (n : Fin 3072) (hn : n.val = g.val * 192 + d.val) (hd : d.val < 128) :
    k1_pay1 (F := Ideal) x0 x1 x2 x3 (ix2 r n) = qprod x0 x1 r n := by
  unfold k1_pay1
  refine (Cert.LibGroupCast.shapeCast_ungroup_apply (R := 256) (G := 16) (L := 192) (N := 3072) rfl _ _ r n g d (by omega) (by omega)).trans ?_
  refine (Cert.LibLastAxis3.concat_last_left _ _ _ r g d ⟨d.val, hd⟩ rfl).trans ?_
  refine (Cert.LibLastAxis3.slice_last_apply 0 _ _ r g ⟨d.val, hd⟩ d (Nat.zero_add _).symm).trans ?_
  refine (Cert.LibGroupCast.shapeCast_groups_apply (N := 3072) rfl _ _ r g d n hn).trans ?_
  exact matmul_block_apply x0 x1 r n

/-- Lanes 128 … 159 of a group (e < 32): the lane times its first factor, less the lane 32 further on times its second. -/
theorem k1_pay1_apply_rot_lo (x0 : Vec Ideal S256x1536 .bf16) (x1 : Vec Ideal S1536x3072 .bf16) (x2 x3 : Vec Ideal S256x64 .f32)
    (r : Fin 256) (g : Fin 16) (d : Fin 192) (n : Fin 3072) (hn : n.val = g.val * 192 + d.val)
    (e : Fin 64) (hd : d.val = 128 + e.val) (he : e.val < 32) (n' : Fin 3072) (hn' : n'.val = n.val + 32) :
    k1_pay1 (F := Ideal) x0 x1 x2 x3 (ix2 r n)
      = qprod x0 x1 r n * x2 (ix2 r e) + (0 - qprod x0 x1 r n') * x3 (ix2 r e) := by
  unfold k1_pay1
  refine (Cert.LibGroupCast.shapeCast_ungroup_apply (R := 256) (G := 16) (L := 192) (N := 3072) rfl _ _ r n g d (by omega) (by omega)).trans ?_
  refine (Cert.LibLastAxis3.concat_last_right _ _ _ r g d e (by omega)).trans ?_
  refine (addf_apply _ _ _).trans ?_
  refine congrArg₂ (· + ·) ((mulf_apply _ _ _).trans (congrArg₂ (· * ·) ?_ ?_)) ((mulf_apply _ _ _).trans (congrArg₂ (· * ·) ?_ ?_))
  · exact (tail_lane_apply _ r g e n (by omega)).trans (matmul_block_apply x0 x1 r n)
  · exact Cert.LibLastAxis3.bcast_mid_of_cast (by decide) (by decide) x2 _ _ r g e
  · refine (Cert.LibLastAxis3.concat_last_left _ _ _ r g e ⟨e.val, he⟩ rfl).trans ?_
    refine (subf_apply _ _ _).trans (congrArg₂ (· - ·) ?_ ?_)
    · exact Ideal.ofBits_zero_f32
    · refine (Cert.LibLastAxis3.slice_last_apply 32 _ _ r g (⟨e.val, he⟩ : Fin 32) (⟨32 + e.val, by omega⟩ : Fin 64) rfl).trans ?_
      exact (tail_lane_apply _ r g (⟨32 + e.val, by omega⟩ : Fin 64) n' (by show n'.val = g.val * 192 + 128 + (32 + e.val); omega)).trans (matmul_block_apply x0 x1 r n')
  · exact Cert.LibLastAxis3.bcast_mid_of_cast (by decide) (by decide) x3 _ _ r g e

/-- Lanes 160 … 191 of a group (e ≥ 32): the lane times its first factor, plus the lane 32 before times its second. -/
theorem k1_pay1_apply_rot_hi (x0 : Vec Ideal S256x1536 .bf16) (x1 : Vec Ideal S1536x3072 .bf16) (x2 x3 : Vec Ideal S256x64 .f32)
    (r : Fin 256) (g : Fin 16) (d : Fin 192) (n : Fin 3072) (hn : n.val = g.val * 192 + d.val)
    (e : Fin 64) (hd : d.val = 128 + e.val) (he : 32 ≤ e.val) (n' : Fin 3072) (hn' : n'.val + 32 = n.val) :
    k1_pay1 (F := Ideal) x0 x1 x2 x3 (ix2 r n)
      = qprod x0 x1 r n * x2 (ix2 r e) + qprod x0 x1 r n' * x3 (ix2 r e) := by
  unfold k1_pay1
  refine (Cert.LibGroupCast.shapeCast_ungroup_apply (R := 256) (G := 16) (L := 192) (N := 3072) rfl _ _ r n g d (by omega) (by omega)).trans ?_
  refine (Cert.LibLastAxis3.concat_last_right _ _ _ r g d e (by omega)).trans ?_
  refine (addf_apply _ _ _).trans ?_
  refine congrArg₂ (· + ·) ((mulf_apply _ _ _).trans (congrArg₂ (· * ·) ?_ ?_)) ((mulf_apply _ _ _).trans (congrArg₂ (· * ·) ?_ ?_))
  · exact (tail_lane_apply _ r g e n (by omega)).trans (matmul_block_apply x0 x1 r n)
  · exact Cert.LibLastAxis3.bcast_mid_of_cast (by decide) (by decide) x2 _ _ r g e
  · refine (Cert.LibLastAxis3.concat_last_right _ _ _ r g e (⟨e.val - 32, by omega⟩ : Fin 32) (by show e.val - 32 + 32 = e.val; omega)).trans ?_
    refine (Cert.LibLastAxis3.slice_last_apply 0 _ _ r g (⟨e.val - 32, by omega⟩ : Fin 32) (⟨e.val - 32, by omega⟩ : Fin 64) (Nat.zero_add _).symm).trans ?_
    exact (tail_lane_apply _ r g (⟨e.val - 32, by omega⟩ : Fin 64) n' (by show n'.val = g.val * 192 + 128 + (e.val - 32); omega)).trans (matmul_block_apply x0 x1 r n')
  · exact Cert.LibLastAxis3.bcast_mid_of_cast (by decide) (by decide) x3 _ _ r g e

end Cert.KernelIdeal.Hand

end
-- ==== Proof.KIRegion1Q.lean ====
/-
  Region 1's output as one function of the four arrays it reads, entry by entry over the extended reals.

  The activations cq [4096, 1536] times the weights wb [1536, 24576] give a product q [4096, 24576]; each of its rows is
  128 groups of 192 lanes. Lanes 0 … 127 of a group are kept. Lanes 128 … 191, 64 of them, are rotated pairwise with the
  row's two tables of 64 factors cs and sn: lane 128 + e becomes q · cs[r, e] + w · sn[r, e], where w is 0 − (the entry
  32 lanes further on) for e < 32 and the entry 32 lanes before for e ≥ 32.

  A grid point computes a tile of 256 rows by 3072 columns of this array from 256 rows of cq, cs, sn and 3072 columns
  of wb. A tile is 16 whole groups wide (3072 = 16 · 192), so a column's lane inside its group is the same counted
  inside the tile or inside the array, and the entries 32 lanes away that a rotated lane reads lie in the same tile.
-/
import proofs.«158685_j77395310674148_2_alg».proof.Proof.KIRegion1Value

set_option maxRecDepth 16384

noncomputable section

namespace Cert.KernelIdeal.Hand

open Cert.KernelIdeal Cert.KernelIdeal.Gen
open Idealize.ShloMosaic Idealize.ShloMosaic.ValueIdx

/-- Entry (r, n) of the whole product cq · wb. -/
def Q1row (cq : S4096x1536.Idx → EReal) (wb : S1536x24576.Idx → EReal) (r : Fin 4096) (n : Fin 24576) : EReal :=
  ∑ j : Fin 1536, cq (ix2 r j) * wb (ix2 j n)

/-- A lane of the rotated part, from a number. -/
def Q1lane (k : Nat) : Fin 64 := ⟨k % 64, Nat.mod_lt _ (by decide)⟩
/-- A column of the array, from a number. -/
def Q1col (k : Nat) : Fin 24576 := ⟨k % 24576, Nat.mod_lt _ (by decide)⟩

/-- The output at row r, column n. -/
def Q1at (cq : S4096x1536.Idx → EReal) (wb : S1536x24576.Idx → EReal) (cs sn : S4096x64.Idx → EReal)
    (r : Fin 4096) (n : Fin 24576) : EReal :=
  if n.val % 192 < 128 then Q1row cq wb r n
  else Q1row cq wb r n * cs (ix2 r (Q1lane (n.val % 192 - 128)))
    + (if n.val % 192 - 128 < 32 then 0 - Q1row cq wb r (Q1col (n.val + 32)) else Q1row cq wb r (Q1col (n.val - 32)))
      * sn (ix2 r (Q1lane (n.val % 192 - 128)))

/-- The whole output array as one function of the four arrays region 1 reads. -/
def Q1 (cq : S4096x1536.Idx → EReal) (wb : S1536x24576.Idx → EReal) (cs sn : S4096x64.Idx → EReal) :
    S4096x24576.Idx → EReal := fun i => Q1at cq wb cs sn (i 0) (i 1)

variable (cq : S4096x1536.Idx → EReal) (wb : S1536x24576.Idx → EReal) (cs sn : S4096x64.Idx → EReal)

/-- Lanes 0 … 127 of a group: the product's entry. -/
theorem Q1_apply_lo (r : Fin 4096) (n : Fin 24576) (hd : n.val % 192 < 128) :
    Q1 cq wb cs sn (ix2 r n) = Q1row cq wb r n := by
  show Q1at cq wb cs sn r n = _
  unfold Q1at
  rw [if_pos hd]

/-- Lanes 128 … 159 of a group. -/
theorem Q1_apply_rot_lo (r : Fin 4096) (n : Fin 24576) (e : Fin 64) (hd : n.val % 192 = 128 + e.val) (he : e.val < 32)
    (n' : Fin 24576) (hn' : n'.val = n.val + 32) :
    Q1 cq wb cs sn (ix2 r n) = Q1row cq wb r n * cs (ix2 r e) + (0 - Q1row cq wb r n') * sn (ix2 r e) := by
  show Q1at cq wb cs sn r n = _
  unfold Q1at
  have e1 : Q1lane (n.val % 192 - 128) = e := Fin.ext (by show (n.val % 192 - 128) % 64 = e.val; omega)
  have e2 : Q1col (n.val + 32) = n' := Fin.ext (by show (n.val + 32) % 24576 = n'.val; omega)
  rw [if_neg (by omega), if_pos (by omega), e1, e2]

/-- Lanes 160 … 191 of a group. -/
theorem Q1_apply_rot_hi (r : Fin 4096) (n : Fin 24576) (e : Fin 64) (hd : n.val % 192 = 128 + e.val) (he : 32 ≤ e.val)
    (n' : Fin 24576) (hn' : n'.val + 32 = n.val) :
    Q1 cq wb cs sn (ix2 r n) = Q1row cq wb r n * cs (ix2 r e) + Q1row cq wb r n' * sn (ix2 r e) := by
  show Q1at cq wb cs sn r n = _
  unfold Q1at
  have e1 : Q1lane (n.val % 192 - 128) = e := Fin.ext (by show (n.val % 192 - 128) % 64 = e.val; omega)
  have e2 : Q1col (n.val - 32) = n' := Fin.ext (by show (n.val - 32) % 24576 = n'.val; omega)
  rw [if_neg (by omega), if_neg (by omega), e1, e2]

/-! ## A tile of the array from the blocks a grid point reads -/

section Tile

variable (x0 : Vec Ideal S256x1536 .bf16) (x1 : Vec Ideal S1536x3072 .bf16) (x2 x3 : Vec Ideal S256x64 .f32)
variable (I J : Nat)
-- the blocks are rows I·256 … of cq, cs, sn and columns J·3072 … of wb
variable (h0 : ∀ (p : Fin 256) (k : Fin 1536) (R : Fin 4096), R.val = I * 256 + p.val → x0 (ix2 p k) = cq (ix2 R k))
variable (h1 : ∀ (k : Fin 1536) (q : Fin 3072) (N : Fin 24576), N.val = J * 3072 + q.val → x1 (ix2 k q) = wb (ix2 k N))
variable (h2 : ∀ (p : Fin 256) (e : Fin 64) (R : Fin 4096), R.val = I * 256 + p.val → x2 (ix2 p e) = cs (ix2 R e))
variable (h3 : ∀ (p : Fin 256) (e : Fin 64) (R : Fin 4096), R.val = I * 256 + p.val → x3 (ix2 p e) = sn (ix2 R e))

include h0 h1 in
/-- The blocks' product is the tile of the whole product. -/
theorem qprod_tile (p : Fin 256) (q : Fin 3072) (R : Fin 4096) (N : Fin 24576)
    (hR : R.val = I * 256 + p.val) (hN : N.val = J * 3072 + q.val) : qprod x0 x1 p q = Q1row cq wb R N := by
  unfold qprod Q1row
  exact Finset.sum_congr rfl fun k _ => by rw [h0 p k R hR, h1 k q N hN]

include h0 h1 h2 h3 in
/-- What the body stores at (p, q) of its tile is the array's function at (I·256 + p, J·3072 + q). -/
theorem tile_value (y : S256x3072.Idx) (i : S4096x24576.Idx)
    (hR : (i 0).val = I * 256 + (y 0).val) (hN : (i 1).val = J * 3072 + (y 1).val) :
    k1_pay1 (F := Ideal) x0 x1 x2 x3 y = Q1 cq wb cs sn i := by
  obtain ⟨p, q, rfl⟩ : ∃ (p : Fin 256) (q : Fin 3072), y = ix2 p q := ⟨y 0, y 1, eq_ix2 y⟩
  obtain ⟨R, N, rfl⟩ : ∃ (R : Fin 4096) (N : Fin 24576), i = ix2 R N := ⟨i 0, i 1, eq_ix2 i⟩
  have hR' : R.val = I * 256 + p.val := hR
  have hN' : N.val = J * 3072 + q.val := hN
  have hq : q.val < 3072 := q.isLt
  have hlane : N.val % 192 = q.val % 192 := by omega
  by_cases hd : q.val % 192 < 128
  · rw [k1_pay1_apply_lo x0 x1 x2 x3 p ⟨q.val / 192, by omega⟩ ⟨q.val % 192, by omega⟩ q (by show q.val = q.val / 192 * 192 + q.val % 192; omega) hd,
      Q1_apply_lo cq wb cs sn R N (by omega)]
    exact qprod_tile cq wb x0 x1 I J h0 h1 p q R N hR' hN'
  · by_cases he : q.val % 192 - 128 < 32
    · have hq' : q.val + 32 < 3072 := by omega
      have hN'' : N.val + 32 < 24576 := by omega
      rw [k1_pay1_apply_rot_lo x0 x1 x2 x3 p ⟨q.val / 192, by omega⟩ ⟨q.val % 192, by omega⟩ q (by show q.val = q.val / 192 * 192 + q.val % 192; omega)
          ⟨q.val % 192 - 128, by omega⟩ (by show q.val % 192 = 128 + (q.val % 192 - 128); omega) he ⟨q.val + 32, hq'⟩ rfl,
        Q1_apply_rot_lo cq wb cs sn R N ⟨q.val % 192 - 128, by omega⟩ (by show N.val % 192 = 128 + (q.val % 192 - 128); omega) he ⟨N.val + 32, hN''⟩ rfl,
        qprod_tile cq wb x0 x1 I J h0 h1 p q R N hR' hN',
        qprod_tile cq wb x0 x1 I J h0 h1 p ⟨q.val + 32, hq'⟩ R ⟨N.val + 32, hN''⟩ hR' (by show N.val + 32 = J * 3072 + (q.val + 32); omega),
        h2 p _ R hR', h3 p _ R hR']
    · have hq' : q.val - 32 < 3072 := by omega
      have hN'' : N.val - 32 < 24576 := by have := N.isLt; omega
      rw [k1_pay1_apply_rot_hi x0 x1 x2 x3 p ⟨q.val / 192, by omega⟩ ⟨q.val % 192, by omega⟩ q (by show q.val = q.val / 192 * 192 + q.val % 192; omega)
          ⟨q.val % 192 - 128, by omega⟩ (by show q.val % 192 = 128 + (q.val % 192 - 128); omega) (by show 32 ≤ q.val % 192 - 128; omega) ⟨q.val - 32, hq'⟩ (by show q.val - 32 + 32 = q.val; omega),
        Q1_apply_rot_hi cq wb cs sn R N ⟨q.val % 192 - 128, by omega⟩ (by show N.val % 192 = 128 + (q.val % 192 - 128); omega) (by show 32 ≤ q.val % 192 - 128; omega) ⟨N.val - 32, hN''⟩ (by show N.val - 32 + 32 = N.val; omega),
        qprod_tile cq wb x0 x1 I J h0 h1 p q R N hR' hN',
        qprod_tile cq wb x0 x1 I J h0 h1 p ⟨q.val - 32, hq'⟩ R ⟨N.val - 32, hN''⟩ hR' (by show N.val - 32 = J * 3072 + (q.val - 32); omega),
        h2 p _ R hR', h3 p _ R hR']

end Tile

end Cert.KernelIdeal.Hand

end
-- ==== Proof.KIRegion1Array.lean ====
/-
  Region 1 from blocks to the array: after its 128 grid points the output array holds, entry by entry, the one
  function `Q1` of the four arrays the region reads, as it found them.

  Point t of the 8 × 16 grid works on row tile I (256 rows) and column tile J (3072 columns): it reads rows
  I·256 … of the activations and of the two factor tables, columns J·3072 … of the weights, and writes back tile
  (I, J) of the output. An element of a block sits in its array, on each axis, at block index × block size + its
  coordinate inside the block. Every (I, J) is some point's, so the 128 tiles cover the array.
-/
import proofs.«158685_j77395310674148_2_alg».proof.Proof.KIRegion1
import proofs.«158685_j77395310674148_2_alg».proof.Proof.KIRegion1Q

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The index maps over the grid: the row-wise inputs move with the output's row tile and stay at column block 0; the
    weights stay at row block 0 and move with the output's column tile; the output's tiles stay in their ranges. -/
theorem idx_facts1 : ∀ t : Fin cfg1.N,
    win1_0.index t (0 : Fin 2) = win1_4.index t (0 : Fin 2) ∧ win1_0.index t (1 : Fin 2) = 0
    ∧ win1_1.index t (0 : Fin 2) = 0 ∧ win1_1.index t (1 : Fin 2) = win1_4.index t (1 : Fin 2)
    ∧ win1_2.index t (0 : Fin 2) = win1_4.index t (0 : Fin 2) ∧ win1_2.index t (1 : Fin 2) = 0
    ∧ win1_3.index t (0 : Fin 2) = win1_4.index t (0 : Fin 2) ∧ win1_3.index t (1 : Fin 2) = 0
    ∧ win1_4.index t (0 : Fin 2) ≤ 15 ∧ win1_4.index t (1 : Fin 2) ≤ 7 :=
  (by decide +kernel : ∀ t : Fin grid1.N, _)

/-- Every tile of the output is some point's. -/
theorem idx_onto1 : ∀ (q0 : Fin 16) (q1 : Fin 8), ∃ t : Fin cfg1.N, win1_4.index t = ![q0.val, q1.val] :=
  (by decide +kernel : ∀ (q0 : Fin 16) (q1 : Fin 8), ∃ t : Fin grid1.N, win1_4.index t = ![q0.val, q1.val])

/-! ## The input blocks as rows or columns of their arrays -/

/-- The activations' block at point t is rows I·256 … of their array. -/
theorem iblk1_0_apply (c : Dev nD) (t : Fin cfg1.N) (p : Fin 256) (k : Fin 1536) (R : Fin 4096)
    (hR : R.val = win1_4.index t (0 : Fin 2) * 256 + p.val) :
    (iblk1 V c 0 t : Vec Ideal S256x1536 .bf16) (ix2 p k) = (V c main_v3_0 : S4096x1536.Idx → EReal) (ix2 R k) := by
  obtain ⟨e0, e1, -⟩ := idx_facts1 t
  unfold iblk1
  rw [View.read_apply]
  show V c main_v3_0 _ = V c main_v3_0 _
  congr 1
  funext a; apply Fin.ext
  match a with
  | ⟨0, _⟩ => show win1_0.index t (0 : Fin 2) * 256 + 1 * p.val = R.val; rw [e0, hR]; omega
  | ⟨1, _⟩ => show win1_0.index t (1 : Fin 2) * 1536 + 1 * k.val = k.val; rw [e1]; omega

/-- The weights' block at point t is columns J·3072 … of their array. -/
theorem iblk1_1_apply (c : Dev nD) (t : Fin cfg1.N) (k : Fin 1536) (q : Fin 3072) (N : Fin 24576)
    (hN : N.val = win1_4.index t (1 : Fin 2) * 3072 + q.val) :
    (iblk1 V c 1 t : Vec Ideal S1536x3072 .bf16) (ix2 k q) = (V c main_v1 : S1536x24576.Idx → EReal) (ix2 k N) := by
  obtain ⟨-, -, e2, e3, -⟩ := idx_facts1 t
  unfold iblk1
  rw [View.read_apply]
  show V c main_v1 _ = V c main_v1 _
  congr 1
  funext a; apply Fin.ext
  match a with
  | ⟨0, _⟩ => show win1_1.index t (0 : Fin 2) * 1536 + 1 * k.val = k.val; rw [e2]; omega
  | ⟨1, _⟩ => show win1_1.index t (1 : Fin 2) * 3072 + 1 * q.val = N.val; rw [e3, hN]; omega

/-- The first factor table's block at point t is rows I·256 … of its array. -/
theorem iblk1_2_apply (c : Dev nD) (t : Fin cfg1.N) (p : Fin 256) (e : Fin 64) (R : Fin 4096)
    (hR : R.val = win1_4.index t (0 : Fin 2) * 256 + p.val) :
    (iblk1 V c 2 t : Vec Ideal S256x64 .f32) (ix2 p e) = (V c main_arg4 : S4096x64.Idx → EReal) (ix2 R e) := by
  obtain ⟨-, -, -, -, e4, e5, -⟩ := idx_facts1 t
  unfold iblk1
  rw [View.read_apply]
  show V c main_arg4 _ = V c main_arg4 _
  congr 1
  funext a; apply Fin.ext
  match a with
  | ⟨0, _⟩ => show win1_2.index t (0 : Fin 2) * 256 + 1 * p.val = R.val; rw [e4, hR]; omega
  | ⟨1, _⟩ => show win1_2.index t (1 : Fin 2) * 64 + 1 * e.val = e.val; rw [e5]; omega

/-- The second factor table's block at point t is rows I·256 … of its array. -/
theorem iblk1_3_apply (c : Dev nD) (t : Fin cfg1.N) (p : Fin 256) (e : Fin 64) (R : Fin 4096)
    (hR : R.val = win1_4.index t (0 : Fin 2) * 256 + p.val) :
    (iblk1 V c 3 t : Vec Ideal S256x64 .f32) (ix2 p e) = (V c main_arg5 : S4096x64.Idx → EReal) (ix2 R e) := by
  obtain ⟨-, -, -, -, -, -, e6, e7, -⟩ := idx_facts1 t
  unfold iblk1
  rw [View.read_apply]
  show V c main_arg5 _ = V c main_arg5 _
  congr 1
  funext a; apply Fin.ext
  match a with
  | ⟨0, _⟩ => show win1_3.index t (0 : Fin 2) * 256 + 1 * p.val = R.val; rw [e6, hR]; omega
  | ⟨1, _⟩ => show win1_3.index t (1 : Fin 2) * 64 + 1 * e.val = e.val; rw [e7]; omega

/-! ## What a point writes back, and the cover -/

/-- What point t writes back is tile t of `Q1` of the four arrays as the region finds them. -/
theorem flushed1_4_eq (c : Dev nD) (t : Fin cfg1.N) :
    (dat1 (F := Ideal) V c).flushed 4 t
      = ((cfg1.win 4).blk t).view.read (Elt Ideal) (Q1 (V c main_v3_0) (V c main_v1) (V c main_arg4) (V c main_arg5)) := by
  show (cfg1.win 4).cut (grid1.coords t) ((dat1 V c).after 4 t) = _
  rw [after1_4, out1_4_eq (iblk1 V c 0 t) (iblk1 V c 1 t) (iblk1 V c 2 t) (iblk1 V c 3 t)]
  funext j
  show k1_pay1 (F := Ideal) (iblk1 V c 0 t) (iblk1 V c 1 t) (iblk1 V c 2 t) (iblk1 V c 3 t) j
    = Q1 (V c main_v3_0) (V c main_v1) (V c main_arg4) (V c main_arg5) (((cfg1.win 4).blk t).view.emb j)
  exact tile_value (V c main_v3_0) (V c main_v1) (V c main_arg4) (V c main_arg5)
    (iblk1 V c 0 t) (iblk1 V c 1 t) (iblk1 V c 2 t) (iblk1 V c 3 t)
    (win1_4.index t (0 : Fin 2)) (win1_4.index t (1 : Fin 2))
    (fun p k R hR => iblk1_0_apply V c t p k R hR) (fun k q N hN => iblk1_1_apply V c t k q N hN)
    (fun p e R hR => iblk1_2_apply V c t p e R hR) (fun p e R hR => iblk1_3_apply V c t p e R hR)
    j (((cfg1.win 4).blk t).view.emb j)
    (by show win1_4.index t (0 : Fin 2) * 256 + 1 * (j 0).val = win1_4.index t (0 : Fin 2) * 256 + (j 0).val; omega)
    (by show win1_4.index t (1 : Fin 2) * 3072 + 1 * (j 1).val = win1_4.index t (1 : Fin 2) * 3072 + (j 1).val; omega)

/-- An index of the array is in point t's tile iff each coordinate is in the tile's range on its axis. -/
theorem mem_blk1_4 (t : Fin cfg1.N) (i : S4096x24576.Idx) :
    i ∈ ((cfg1.win 4).blk t).view.set
      ↔ ∀ a : Fin 2, win1_4.index t a * S256x3072.size a ≤ (i a).val ∧ (i a).val < win1_4.index t a * S256x3072.size a + S256x3072.size a := by
  show i ∈ ((View.whole main_v4).slice (win1_4.rect t)).set ↔ _
  rw [View.set_slice_whole, Rect.mem_set_unit]
  exact Iff.rfl

/-- Every index of the array is in some point's tile: the point of row tile i₀ / 256 and column tile i₁ / 3072. -/
theorem cover1_4_arr (i : S4096x24576.Idx) :
    ∃ t : Fin cfg1.N, (cfg1.win 4).flush t = true ∧ i ∈ ((cfg1.win 4).blk t).view.set := by
  have hi0 : (i 0).val < 4096 := (i 0).isLt
  have hi1 : (i 1).val < 24576 := (i 1).isLt
  obtain ⟨t, ht⟩ := idx_onto1 ⟨(i 0).val / 256, by omega⟩ ⟨(i 1).val / 3072, by omega⟩
  have q0 : win1_4.index t (0 : Fin 2) = (i 0).val / 256 := congrFun ht 0
  have q1 : win1_4.index t (1 : Fin 2) = (i 1).val / 3072 := congrFun ht 1
  refine ⟨t, flush1_4 t, ?_⟩
  rw [mem_blk1_4]
  intro a
  match a with
  | ⟨0, _⟩ => show win1_4.index t (0 : Fin 2) * 256 ≤ (i 0).val ∧ (i 0).val < win1_4.index t (0 : Fin 2) * 256 + 256; omega
  | ⟨1, _⟩ => show win1_4.index t (1 : Fin 2) * 3072 ≤ (i 1).val ∧ (i 1).val < win1_4.index t (1 : Fin 2) * 3072 + 3072; omega

/-- THE ARRAY after region 1: `Q1` of the four arrays the region reads, as it found them. -/
theorem final1 (c : Dev nD) :
    (dat1 (F := Ideal) V c).arrAt 4 cfg1.N = Q1 (V c main_v3_0) (V c main_v1) (V c main_arg4) (V c main_arg5) :=
  (dat1 (F := Ideal) V c).arrAt_eq_of_cover 4 (Q1 (V c main_v3_0) (V c main_v1) (V c main_arg4) (V c main_arg5))
    (fun t _ => flushed1_4_eq V c t) cover1_4_arr

end Cert.KernelIdeal.Hand

end
-- ==== Proof.LibConcat2.lean ====
/-
  Two arrays [R, n₁] and [R, n₂] laid side by side along the lanes, read at an index.

  The concatenation along axis 1 is an [R, n₁ + n₂] array. Its entry in row r at one of the first n₁ lanes is the first
  piece's entry in that row and lane; at lane n₁ + q it is the second piece's entry in row r, lane q. So a row of the
  concatenation is the first piece's row followed by the second piece's row.
-/
import Idealize.ShloMosaic.Lib.Pipeline.Value
import Idealize.ShloMosaic.Lib.ValueIdx

namespace Cert.LibConcat2

open Idealize.ShloMosaic Idealize.ShloMosaic.ValueIdx

variable {α : Type} {R n₁ n₂ w : Nat}

/-- Off the joined axis a piece's coordinates are the result's. -/
private theorem off_axis {n : Nat} (r : Fin R) (l : Fin w) (i : (⟨2, ![R, n]⟩ : Shape).Idx) (hi : (i 0).val = r.val) :
    ∀ bb : Fin (⟨2, ![R, n]⟩ : Shape).rank, bb.cast (rfl : (⟨2, ![R, n]⟩ : Shape).rank = (⟨2, ![R, w]⟩ : Shape).rank) ≠ (1 : Fin 2) →
      (i bb).val = ((ix2 r l : (⟨2, ![R, w]⟩ : Shape).Idx) (bb.cast rfl)).val := by
  intro bb hbb
  match bb with
  | ⟨0, _⟩ => exact hi
  | ⟨1, _⟩ => exact absurd rfl hbb

/-- A lane of the first piece. -/
theorem concatenate2_left (a : (⟨2, ![R, n₁]⟩ : Shape).Idx → α) (b : (⟨2, ![R, n₂]⟩ : Shape).Idx → α)
    (h : Shape.Concatenates ([(⟨⟨2, ![R, n₁]⟩, a⟩ : (s : Shape) × (s.Idx → α)), ⟨⟨2, ![R, n₂]⟩, b⟩].map (·.1))
      ⟨2, ![R, w]⟩ (1 : Fin 2))
    (r : Fin R) (l : Fin w) (q : Fin n₁) (hl : l.val = q.val) :
    concatenate ⟨2, ![R, w]⟩ (1 : Fin 2) [⟨⟨2, ![R, n₁]⟩, a⟩, ⟨⟨2, ![R, n₂]⟩, b⟩] h (ix2 r l) = a (ix2 r q) :=
  concatenate_apply_piece (1 : Fin 2) _ h (ix2 r l) 0 (by simp) ⟨2, ![R, n₁]⟩ a rfl rfl 0 rfl
    (ix2 r q) (off_axis r l _ rfl) (by show 0 + q.val = l.val; omega)

/-- A lane of the second piece. -/
theorem concatenate2_right (a : (⟨2, ![R, n₁]⟩ : Shape).Idx → α) (b : (⟨2, ![R, n₂]⟩ : Shape).Idx → α)
    (h : Shape.Concatenates ([(⟨⟨2, ![R, n₁]⟩, a⟩ : (s : Shape) × (s.Idx → α)), ⟨⟨2, ![R, n₂]⟩, b⟩].map (·.1))
      ⟨2, ![R, w]⟩ (1 : Fin 2))
    (r : Fin R) (l : Fin w) (q : Fin n₂) (hl : l.val = n₁ + q.val) :
    concatenate ⟨2, ![R, w]⟩ (1 : Fin 2) [⟨⟨2, ![R, n₁]⟩, a⟩, ⟨⟨2, ![R, n₂]⟩, b⟩] h (ix2 r l) = b (ix2 r q) :=
  concatenate_apply_piece (1 : Fin 2) _ h (ix2 r l) 1 (by simp) ⟨2, ![R, n₂]⟩ b rfl rfl n₁ (by simp)
    (ix2 r q) (off_axis r l _ rfl) (by show n₁ + q.val = l.val; omega)

end Cert.LibConcat2
-- ==== Proof.KIHostReads.lean ====
/-
  The buffers' contents at each boundary of the program, read, over the extended reals.

  The three host conversions change no value over the extended reals (a change of float format is the identity), so
  after them each converted buffer holds its argument's contents and every argument is as launched. Region 0 changes
  only its two output arrays; region 1 changes only its one output array, which ends at the function `Q1` of region
  0's first output, the converted weights and the two factor tables. The last host operation lays region 1's output
  [4096, 24576] and region 0's second output [4096, 576] side by side: lane n < 24576 of a row of the result is the
  first one's lane n, lane 24576 + j is the second one's lane j.
-/
import proofs.«158685_j77395310674148_2_alg».proof.Proof.KIRun
import proofs.«158685_j77395310674148_2_alg».proof.Proof.Gen.KernelIdeal.Regions
import proofs.«158685_j77395310674148_2_alg».proof.Proof.KIRegion1Array
import proofs.«158685_j77395310674148_2_alg».proof.Proof.LibConcat2
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.ShloMosaic.StableHlo (after_cons after_nil unary_result unary_result_ne binary_result binary_result_ne)
open Idealize.SL.Sem
open Idealize.ShloMosaic.Pipeline (Dat)
open Cert.KernelIdeal Cert.KernelIdeal.Gen

variable (m : (ℓ : Loc nD τ sig) → Buf (Elt Ideal) ℓ) (ρ : Dev nD → PrngReg) (c : Dev nD)

/-! ## After the three conversions -/

/-- The converted hidden-state weights hold the argument's values. -/
theorem V1_v0 : (V1 m ρ c main_v0 : S7168x1536.Idx → EReal) = m ((c : Thread nD τ).loc main_arg1) := by
  dsimp only [V1, W1, W0, hostOps0]
  after_results
  rfl

/-- The converted second-stage weights hold the argument's values. -/
theorem V1_v1 : (V1 m ρ c main_v1 : S1536x24576.Idx → EReal) = m ((c : Thread nD τ).loc main_arg2) := by
  dsimp only [V1, W1, W0, hostOps0]
  after_results
  rfl

/-- The converted third weights hold the argument's values. -/
theorem V1_v2 : (V1 m ρ c main_v2 : S7168x576.Idx → EReal) = m ((c : Thread nD τ).loc main_arg3) := by
  dsimp only [V1, W1, W0, hostOps0]
  after_results
  rfl

/-- No conversion writes an argument. -/
theorem V1_arg0 : V1 m ρ c main_arg0 = m ((c : Thread nD τ).loc main_arg0) :=
  (StableHlo.after_of_writes_sub hostOps0 _ hostOps0_writes (by decide)).trans rfl
theorem V1_arg4 : V1 m ρ c main_arg4 = m ((c : Thread nD τ).loc main_arg4) :=
  (StableHlo.after_of_writes_sub hostOps0 _ hostOps0_writes (by decide)).trans rfl
theorem V1_arg5 : V1 m ρ c main_arg5 = m ((c : Thread nD τ).loc main_arg5) :=
  (StableHlo.after_of_writes_sub hostOps0 _ hostOps0_writes (by decide)).trans rfl
theorem V1_arg6 : V1 m ρ c main_arg6 = m ((c : Thread nD τ).loc main_arg6) :=
  (StableHlo.after_of_writes_sub hostOps0 _ hostOps0_writes (by decide)).trans rfl
theorem V1_arg7 : V1 m ρ c main_arg7 = m ((c : Thread nD τ).loc main_arg7) :=
  (StableHlo.after_of_writes_sub hostOps0 _ hostOps0_writes (by decide)).trans rfl

/-! ## After region 0 -/

/-- The converted second-stage weights are no array of region 0. -/
theorem V2_v1 : (V2 m ρ c main_v1 : S1536x24576.Idx → EReal) = m ((c : Thread nD τ).loc main_arg2) :=
  (W2_of_ne m ρ c main_v1 (by decide)).trans (V1_v1 m ρ c)

/-- The two factor tables are inputs of region 0: it leaves their arrays as it found them. -/
theorem V2_arg4 : V2 m ρ c main_arg4 = m ((c : Thread nD τ).loc main_arg4) :=
  ((W2_arr m ρ c 5).trans (((dat0 (V1 m ρ) c).arrAt_in 5 rfl _).trans (A_eq0 (V1 m ρ) c 5))).trans (V1_arg4 m ρ c)
theorem V2_arg5 : V2 m ρ c main_arg5 = m ((c : Thread nD τ).loc main_arg5) :=
  ((W2_arr m ρ c 6).trans (((dat0 (V1 m ρ) c).arrAt_in 6 rfl _).trans (A_eq0 (V1 m ρ) c 6))).trans (V1_arg5 m ρ c)

/-- Region 0's first output. -/
theorem V2_v3_0 : V2 m ρ c main_v3_0 = (dat0 (V1 m ρ) c).arrAt 7 cfg0.N := W2_arr m ρ c 7

/-! ## After region 1 -/

/-- Region 1's output: `Q1` of region 0's first output, the second-stage weights and the two factor tables. -/
theorem W3_v4 : W3 m ρ c (Proc.devRef .tc main_v4)
    = Q1 ((dat0 (V1 m ρ) c).arrAt 7 cfg0.N) (m ((c : Thread nD τ).loc main_arg2)) (m ((c : Thread nD τ).loc main_arg4))
        (m ((c : Thread nD τ).loc main_arg5)) := by
  refine (W3_arr m ρ c 4).trans ((final1 (V2 m ρ) c).trans ?_)
  rw [V2_v3_0 m ρ c, V2_v1 m ρ c, V2_arg4 m ρ c, V2_arg5 m ρ c]

/-- Region 0's second output is no array of region 1. -/
theorem W3_v3_1 : W3 m ρ c (Proc.devRef .tc main_v3_1) = (dat0 (V1 m ρ) c).arrAt 8 cfg0.N :=
  (W3_of_ne m ρ c main_v3_1 (by decide)).trans (W2_arr m ρ c 8)

/-! ## After the concatenation -/

/-- The result buffer is the two arrays side by side. -/
theorem W4_v5 : (W4 m ρ c (Proc.devRef .tc main_v5) : S4096x25152.Idx → EReal)
    = concatenate S4096x25152 1 [⟨S4096x24576, (W3 m ρ c (Proc.devRef .tc main_v4) : S4096x24576.Idx → EReal)⟩,
        ⟨S4096x576, (W3 m ρ c (Proc.devRef .tc main_v3_1) : S4096x576.Idx → EReal)⟩] concatenates_S4096x24576_S4096x576_S4096x25152_d1 := by
  dsimp only [W4, hostOps2]
  after_results

/-- A lane below 24576 of a row of the result: region 1's output there. -/
theorem W4_v5_q (r : Fin 4096) (n : Fin 24576) :
    (W4 m ρ c (Proc.devRef .tc main_v5) : S4096x25152.Idx → EReal) (ix2 r ⟨n.val, by omega⟩)
      = (W3 m ρ c (Proc.devRef .tc main_v4) : S4096x24576.Idx → EReal) (ix2 r n) := by
  rw [W4_v5 m ρ c]
  exact Cert.LibConcat2.concatenate2_left _ _ _ r ⟨n.val, by omega⟩ n rfl

/-- Lane 24576 + j of a row of the result: region 0's second output at lane j. -/
theorem W4_v5_kv (r : Fin 4096) (j : Fin 576) :
    (W4 m ρ c (Proc.devRef .tc main_v5) : S4096x25152.Idx → EReal) (ix2 r ⟨24576 + j.val, by omega⟩)
      = (W3 m ρ c (Proc.devRef .tc main_v3_1) : S4096x576.Idx → EReal) (ix2 r j) := by
  rw [W4_v5 m ρ c]
  exact Cert.LibConcat2.concatenate2_right _ _ _ r ⟨24576 + j.val, by omega⟩ j rfl

end Cert.KernelIdeal.Hand

end
-- ==== Proof.Spec.lean ====
/-
  The specification: the result array, entry by entry, as a function of the eight argument arrays over the
  extended reals. T = 4096 tokens (rows r), hidden width 7168.

  Query path.  accQ[r,j] = Σ_{k<7168} x[r,k]·wa[k,j] (j < 1536) is the down-projection; its row is RMS-normalised:
  cqRow[r,j] = (accQ[r,j] · rsqrt((Σ_{j'<1536} accQ[r,j']²)/1536 + ε)) · gq[j]; the up-projection is
  qFull[r,n] = Σ_{j<1536} cqRow[r,j]·wb[j,n] for n < 24576 = 128 heads × 192 lanes (head n/192, lane n%192).
  The first 128 lanes of a head pass through; the last 64 (e = n%192 − 128) are rotated in half-pairs:
  queryOut[r,n] = qFull[r,n]·cos[r,e] + rot·sin[r,e], rot = −qFull[r,n+32] for e < 32 and qFull[r,n−32] for e ≥ 32.

  Key/value path.  kvAcc[r,j] = Σ_{k<7168} x[r,k]·wkv[k,j] (j < 576). Its first 512 lanes are RMS-normalised over
  those 512 lanes with weight gkv (ckvOut); its last 64 lanes are rotated exactly as above (kropeOut).

  The result row is queryOut's 24576 lanes, then ckvOut's 512, then kropeOut's 64: 25152 lanes.

  The float literals (ε, the divisors 1536 and 512) stay the words the programs print; nothing here depends on
  their values.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix of extended reals with literal extents. -/
abbrev Mat (a b : Nat) : Type := (⟨2, ![a, b]⟩ : Shape).Idx → EReal
/-- A vector of extended reals with a literal extent. -/
abbrev Vect (a : Nat) : Type := (⟨1, ![a]⟩ : Shape).Idx → EReal

/-- The query down-projection: row r of x against column j of wa. -/
def accQ (x : Mat 4096 7168) (wa : Mat 7168 1536) (r : Fin 4096) (j : Fin 1536) : EReal :=
  ∑ k : Fin 7168, x (ix2 r k) * wa (ix2 k j)

/-- The reciprocal root-mean-square of row r of the down-projection: rsqrt(mean of squares + ε). -/
def scaleQ (x : Mat 4096 7168) (wa : Mat 7168 1536) (r : Fin 4096) : EReal :=
  Ideal.rsqrt (Ideal.div (∑ j : Fin 1536, accQ x wa r j * accQ x wa r j) (Ideal.ofBits .f32 0x44C00000#32)
    + Ideal.ofBits .f32 0x358637BD#32)

/-- The normalised, weighted down-projection. -/
def cqRow (x : Mat 4096 7168) (wa : Mat 7168 1536) (gq : Vect 1536) (r : Fin 4096) (j : Fin 1536) : EReal :=
  accQ x wa r j * scaleQ x wa r * gq (ix1 j)

/-- The query up-projection, all 128 heads side by side. -/
def qFull (x : Mat 4096 7168) (wa : Mat 7168 1536) (wb : Mat 1536 24576) (gq : Vect 1536)
    (r : Fin 4096) (n : Fin 24576) : EReal :=
  ∑ j : Fin 1536, cqRow x wa gq r j * wb (ix2 j n)

/-- The query with the last 64 lanes of every head rotated. -/
def queryOut (x : Mat 4096 7168) (wa : Mat 7168 1536) (wb : Mat 1536 24576) (cos sin : Mat 4096 64) (gq : Vect 1536)
    (r : Fin 4096) (n : Fin 24576) : EReal :=
  if hd : n.val % 192 < 128 then qFull x wa wb gq r n
  else
    qFull x wa wb gq r n * cos (ix2 r ⟨n.val % 192 - 128, by omega⟩)
    + (if he : n.val % 192 - 128 < 32 then -(qFull x wa wb gq r ⟨n.val + 32, by have := n.isLt; omega⟩)
        else qFull x wa wb gq r ⟨n.val - 32, by have := n.isLt; omega⟩)
      * sin (ix2 r ⟨n.val % 192 - 128, by omega⟩)

/-- The joint key/value down-projection. -/
def kvAcc (x : Mat 4096 7168) (wkv : Mat 7168 576) (r : Fin 4096) (j : Fin 576) : EReal :=
  ∑ k : Fin 7168, x (ix2 r k) * wkv (ix2 k j)

/-- The reciprocal root-mean-square of the first 512 lanes of row r of the key/value projection. -/
def scaleKV (x : Mat 4096 7168) (wkv : Mat 7168 576) (r : Fin 4096) : EReal :=
  Ideal.rsqrt (Ideal.div
      (∑ j : Fin 512, kvAcc x wkv r ⟨j.val, by have := j.isLt; omega⟩ * kvAcc x wkv r ⟨j.val, by have := j.isLt; omega⟩)
      (Ideal.ofBits .f32 0x44000000#32)
    + Ideal.ofBits .f32 0x358637BD#32)

/-- The normalised, weighted latent: the first 512 lanes. -/
def ckvOut (x : Mat 4096 7168) (wkv : Mat 7168 576) (gkv : Vect 512) (r : Fin 4096) (j : Fin 512) : EReal :=
  kvAcc x wkv r ⟨j.val, by have := j.isLt; omega⟩ * scaleKV x wkv r * gkv (ix1 j)

/-- The rotated key: the last 64 lanes. -/
def kropeOut (x : Mat 4096 7168) (wkv : Mat 7168 576) (cos sin : Mat 4096 64) (r : Fin 4096) (e : Fin 64) : EReal :=
  kvAcc x wkv r ⟨512 + e.val, by have := e.isLt; omega⟩ * cos (ix2 r e)
  + (if he : e.val < 32 then -(kvAcc x wkv r ⟨512 + e.val + 32, by omega⟩)
      else kvAcc x wkv r ⟨512 + e.val - 32, by have := e.isLt; omega⟩)
    * sin (ix2 r e)

/-- The result at row r, lane c: the three pieces side by side. -/
def Grc (x : Mat 4096 7168) (wa : Mat 7168 1536) (wb : Mat 1536 24576) (wkv : Mat 7168 576) (cos sin : Mat 4096 64)
    (gq : Vect 1536) (gkv : Vect 512) (r : Fin 4096) (c : Fin 25152) : EReal :=
  if h0 : c.val < 24576 then queryOut x wa wb cos sin gq r ⟨c.val, h0⟩
  else if h1 : c.val < 25088 then ckvOut x wkv gkv r ⟨c.val - 24576, by omega⟩
  else kropeOut x wkv cos sin r ⟨c.val - 25088, by have := c.isLt; omega⟩

/-- The whole result array as one function of the argument arrays. -/
def G (x : Mat 4096 7168) (wa : Mat 7168 1536) (wb : Mat 1536 24576) (wkv : Mat 7168 576) (cos sin : Mat 4096 64)
    (gq : Vect 1536) (gkv : Vect 512) : (⟨2, ![4096, 25152]⟩ : Shape).Idx → EReal :=
  fun j => Grc x wa wb wkv cos sin gq gkv (j 0) (j 1)

/-- The result array read at row r, lane c. -/
theorem G_apply (x : Mat 4096 7168) (wa : Mat 7168 1536) (wb : Mat 1536 24576) (wkv : Mat 7168 576) (cos sin : Mat 4096 64)
    (gq : Vect 1536) (gkv : Vect 512) (r : Fin 4096) (c : Fin 25152) :
    G x wa wb wkv cos sin gq gkv (ix2 r c) = Grc x wa wb wkv cos sin gq gkv r c := rfl

/-- An array that agrees with the specification at every row and lane is the specification. -/
theorem eq_G_of_apply (x : Mat 4096 7168) (wa : Mat 7168 1536) (wb : Mat 1536 24576) (wkv : Mat 7168 576) (cos sin : Mat 4096 64)
    (gq : Vect 1536) (gkv : Vect 512) (f : (⟨2, ![4096, 25152]⟩ : Shape).Idx → EReal)
    (h : ∀ (r : Fin 4096) (c : Fin 25152), f (ix2 r c) = Grc x wa wb wkv cos sin gq gkv r c) :
    f = G x wa wb wkv cos sin gq gkv := by
  funext j
  obtain ⟨r, c, rfl⟩ : ∃ (r : Fin 4096) (c : Fin 25152), j = ix2 r c := ⟨j 0, j 1, eq_ix2 j⟩
  exact h r c

/-- A lane of the query piece. -/
theorem Grc_query (x : Mat 4096 7168) (wa : Mat 7168 1536) (wb : Mat 1536 24576) (wkv : Mat 7168 576) (cos sin : Mat 4096 64)
    (gq : Vect 1536) (gkv : Vect 512) (r : Fin 4096) (c : Fin 25152) (n : Fin 24576) (hc : c.val = n.val) :
    Grc x wa wb wkv cos sin gq gkv r c = queryOut x wa wb cos sin gq r n := by
  unfold Grc
  rw [dif_pos (by have := n.isLt; omega)]
  exact congrArg _ (Fin.ext hc)

/-- A lane of the latent piece. -/
theorem Grc_ckv (x : Mat 4096 7168) (wa : Mat 7168 1536) (wb : Mat 1536 24576) (wkv : Mat 7168 576) (cos sin : Mat 4096 64)
    (gq : Vect 1536) (gkv : Vect 512) (r : Fin 4096) (c : Fin 25152) (j : Fin 512) (hc : c.val = 24576 + j.val) :
    Grc x wa wb wkv cos sin gq gkv r c = ckvOut x wkv gkv r j := by
  unfold Grc
  rw [dif_neg (by omega), dif_pos (by have := j.isLt; omega)]
  exact congrArg _ (Fin.ext (by show c.val - 24576 = j.val; omega))

/-- A lane of the rotated-key piece. -/
theorem Grc_krope (x : Mat 4096 7168) (wa : Mat 7168 1536) (wb : Mat 1536 24576) (wkv : Mat 7168 576) (cos sin : Mat 4096 64)
    (gq : Vect 1536) (gkv : Vect 512) (r : Fin 4096) (c : Fin 25152) (e : Fin 64) (hc : c.val = 25088 + e.val) :
    Grc x wa wb wkv cos sin gq gkv r c = kropeOut x wkv cos sin r e := by
  unfold Grc
  rw [dif_neg (by omega), dif_neg (by omega)]
  exact congrArg _ (Fin.ext (by show c.val - 25088 = e.val; omega))

end Cert.Spec

end
-- ==== Proof.LibHeadSplit.lean ====
/-
  The pre-activation of the head in its two arrangements, over the extended reals. The kernel takes one product of the
  activations X : [128, 16384] with W : [16384, 128]; the reference clears an accumulator and adds four block products,
  block j taking columns 4096 j … 4096 j + 4095 of X and the same rows of W. Entry (r, k) is the sum over q of
  X[r, q] · W[q, k] on one side and 0 + the four block sums on the other: a sum over 4 · 4096 positions cut into four
  consecutive blocks (`sum_four_blocks`). Only the association and order of a finite sum and `0 + s = s` are used.
-/
import Mathlib.Algebra.BigOperators.Fin
import Mathlib.Logic.Equiv.Fin.Basic

noncomputable section

namespace HeadSplit

/-- A sum over 4·n consecutive positions is the sum of its four blocks of n, in order. -/
theorem sum_four_blocks {M : Type*} [AddCommMonoid M] (n : Nat) (f : Fin (4 * n) → M) :
    ∑ q : Fin (4 * n), f q
      = (((∑ k : Fin n, f ⟨0 * n + k.val, by have := k.isLt; omega⟩) + ∑ k : Fin n, f ⟨1 * n + k.val, by have := k.isLt; omega⟩)
          + ∑ k : Fin n, f ⟨2 * n + k.val, by have := k.isLt; omega⟩) + ∑ k : Fin n, f ⟨3 * n + k.val, by have := k.isLt; omega⟩ := by
  rw [← finProdFinEquiv.sum_comp, Fintype.sum_prod_type, Fin.sum_univ_four]
  have hv : ∀ (a : Fin 4) (k : Fin n), (finProdFinEquiv (a, k)).val = a.val * n + k.val := by
    intro a k; simp [finProdFinEquiv, Nat.mul_comm, Nat.add_comm]
  have e : ∀ (a : Fin 4) (h : ∀ k : Fin n, a.val * n + k.val < 4 * n),
      (∑ k : Fin n, f (finProdFinEquiv (a, k))) = ∑ k : Fin n, f ⟨a.val * n + k.val, h k⟩ :=
    fun a h => Finset.sum_congr rfl fun k _ => congrArg f (Fin.ext (hv a k))
  rw [e 0 (fun k => by have := k.isLt; simp; omega), e 1 (fun k => by have := k.isLt; simp; omega),
    e 2 (fun k => by have := k.isLt; simp; omega), e 3 (fun k => by have := k.isLt; simp; omega)]
  rfl

end HeadSplit

end
-- ==== Proof.KernelSpec.lean ====
/-
  The kernel's arrangement of the computation is the specification.

  The kernel forms each dot product over the 7168 hidden positions as an accumulator that starts at zero and
  receives four consecutive blocks of 1792 products (blk4); a finite sum may be cut into consecutive blocks, so this
  is the plain sum (blk4_eq). It normalises and weights the rows as the specification does, rotates the rotary
  lanes with the partner written 0 − v where the specification has −v, and writes the query's lanes and then the
  key/value lanes side by side into the result row. Given the kernel's arrays entry by entry in that form, the
  result array is G.
-/
import proofs.«158685_j77395310674148_2_alg».proof.Proof.Spec
import proofs.«158685_j77395310674148_2_alg».proof.Proof.LibHeadSplit

noncomputable section

namespace Cert.KernelSpec

open Idealize.ShloMosaic Idealize.ShloMosaic.ValueIdx Cert.Spec

/-- A sum over the 7168 hidden positions as the kernel accumulates it: from zero, four consecutive blocks of 1792. -/
def blk4 (f : Fin 7168 → EReal) : EReal :=
  (((0 + ∑ kk : Fin 1792, f ⟨kk.val, by have := kk.isLt; omega⟩)
      + ∑ kk : Fin 1792, f ⟨1792 + kk.val, by have := kk.isLt; omega⟩)
    + ∑ kk : Fin 1792, f ⟨2 * 1792 + kk.val, by have := kk.isLt; omega⟩)
  + ∑ kk : Fin 1792, f ⟨3 * 1792 + kk.val, by have := kk.isLt; omega⟩

/-- The blocked accumulation is the plain sum: only the order and grouping of a finite sum and 0 + s = s. -/
theorem blk4_eq (f : Fin 7168 → EReal) : blk4 f = ∑ k : Fin 7168, f k := by
  unfold blk4
  rw [zero_add]
  have e0 : (∑ kk : Fin 1792, f ⟨kk.val, by have := kk.isLt; omega⟩)
      = ∑ k : Fin 1792, f ⟨0 * 1792 + k.val, by have := k.isLt; omega⟩ :=
    Finset.sum_congr rfl fun k _ => congrArg f (Fin.ext (by show k.val = 0 * 1792 + k.val; omega))
  rw [e0]
  exact (HeadSplit.sum_four_blocks 1792 f).symm

/-- The query down-projection as the kernel accumulates it. -/
def accq (x : Mat 4096 7168) (wa : Mat 7168 1536) (r : Fin 4096) (j : Fin 1536) : EReal :=
  blk4 fun k => x (ix2 r k) * wa (ix2 k j)

/-- The key/value down-projection as the kernel accumulates it. -/
def akv (x : Mat 4096 7168) (wkv : Mat 7168 576) (r : Fin 4096) (j : Fin 576) : EReal :=
  blk4 fun k => x (ix2 r k) * wkv (ix2 k j)

theorem accq_eq (x : Mat 4096 7168) (wa : Mat 7168 1536) (r : Fin 4096) (j : Fin 1536) :
    accq x wa r j = accQ x wa r j := blk4_eq _

theorem akv_eq (x : Mat 4096 7168) (wkv : Mat 7168 576) (r : Fin 4096) (j : Fin 576) :
    akv x wkv r j = kvAcc x wkv r j := blk4_eq _

section pieces

variable (x : Mat 4096 7168) (wa : Mat 7168 1536) (wb : Mat 1536 24576) (wkv : Mat 7168 576) (cs sn : Mat 4096 64)
  (gq : Vect 1536) (gkv : Vect 512) (cq : Mat 4096 1536) (kvo : Mat 4096 576) (q : Mat 4096 24576)

/-- The kernel's normalised down-projection is the specification's. -/
theorem cq_eq
    (hcq : ∀ (r : Fin 4096) (j : Fin 1536), cq (ix2 r j)
      = accq x wa r j * Ideal.rsqrt (Ideal.div (∑ j' : Fin 1536, accq x wa r j' * accq x wa r j')
          (Ideal.ofBits .f32 0x44C00000#32) + Ideal.ofBits .f32 0x358637BD#32) * gq (ix1 j))
    (r : Fin 4096) (j : Fin 1536) : cq (ix2 r j) = cqRow x wa gq r j := by
  rw [hcq]
  simp only [accq_eq]
  rfl

/-- A row of the normalised down-projection against a column of wb is the specification's up-projection. -/
theorem qsum_eq (hcq' : ∀ (r : Fin 4096) (j : Fin 1536), cq (ix2 r j) = cqRow x wa gq r j)
    (r : Fin 4096) (n : Fin 24576) :
    (∑ j : Fin 1536, cq (ix2 r j) * wb (ix2 j n)) = qFull x wa wb gq r n := by
  unfold qFull
  exact Finset.sum_congr rfl fun j _ => by rw [hcq']

/-- The kernel's query, pass-through and rotated lanes alike, is the specification's. -/
theorem q_eq (hcq' : ∀ (r : Fin 4096) (j : Fin 1536), cq (ix2 r j) = cqRow x wa gq r j)
    (hq_lo : ∀ (r : Fin 4096) (n : Fin 24576), n.val % 192 < 128 →
      q (ix2 r n) = ∑ j : Fin 1536, cq (ix2 r j) * wb (ix2 j n))
    (hq_rot_lo : ∀ (r : Fin 4096) (n : Fin 24576) (e : Fin 64), n.val % 192 = 128 + e.val → e.val < 32 →
      ∀ (n' : Fin 24576), n'.val = n.val + 32 →
        q (ix2 r n) = (∑ j : Fin 1536, cq (ix2 r j) * wb (ix2 j n)) * cs (ix2 r e)
          + (0 - ∑ j : Fin 1536, cq (ix2 r j) * wb (ix2 j n')) * sn (ix2 r e))
    (hq_rot_hi : ∀ (r : Fin 4096) (n : Fin 24576) (e : Fin 64), n.val % 192 = 128 + e.val → 32 ≤ e.val →
      ∀ (n' : Fin 24576), n'.val + 32 = n.val →
        q (ix2 r n) = (∑ j : Fin 1536, cq (ix2 r j) * wb (ix2 j n)) * cs (ix2 r e)
          + (∑ j : Fin 1536, cq (ix2 r j) * wb (ix2 j n')) * sn (ix2 r e))
    (r : Fin 4096) (n : Fin 24576) : q (ix2 r n) = queryOut x wa wb cs sn gq r n := by
  have hn := n.isLt
  have hs : ∀ n' : Fin 24576, (∑ j : Fin 1536, cq (ix2 r j) * wb (ix2 j n')) = qFull x wa wb gq r n' :=
    fun n' => qsum_eq x wa wb gq cq hcq' r n'
  unfold queryOut
  by_cases hd : n.val % 192 < 128
  · rw [dif_pos hd, hq_lo r n hd, hs]
  · rw [dif_neg hd]
    by_cases he : n.val % 192 - 128 < 32
    · rw [dif_pos he, hq_rot_lo r n (⟨n.val % 192 - 128, by omega⟩ : Fin 64)
        (by show n.val % 192 = 128 + (n.val % 192 - 128); omega) he (⟨n.val + 32, by omega⟩ : Fin 24576) rfl,
        hs, hs, zero_sub]
    · rw [dif_neg he, hq_rot_hi r n (⟨n.val % 192 - 128, by omega⟩ : Fin 64)
        (by show n.val % 192 = 128 + (n.val % 192 - 128); omega) (by show 32 ≤ n.val % 192 - 128; omega)
        (⟨n.val - 32, by omega⟩ : Fin 24576) (by show n.val - 32 + 32 = n.val; omega), hs, hs]

/-- The kernel's normalised latent lanes are the specification's. -/
theorem ckv_eq
    (hkv_lo : ∀ (r : Fin 4096) (j : Fin 512), kvo (ix2 r ⟨j.val, by have := j.isLt; omega⟩)
      = akv x wkv r ⟨j.val, by have := j.isLt; omega⟩
        * Ideal.rsqrt (Ideal.div (∑ j' : Fin 512, akv x wkv r ⟨j'.val, by have := j'.isLt; omega⟩
              * akv x wkv r ⟨j'.val, by have := j'.isLt; omega⟩)
            (Ideal.ofBits .f32 0x44000000#32) + Ideal.ofBits .f32 0x358637BD#32) * gkv (ix1 j))
    (r : Fin 4096) (j : Fin 512) :
    kvo (ix2 r ⟨j.val, by have := j.isLt; omega⟩) = ckvOut x wkv gkv r j := by
  rw [hkv_lo]
  simp only [akv_eq]
  rfl

/-- The kernel's rotated key lanes are the specification's: 0 − v is −v. -/
theorem krope_eq
    (hkv_rot_lo : ∀ (r : Fin 4096) (e : Fin 64) (he : e.val < 32),
      kvo (ix2 r ⟨512 + e.val, by omega⟩) = akv x wkv r ⟨512 + e.val, by omega⟩ * cs (ix2 r e)
        + (0 - akv x wkv r ⟨512 + e.val + 32, by omega⟩) * sn (ix2 r e))
    (hkv_rot_hi : ∀ (r : Fin 4096) (e : Fin 64) (_he : 32 ≤ e.val),
      kvo (ix2 r ⟨512 + e.val, by have := e.isLt; omega⟩) = akv x wkv r ⟨512 + e.val, by have := e.isLt; omega⟩ * cs (ix2 r e)
        + akv x wkv r ⟨512 + e.val - 32, by have := e.isLt; omega⟩ * sn (ix2 r e))
    (r : Fin 4096) (e : Fin 64) :
    kvo (ix2 r ⟨512 + e.val, by have := e.isLt; omega⟩) = kropeOut x wkv cs sn r e := by
  unfold kropeOut
  by_cases he : e.val < 32
  · rw [dif_pos he, hkv_rot_lo r e he, zero_sub]
    simp only [akv_eq]
  · rw [dif_neg he, hkv_rot_hi r e (Nat.le_of_not_lt he)]
    simp only [akv_eq]

end pieces

/-- **The kernel's arrays, given entry by entry in the form the kernel computes them, make the specification.** -/
theorem kernel_is_G (x : Mat 4096 7168) (wa : Mat 7168 1536) (wb : Mat 1536 24576) (wkv : Mat 7168 576)
    (cs sn : Mat 4096 64) (gq : Vect 1536) (gkv : Vect 512)
    (cq : Mat 4096 1536) (kvo : Mat 4096 576) (q : Mat 4096 24576) (out : Mat 4096 25152)
    (hcq : ∀ (r : Fin 4096) (j : Fin 1536), cq (ix2 r j)
      = accq x wa r j * Ideal.rsqrt (Ideal.div (∑ j' : Fin 1536, accq x wa r j' * accq x wa r j')
          (Ideal.ofBits .f32 0x44C00000#32) + Ideal.ofBits .f32 0x358637BD#32) * gq (ix1 j))
    (hkv_lo : ∀ (r : Fin 4096) (j : Fin 512), kvo (ix2 r ⟨j.val, by have := j.isLt; omega⟩)
      = akv x wkv r ⟨j.val, by have := j.isLt; omega⟩
        * Ideal.rsqrt (Ideal.div (∑ j' : Fin 512, akv x wkv r ⟨j'.val, by have := j'.isLt; omega⟩
              * akv x wkv r ⟨j'.val, by have := j'.isLt; omega⟩)
            (Ideal.ofBits .f32 0x44000000#32) + Ideal.ofBits .f32 0x358637BD#32) * gkv (ix1 j))
    (hkv_rot_lo : ∀ (r : Fin 4096) (e : Fin 64) (he : e.val < 32),
      kvo (ix2 r ⟨512 + e.val, by omega⟩) = akv x wkv r ⟨512 + e.val, by omega⟩ * cs (ix2 r e)
        + (0 - akv x wkv r ⟨512 + e.val + 32, by omega⟩) * sn (ix2 r e))
    (hkv_rot_hi : ∀ (r : Fin 4096) (e : Fin 64) (_he : 32 ≤ e.val),
      kvo (ix2 r ⟨512 + e.val, by have := e.isLt; omega⟩) = akv x wkv r ⟨512 + e.val, by have := e.isLt; omega⟩ * cs (ix2 r e)
        + akv x wkv r ⟨512 + e.val - 32, by have := e.isLt; omega⟩ * sn (ix2 r e))
    (hq_lo : ∀ (r : Fin 4096) (n : Fin 24576), n.val % 192 < 128 →
      q (ix2 r n) = ∑ j : Fin 1536, cq (ix2 r j) * wb (ix2 j n))
    (hq_rot_lo : ∀ (r : Fin 4096) (n : Fin 24576) (e : Fin 64), n.val % 192 = 128 + e.val → e.val < 32 →
      ∀ (n' : Fin 24576), n'.val = n.val + 32 →
        q (ix2 r n) = (∑ j : Fin 1536, cq (ix2 r j) * wb (ix2 j n)) * cs (ix2 r e)
          + (0 - ∑ j : Fin 1536, cq (ix2 r j) * wb (ix2 j n')) * sn (ix2 r e))
    (hq_rot_hi : ∀ (r : Fin 4096) (n : Fin 24576) (e : Fin 64), n.val % 192 = 128 + e.val → 32 ≤ e.val →
      ∀ (n' : Fin 24576), n'.val + 32 = n.val →
        q (ix2 r n) = (∑ j : Fin 1536, cq (ix2 r j) * wb (ix2 j n)) * cs (ix2 r e)
          + (∑ j : Fin 1536, cq (ix2 r j) * wb (ix2 j n')) * sn (ix2 r e))
    (hout_q : ∀ (r : Fin 4096) (n : Fin 24576), out (ix2 r ⟨n.val, by have := n.isLt; omega⟩) = q (ix2 r n))
    (hout_kv : ∀ (r : Fin 4096) (j : Fin 576), out (ix2 r ⟨24576 + j.val, by have := j.isLt; omega⟩) = kvo (ix2 r j)) :
    out = G x wa wb wkv cs sn gq gkv := by
  have hcq' := cq_eq x wa gq cq hcq
  refine eq_G_of_apply x wa wb wkv cs sn gq gkv out fun r c => ?_
  have hc := c.isLt
  by_cases h0 : c.val < 24576
  · rw [Grc_query x wa wb wkv cs sn gq gkv r c (⟨c.val, h0⟩ : Fin 24576) rfl]
    exact (hout_q r ⟨c.val, h0⟩).trans (q_eq x wa wb cs sn gq cq q hcq' hq_lo hq_rot_lo hq_rot_hi r ⟨c.val, h0⟩)
  · by_cases h1 : c.val < 25088
    · rw [Grc_ckv x wa wb wkv cs sn gq gkv r c (⟨c.val - 24576, by omega⟩ : Fin 512)
        (by show c.val = 24576 + (c.val - 24576); omega)]
      have e : out (ix2 r c) = kvo (ix2 r (⟨c.val - 24576, by omega⟩ : Fin 576)) := by
        rw [← hout_kv r ⟨c.val - 24576, by omega⟩]
        exact congrArg (fun t => out (ix2 r t)) (Fin.ext (by show c.val = 24576 + (c.val - 24576); omega))
      rw [e]
      exact ckv_eq x wkv gkv kvo hkv_lo r ⟨c.val - 24576, by omega⟩
    · rw [Grc_krope x wa wb wkv cs sn gq gkv r c (⟨c.val - 25088, by omega⟩ : Fin 64)
        (by show c.val = 25088 + (c.val - 25088); omega)]
      have e : out (ix2 r c) = kvo (ix2 r (⟨512 + (c.val - 25088), by omega⟩ : Fin 576)) := by
        rw [← hout_kv r ⟨512 + (c.val - 25088), by omega⟩]
        exact congrArg (fun t => out (ix2 r t)) (Fin.ext (by show c.val = 24576 + (512 + (c.val - 25088)); omega))
      rw [e]
      exact krope_eq x wkv cs sn kvo hkv_rot_lo hkv_rot_hi r ⟨c.val - 25088, by omega⟩

end Cert.KernelSpec

end
-- ==== Proof.KIAssemble.lean ====
/-
  The kernel program's result is the specification.  Read through the boundary contents: the packed array is the
  concatenation of the query array and the key-value array; the query array is the second region's function of the
  normalised query latent, the second weight and the rope tables; the latent and the key-value array are the first
  region's two outputs, rows normalised from sums taken as four consecutive blocks of the contraction; and the
  converted weights are the weights themselves over the extended reals.  Together: `Cert.Spec.G` of the arguments.
-/
import proofs.«158685_j77395310674148_2_alg».proof.Proof.KIHostReads
import proofs.«158685_j77395310674148_2_alg».proof.Proof.KIFrameArgs
import proofs.«158685_j77395310674148_2_alg».proof.Proof.KernelSpec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.Spec Idealize.ShloMosaic.ValueIdx

variable (m : (ℓ : Loc nD τ sig) → Buf (Elt Ideal) ℓ) (ρ : Dev nD → PrngReg)

/-- The packed result array at the end is `G` of the launch contents of the eight arguments, given what the first
    region's two output arrays hold (the four facts of its blocks-to-arrays step). -/
theorem W4_v5_is_G (c : Dev nD)
    (h7 : ∀ (R : Fin 4096) (j : Fin 1536), ((dat0 (F := Ideal) (V1 m ρ) c).arrAt 7 cfg0.N) (ix2 R j) = Cert.KernelSpec.accq (V1 m ρ c main_arg0) (V1 m ρ c main_v0) R j * Ideal.rsqrt (Ideal.div (∑ j' : Fin 1536, Cert.KernelSpec.accq (V1 m ρ c main_arg0) (V1 m ρ c main_v0) R j' * Cert.KernelSpec.accq (V1 m ρ c main_arg0) (V1 m ρ c main_v0) R j') (Ideal.ofBits .f32 0x44C00000#32) + (Ideal.ofBits .f32 0x358637BD#32)) * V1 m ρ c main_arg6 (ix1 j))
    (h8lo : ∀ (R : Fin 4096) (j : Fin 512), ((dat0 (F := Ideal) (V1 m ρ) c).arrAt 8 cfg0.N) (ix2 R ⟨j.val, by omega⟩) = Cert.KernelSpec.akv (V1 m ρ c main_arg0) (V1 m ρ c main_v2) R ⟨j.val, by omega⟩ * Ideal.rsqrt (Ideal.div (∑ j' : Fin 512, Cert.KernelSpec.akv (V1 m ρ c main_arg0) (V1 m ρ c main_v2) R ⟨j'.val, by omega⟩ * Cert.KernelSpec.akv (V1 m ρ c main_arg0) (V1 m ρ c main_v2) R ⟨j'.val, by omega⟩) (Ideal.ofBits .f32 0x44000000#32) + (Ideal.ofBits .f32 0x358637BD#32)) * V1 m ρ c main_arg7 (ix1 j))
    (h8rl : ∀ (R : Fin 4096) (e : Fin 64) (he : e.val < 32), ((dat0 (F := Ideal) (V1 m ρ) c).arrAt 8 cfg0.N) (ix2 R ⟨512 + e.val, by omega⟩) = Cert.KernelSpec.akv (V1 m ρ c main_arg0) (V1 m ρ c main_v2) R ⟨512 + e.val, by omega⟩ * V1 m ρ c main_arg4 (ix2 R e) + (0 - Cert.KernelSpec.akv (V1 m ρ c main_arg0) (V1 m ρ c main_v2) R ⟨512 + e.val + 32, by omega⟩) * V1 m ρ c main_arg5 (ix2 R e))
    (h8rh : ∀ (R : Fin 4096) (e : Fin 64) (he : 32 ≤ e.val), ((dat0 (F := Ideal) (V1 m ρ) c).arrAt 8 cfg0.N) (ix2 R ⟨512 + e.val, by omega⟩) = Cert.KernelSpec.akv (V1 m ρ c main_arg0) (V1 m ρ c main_v2) R ⟨512 + e.val, by omega⟩ * V1 m ρ c main_arg4 (ix2 R e) + Cert.KernelSpec.akv (V1 m ρ c main_arg0) (V1 m ρ c main_v2) R ⟨512 + e.val - 32, by omega⟩ * V1 m ρ c main_arg5 (ix2 R e)) :
    (W4 m ρ c (Proc.devRef .tc main_v5) : S4096x25152.Idx → EReal)
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [V1_arg0 m ρ c, V1_v0 m ρ c, V1_arg6 m ρ c] at h7
  rw [V1_arg0 m ρ c, V1_v2 m ρ c, V1_arg7 m ρ c] at h8lo
  rw [V1_arg0 m ρ c, V1_v2 m ρ c, V1_arg4 m ρ c, V1_arg5 m ρ c] at h8rl h8rh
  refine Cert.KernelSpec.kernel_is_G _ _ _ _ _ _ _ _ ((dat0 (F := Ideal) (V1 m ρ) c).arrAt 7 cfg0.N) ((dat0 (F := Ideal) (V1 m ρ) c).arrAt 8 cfg0.N)
    (W3 m ρ c (Proc.devRef .tc main_v4)) _ h7 h8lo h8rl h8rh ?_ ?_ ?_ ?_ ?_
  · intro r n hd
    rw [W3_v4 m ρ c]
    exact Q1_apply_lo _ _ _ _ r n hd
  · intro r n e hd he n' hn'
    rw [W3_v4 m ρ c]
    exact Q1_apply_rot_lo _ _ _ _ r n e hd he n' hn'
  · intro r n e hd he n' hn'
    rw [W3_v4 m ρ c]
    exact Q1_apply_rot_hi _ _ _ _ r n e hd he n' hn'
  · intro r n
    exact W4_v5_q m ρ c r n
  · intro r j
    rw [← W3_v3_1 m ρ c]
    exact W4_v5_kv m ρ c r j

/-- The kernel program's run, read: the packed result at `G` of the arguments, the arguments unchanged. -/
theorem run_G (h7 : ∀ c : Dev nD, ∀ (R : Fin 4096) (j : Fin 1536), ((dat0 (F := Ideal) (V1 m ρ) c).arrAt 7 cfg0.N) (ix2 R j) = Cert.KernelSpec.accq (V1 m ρ c main_arg0) (V1 m ρ c main_v0) R j * Ideal.rsqrt (Ideal.div (∑ j' : Fin 1536, Cert.KernelSpec.accq (V1 m ρ c main_arg0) (V1 m ρ c main_v0) R j' * Cert.KernelSpec.accq (V1 m ρ c main_arg0) (V1 m ρ c main_v0) R j') (Ideal.ofBits .f32 0x44C00000#32) + (Ideal.ofBits .f32 0x358637BD#32)) * V1 m ρ c main_arg6 (ix1 j)) (h8lo : ∀ c : Dev nD, ∀ (R : Fin 4096) (j : Fin 512), ((dat0 (F := Ideal) (V1 m ρ) c).arrAt 8 cfg0.N) (ix2 R ⟨j.val, by omega⟩) = Cert.KernelSpec.akv (V1 m ρ c main_arg0) (V1 m ρ c main_v2) R ⟨j.val, by omega⟩ * Ideal.rsqrt (Ideal.div (∑ j' : Fin 512, Cert.KernelSpec.akv (V1 m ρ c main_arg0) (V1 m ρ c main_v2) R ⟨j'.val, by omega⟩ * Cert.KernelSpec.akv (V1 m ρ c main_arg0) (V1 m ρ c main_v2) R ⟨j'.val, by omega⟩) (Ideal.ofBits .f32 0x44000000#32) + (Ideal.ofBits .f32 0x358637BD#32)) * V1 m ρ c main_arg7 (ix1 j)) (h8rl : ∀ c : Dev nD, ∀ (R : Fin 4096) (e : Fin 64) (he : e.val < 32), ((dat0 (F := Ideal) (V1 m ρ) c).arrAt 8 cfg0.N) (ix2 R ⟨512 + e.val, by omega⟩) = Cert.KernelSpec.akv (V1 m ρ c main_arg0) (V1 m ρ c main_v2) R ⟨512 + e.val, by omega⟩ * V1 m ρ c main_arg4 (ix2 R e) + (0 - Cert.KernelSpec.akv (V1 m ρ c main_arg0) (V1 m ρ c main_v2) R ⟨512 + e.val + 32, by omega⟩) * V1 m ρ c main_arg5 (ix2 R e)) (h8rh : ∀ c : Dev nD, ∀ (R : Fin 4096) (e : Fin 64) (he : 32 ≤ e.val), ((dat0 (F := Ideal) (V1 m ρ) c).arrAt 8 cfg0.N) (ix2 R ⟨512 + e.val, by omega⟩) = Cert.KernelSpec.akv (V1 m ρ c main_arg0) (V1 m ρ c main_v2) R ⟨512 + e.val, by omega⟩ * V1 m ρ c main_arg4 (ix2 R e) + Cert.KernelSpec.akv (V1 m ρ c main_arg0) (V1 m ρ c main_v2) R ⟨512 + e.val - 32, by omega⟩ * V1 m ρ c main_arg5 (ix2 R e)) :
    θ_run defs (onTc (τ := τ) (main (F := Ideal))) ⟨m, fun _ => 0, ρ⟩ (fun r => ∀ c : Dev nD,
      r.2.mem ((c.tc : Thread nD τ).loc main_v5) = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v5 (by decide))).trans (W4_v5_is_G m ρ c (h7 c) (h8lo c) (h8rl c) (h8rh c)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_all m ρ)

end Cert.KernelIdeal.Hand

end
-- ==== Proof.KIRegion0Pieces.lean ====
/-
  What region 0's three cases leave, as values: each accumulator after a point is the point's block product added
  to what it held (to the zero block at k = 0), and at k = 3 output block 7 is the normalised first accumulator and
  output block 8 the normalised and rotated second — every store covers its buffer whole, so what a buffer ends with is
  its last store's value, the loads before it reading the buffers whole.
-/
import proofs.«158685_j77395310674148_2_alg».proof.Proof.KIRegion0Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl
theorem hzRank1 : (![0] : Fin 1 → Nat) = fun _ => 0 := funext fun a => by fin_cases a; rfl

/-! ## k = 0: the zero block plus the first block product -/

theorem sout_A_0 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : cond0_0 i) (hc1 : ¬cond0_1 i)
    (x0 : Vec F S1024x1792 .f32) (x1 : Vec F S1792x1536 .bf16) (x2 : Vec F S1792x576 .bf16) :
    sout0_A_0 c i arg2 harg2 arg3 harg3 arg4 harg4 arg5 harg5 arg6 harg6 arg7 harg7 arg8 harg8 arg9 harg9 arg10 harg10 arg11 harg11 arg12 harg12 hc0 hc1 x0 x1 x2 = k0_pay4 x0 (k0_pay1 (F := F)) x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2)]
  unfold kernelRun0_A
  dsimp only
  sl_unfold_words
  rw [View.canon_cons_unit_zero (S := S1024x1536) hz, View.readCov_unit_zero (S := S1024x1536) _ hz]
  simp only [View.readAt_eq_ld, harg2.read_unread, harg3.read_unread, harg4.read_unread, harg5.read_unread, harg6.read_unread, harg7.read_unread, harg8.read_unread, harg11.read_unread, harg12.read_unread, View.ld_unit_zero (S := S1024x1792) hz, View.ld_unit_zero (S := S1792x1536) hz, View.ld_unit_zero (S := S1792x576) hz, View.ld_unit_zero (S := S1024x1536) hz, View.ld_unit_zero (S := S1024x576) hz, View.ld_unit_zero (S := S1024x64) hz, View.ld_unit_zero (S := S1536) hzRank1, View.ld_unit_zero (S := S512) hzRank1]

theorem sout_A_1 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : cond0_0 i) (hc1 : ¬cond0_1 i)
    (x0 : Vec F S1024x1792 .f32) (x1 : Vec F S1792x1536 .bf16) (x2 : Vec F S1792x576 .bf16) :
    sout0_A_1 c i arg2 harg2 arg3 harg3 arg4 harg4 arg5 harg5 arg6 harg6 arg7 harg7 arg8 harg8 arg9 harg9 arg10 harg10 arg11 harg11 arg12 harg12 hc0 hc1 x0 x1 x2 = k0_pay5 x0 (k0_pay2 (F := F)) x2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2)]
  unfold kernelRun0_A
  dsimp only
  sl_unfold_words
  rw [View.canon_cons_unit_zero (S := S1024x576) hz, View.readCov_unit_zero (S := S1024x576) _ hz]
  simp only [View.readAt_eq_ld, harg2.read_unread, harg3.read_unread, harg4.read_unread, harg5.read_unread, harg6.read_unread, harg7.read_unread, harg8.read_unread, harg11.read_unread, harg12.read_unread, View.ld_unit_zero (S := S1024x1792) hz, View.ld_unit_zero (S := S1792x1536) hz, View.ld_unit_zero (S := S1792x576) hz, View.ld_unit_zero (S := S1024x1536) hz, View.ld_unit_zero (S := S1024x576) hz, View.ld_unit_zero (S := S1024x64) hz, View.ld_unit_zero (S := S1536) hzRank1, View.ld_unit_zero (S := S512) hzRank1]

/-! ## k = 1, 2: what the point before left plus this block product -/

theorem sout_B_0 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : ¬cond0_1 i)
    (x0 : Vec F S1024x1792 .f32) (x1 : Vec F S1792x1536 .bf16) (x2 : Vec F S1792x576 .bf16) (xs0 : Vec F S1024x1536 .f32) (xs1 : Vec F S1024x576 .f32) :
    sout0_B_0 c i arg2 harg2 arg3 harg3 arg4 harg4 arg5 harg5 arg6 harg6 arg7 harg7 arg8 harg8 arg9 harg9 arg10 harg10 arg11 harg11 arg12 harg12 hc0 hc1 x0 x1 x2 xs0 xs1 = k0_pay4 x0 xs0 x1 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 xs0 xs1)]
  unfold kernelRun0_B
  dsimp only
  rw [View.canon_unit_zero hz]
  simp only [View.readAt_eq_ld, harg2.read_unread, harg3.read_unread, harg4.read_unread, harg5.read_unread, harg6.read_unread, harg7.read_unread, harg8.read_unread, harg11.read_unread, harg12.read_unread, View.ld_unit_zero (S := S1024x1792) hz, View.ld_unit_zero (S := S1792x1536) hz, View.ld_unit_zero (S := S1792x576) hz, View.ld_unit_zero (S := S1024x1536) hz, View.ld_unit_zero (S := S1024x576) hz, View.ld_unit_zero (S := S1024x64) hz, View.ld_unit_zero (S := S1536) hzRank1, View.ld_unit_zero (S := S512) hzRank1]

theorem sout_B_1 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : ¬cond0_1 i)
    (x0 : Vec F S1024x1792 .f32) (x1 : Vec F S1792x1536 .bf16) (x2 : Vec F S1792x576 .bf16) (xs0 : Vec F S1024x1536 .f32) (xs1 : Vec F S1024x576 .f32) :
    sout0_B_1 c i arg2 harg2 arg3 harg3 arg4 harg4 arg5 harg5 arg6 harg6 arg7 harg7 arg8 harg8 arg9 harg9 arg10 harg10 arg11 harg11 arg12 harg12 hc0 hc1 x0 x1 x2 xs0 xs1 = k0_pay5 x0 xs1 x2 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 xs0 xs1)]
  unfold kernelRun0_B
  dsimp only
  rw [View.canon_unit_zero hz]
  simp only [View.readAt_eq_ld, harg2.read_unread, harg3.read_unread, harg4.read_unread, harg5.read_unread, harg6.read_unread, harg7.read_unread, harg8.read_unread, harg11.read_unread, harg12.read_unread, View.ld_unit_zero (S := S1024x1792) hz, View.ld_unit_zero (S := S1792x1536) hz, View.ld_unit_zero (S := S1792x576) hz, View.ld_unit_zero (S := S1024x1536) hz, View.ld_unit_zero (S := S1024x576) hz, View.ld_unit_zero (S := S1024x64) hz, View.ld_unit_zero (S := S1536) hzRank1, View.ld_unit_zero (S := S512) hzRank1]

/-! ## k = 3: the last block product, then the two output blocks from the completed accumulators -/

theorem sout_C_0 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : cond0_1 i)
    (x0 : Vec F S1024x1792 .f32) (x1 : Vec F S1792x1536 .bf16) (x2 : Vec F S1792x576 .bf16) (x3 : Vec F S1536 .f32) (x4 : Vec F S512 .f32) (x5 : Vec F S1024x64 .f32) (x6 : Vec F S1024x64 .f32) (xs0 : Vec F S1024x1536 .f32) (xs1 : Vec F S1024x576 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay4 x0 xs0 x1 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg11.read_unread, harg12.read_unread, View.ld_unit_zero (S := S1024x1792) hz, View.ld_unit_zero (S := S1792x1536) hz, View.ld_unit_zero (S := S1792x576) hz, View.ld_unit_zero (S := S1024x1536) hz, View.ld_unit_zero (S := S1024x576) hz, View.ld_unit_zero (S := S1024x64) hz, View.ld_unit_zero (S := S1536) hzRank1, View.ld_unit_zero (S := S512) hzRank1]

theorem sout_C_1 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : cond0_1 i)
    (x0 : Vec F S1024x1792 .f32) (x1 : Vec F S1792x1536 .bf16) (x2 : Vec F S1792x576 .bf16) (x3 : Vec F S1536 .f32) (x4 : Vec F S512 .f32) (x5 : Vec F S1024x64 .f32) (x6 : Vec F S1024x64 .f32) (xs0 : Vec F S1024x1536 .f32) (xs1 : Vec F S1024x576 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay5 x0 xs1 x2 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg11.read_unread, harg12.read_unread, View.ld_unit_zero (S := S1024x1792) hz, View.ld_unit_zero (S := S1792x1536) hz, View.ld_unit_zero (S := S1792x576) hz, View.ld_unit_zero (S := S1024x1536) hz, View.ld_unit_zero (S := S1024x576) hz, View.ld_unit_zero (S := S1024x64) hz, View.ld_unit_zero (S := S1536) hzRank1, View.ld_unit_zero (S := S512) hzRank1]

theorem out_C_7 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : cond0_1 i)
    (x0 : Vec F S1024x1792 .f32) (x1 : Vec F S1792x1536 .bf16) (x2 : Vec F S1792x576 .bf16) (x3 : Vec F S1536 .f32) (x4 : Vec F S512 .f32) (x5 : Vec F S1024x64 .f32) (x6 : Vec F S1024x64 .f32) (xs0 : Vec F S1024x1536 .f32) (xs1 : Vec F S1024x576 .f32) :
    out0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay7 (k0_pay4 x0 xs0 x1) x3 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz, View.readCov_unit_zero (S := S1024x1536) _ hz]
  simp only [View.readAt_eq_ld, harg2.read_unread, harg3.read_unread, harg4.read_unread, harg5.read_unread, harg6.read_unread, harg7.read_unread, harg8.read_unread, harg11.read_unread, harg12.read_unread, View.ld_unit_zero (S := S1024x1792) hz, View.ld_unit_zero (S := S1792x1536) hz, View.ld_unit_zero (S := S1792x576) hz, View.ld_unit_zero (S := S1024x1536) hz, View.ld_unit_zero (S := S1024x576) hz, View.ld_unit_zero (S := S1024x64) hz, View.ld_unit_zero (S := S1536) hzRank1, View.ld_unit_zero (S := S512) hzRank1]

theorem out_C_8 (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1792x576 .bf16) (harg4 : arg4.IsWhole) (arg5 : Memref sig .tc .vmem S1536 .f32) (harg5 : arg5.IsWhole) (arg6 : Memref sig .tc .vmem S512 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x1536 .bf16) (harg9 : arg9.IsWhole) (arg10 : Memref sig .tc .vmem S1024x576 .f32) (harg10 : arg10.IsWhole) (arg11 : Memref sig .tc .vmem S1024x1536 .f32) (harg11 : arg11.IsWhole) (arg12 : Memref sig .tc .vmem S1024x576 .f32) (harg12 : arg12.IsWhole) (hc0 : ¬cond0_0 i) (hc1 : cond0_1 i)
    (x0 : Vec F S1024x1792 .f32) (x1 : Vec F S1792x1536 .bf16) (x2 : Vec F S1792x576 .bf16) (x3 : Vec F S1536 .f32) (x4 : Vec F S512 .f32) (x5 : Vec F S1024x64 .f32) (x6 : Vec F S1024x64 .f32) (xs0 : Vec F S1024x1536 .f32) (xs1 : Vec F S1024x576 .f32) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k0_pay6 (k0_pay8 (k0_pay5 x0 xs1 x2)) (k0_pay9 (k0_pay5 x0 xs1 x2) x4) x5 x6 (k0_pay10 (k0_pay5 x0 xs1 x2)) (k0_pay11 (k0_pay5 x0 xs1 x2)) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz, View.readCov_unit_zero (S := S1024x576) _ hz]
  simp only [View.readAt_eq_ld, harg2.read_unread, harg3.read_unread, harg4.read_unread, harg5.read_unread, harg6.read_unread, harg7.read_unread, harg8.read_unread, harg11.read_unread, harg12.read_unread, View.ld_unit_zero (S := S1024x1792) hz, View.ld_unit_zero (S := S1792x1536) hz, View.ld_unit_zero (S := S1792x576) hz, View.ld_unit_zero (S := S1024x1536) hz, View.ld_unit_zero (S := S1024x576) hz, View.ld_unit_zero (S := S1024x64) hz, View.ld_unit_zero (S := S1536) hzRank1, View.ld_unit_zero (S := S512) hzRank1]

end Cert.KernelIdeal.Hand

end
-- ==== Proof.KIRegion0PayloadsA.lean ====
/-
  Region 0's accumulator stores, read entry by entry over the extended reals.

  The first kernel keeps two running sums, one per weight matrix. On the first step of the contraction it clears both
  to the zero splat; on every step it adds to each the product of the step's block of activations x [1024, 1792]
  (narrowed to bf16, which changes nothing over the extended reals) with the step's block of weights w:
      (s + x · w)[r, j] = s[r, j] + Σ_k x[r, k] · w[k, j],
  for w of shape [1792, 1536] and of shape [1792, 576]. The product accumulates into the zero splat inside the matrix
  unit, so only 0 + t = t and a re-indexing of the sum are used: nothing here needs finiteness.
  Also the small fact that the kernel's "0 − v" is the extended reals' −v.
-/
import proofs.«158685_j77395310674148_2_alg».proof.Proof.Gen.KernelIdeal.Skeleton
import proofs.«158685_j77395310674148_2_alg».proof.Proof.LibDotRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.ValueIdx

/-- Subtracting from zero is negating, also at the infinities. -/
theorem zero_sub_eq (v : EReal) : (0 : EReal) - v = -v := by
  rw [sub_eq_add_neg, zero_add]

/-- The cleared [1024, 1536] accumulator is zero everywhere. -/
theorem pay1_apply (r : Fin 1024) (j : Fin 1536) : k0_pay1 (F := Ideal) (ix2 r j) = 0 := by
  unfold k0_pay1
  exact (congrFun (shapeCast_self _ _) _).trans Ideal.ofBits_zero_f32

/-- The cleared [1024, 576] accumulator is zero everywhere. -/
theorem pay2_apply (r : Fin 1024) (j : Fin 576) : k0_pay2 (F := Ideal) (ix2 r j) = 0 := by
  unfold k0_pay2
  exact (congrFun (shapeCast_self _ _) _).trans Ideal.ofBits_zero_f32

/-- One step of the [1024, 1536] accumulator: the old entry plus the row of x against the column of w. -/
theorem pay4_apply (x : Vec Ideal S1024x1792 .f32) (s : Vec Ideal S1024x1536 .f32) (w : Vec Ideal S1792x1536 .bf16)
    (r : Fin 1024) (j : Fin 1536) :
    k0_pay4 x s w (ix2 r j) = s (ix2 r j) + ∑ k : Fin 1792, x (ix2 r k) * w (ix2 k j) := by
  unfold k0_pay4 k0_pay3
  refine (congrFun (shapeCast_self _ _) _).trans ?_
  refine (addf_apply _ _ _).trans ?_
  refine congrArg (s (ix2 r j) + ·) ?_
  refine (congrArg (fun v => matmul (F := Ideal) dot_S1024x1792_S1792x1536_S1024x1536_1_0_0_1_n_n none
      (truncf .bf16 x bitsLt_bf16_f32) v (constant S1024x1536 .f32 0x00000000#32) (ix2 r j)) (shapeCast_self w _)).trans ?_
  exact Cert.Lib.DotRows.matmul_plain_apply (M := 1024) (K := 1792) (N := 1536) (truncf .bf16 x bitsLt_bf16_f32) w r j

/-- One step of the [1024, 576] accumulator: the old entry plus the row of x against the column of w. -/
theorem pay5_apply (x : Vec Ideal S1024x1792 .f32) (s : Vec Ideal S1024x576 .f32) (w : Vec Ideal S1792x576 .bf16)
    (r : Fin 1024) (j : Fin 576) :
    k0_pay5 x s w (ix2 r j) = s (ix2 r j) + ∑ k : Fin 1792, x (ix2 r k) * w (ix2 k j) := by
  unfold k0_pay5 k0_pay3
  refine (congrFun (shapeCast_self _ _) _).trans ?_
  refine (addf_apply _ _ _).trans ?_
  refine congrArg (s (ix2 r j) + ·) ?_
  refine (congrArg (fun v => matmul (F := Ideal) dot_S1024x1792_S1792x576_S1024x576_1_0_0_1_n_n none
      (truncf .bf16 x bitsLt_bf16_f32) v (constant S1024x576 .f32 0x00000000#32) (ix2 r j)) (shapeCast_self w _)).trans ?_
  exact Cert.Lib.DotRows.matmul_plain_apply (M := 1024) (K := 1792) (N := 576) (truncf .bf16 x bitsLt_bf16_f32) w r j

end Cert.KernelIdeal.HandValue

end
-- ==== Proof.LibColBroadcast.lean ====
/-
  One column broadcast over many: a `[a, 1]` array broadcast to `[a, b]` reads, at `(p, c)`, the operand's row `p`.
-/
import Idealize.ShloMosaic.Lib.ValueIdx
import Idealize.ShloMosaic.Lib.Pipeline.Value

noncomputable section

namespace Cert.LibColBroadcast

open Idealize.ShloMosaic Idealize.ShloMosaic.ValueIdx

variable {α : Type}

/-- A `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast

end
-- ==== Proof.LibRowReduce.lean ====
/-
  A row's maximum and a row's sum, as a kernel and as the host compute them.

  For an array `v : [R, C]` reduced along its second axis, over the extended reals: the kernel's lane maximum from the
  word of `-∞` and the host's reduce with a maximum body from the same word are both the fold of `max` over the row's
  `C` entries; the kernel's lane sum and the host's sum from zero are both the plain sum of the row's entries. Also the
  two small facts that go with them: `max (-∞) y = y`, and a vector `[R]` recast as a column `[R, 1]` reads its row.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibRowReduce

open Idealize.ShloMosaic Idealize.ShloMosaic.ValueIdx

variable {R C : Nat}

/-- The maximum of `C` extended reals, folded from the f32 word of `-∞`. -/
def rowMax (f : Fin C → EReal) : EReal :=
  (Finset.univ : Finset (Fin C)).fold max (Ideal.ofBits .f32 0xFF800000#32) f

/-- The f32 word `0xFF800000` is `-∞`, the identity of `max`. -/
theorem max_negInf (y : EReal) : max (Ideal.ofBits .f32 0xFF800000#32) y = y := by
  simp [Ideal.ofBits, Ideal.ieee]

/-- The reduced index `r` with lane `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- The kernel's lane maximum of row `r`. -/
theorem multiReduction_max_row (src : FVec Ideal ⟨2, ![R, C]⟩ .f32)
    (h : (⟨2, ![R, C]⟩ : Shape).Reduces [1] (⟨1, ![R]⟩ : Shape)) (hφ : FKind.Formats .f32)
    (hacc : (0xFF800000#32 : BitVec 32) = FKind.maximumf.neutral .f32 hφ) (r : Fin R) :
    multiReduction .maximumf [1] (⟨1, ![R]⟩ : Shape) src 0xFF800000#32 h hφ hacc (ix1 r) = rowMax fun k => src (ix2 r k) := by
  rw [Ideal.multiReduction_maximumf_single src _ h hφ hacc (ix1 r)]
  have hf : (src ∘ h.lift (ix1 r)) = fun k : Fin C => src (ix2 r k) :=
    funext fun k => congrArg src (lift_row h r k)
  unfold rowMax
  exact congrArg (fun f => Finset.fold max (Ideal.ofBits .f32 0xFF800000#32) f (Finset.univ : Finset (Fin C))) hf

/-- The host's reduce with a maximum body along axis 1, from the word of `-∞`, at row `r`. -/
theorem hostReduce_max_row (x : FVec Ideal ⟨2, ![R, C]⟩ .f32) (init : (⟨0, ![]⟩ : Shape).Idx → Ideal .f32)
    (hinit : ∀ i, init i = Ideal.ofBits .f32 0xFF800000#32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x init h' hu (ix1 r) = rowMax fun k => x (ix2 r k) := by
  rw [Host.reduce_eq_fold_single FloatOps.maximumf x _ h' h hu, hinit]
  have hf : (x ∘ h.lift (ix1 r)) = fun k : Fin C => x (ix2 r k) :=
    funext fun k => congrArg x (lift_row h r k)
  unfold rowMax
  exact congrArg (fun f => Finset.fold max (Ideal.ofBits .f32 0xFF800000#32) f (Finset.univ : Finset (Fin C))) hf

/-- The kernel's lane sum of row `r`. -/
theorem multiReduction_add_row (src : FVec Ideal ⟨2, ![R, C]⟩ .f32)
    (h : (⟨2, ![R, C]⟩ : Shape).Reduces [1] (⟨1, ![R]⟩ : Shape)) (hφ : FKind.Formats .f32)
    (hacc : (0x00000000#32 : BitVec 32) = FKind.add.neutral .f32 hφ) (r : Fin R) :
    multiReduction .add [1] (⟨1, ![R]⟩ : Shape) src 0x00000000#32 h hφ hacc (ix1 r) = ∑ k : Fin C, src (ix2 r k) := by
  rw [Ideal.multiReduction_add_single src _ h hφ hacc (ix1 r)]
  refine Finset.sum_congr rfl fun k _ => ?_
  exact congrArg src (lift_row h r k)

/-- The host's sum along axis 1 from zero, at row `r`. -/
theorem hostReduceAdd_row (x : FVec Ideal ⟨2, ![R, C]⟩ .f32) (init : (⟨0, ![]⟩ : Shape).Idx → Ideal .f32)
    (hinit : ∀ i, init i = 0)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd (F := Ideal) x init h' hu (ix1 r) = ∑ k : Fin C, x (ix2 r k) := by
  show Ideal.hostReduceAdd h' x (init (Shape.Idx.first hu)) (ix1 r) = _
  rw [Ideal.hostReduceAdd_single h' h, hinit, zero_add]
  refine Finset.sum_congr rfl fun k _ => ?_
  exact congrArg x (lift_row h r k)

/-- A vector `[R]` recast as a column `[R, 1]` reads its row. -/
theorem shapeCast_col_apply {α : Type} (v : (⟨1, ![R]⟩ : Shape).Idx → α) (h : (⟨1, ![R]⟩ : Shape).ShapeCasts ⟨2, ![R, 1]⟩)
    (r : Fin R) : shapeCast ⟨2, ![R, 1]⟩ v h (ix2 r (0 : Fin 1)) = v (ix1 r) := by
  refine shapeCast_apply v h _ _ ?_
  rw [Shape.rowMajor_val_two, Shape.rowMajor_val_one]
  show r.val = r.val * 1 + 0
  omega

end Cert.LibRowReduce

end
-- ==== Proof.KIRegion0PayloadsB.lean ====
/-
  Region 0's two row normalisations, read entry by entry over the extended reals.

  A row u[r, ·] of C lanes is scaled by the reciprocal root of its mean square plus ε and then by a gain vector g [C]:
      out[r, j] = u[r, j] · rsqrt( (Σ_k u[r, k]²) / C + ε ) · g[j],
  the products taken left to right. The kernel computes the row's sum of squares as a lane reduction [R, C] → [R],
  recasts it as a column [R, 1], divides the column by the splat of the word of C, adds the splat of the word of ε,
  takes the reciprocal root, broadcasts the column back over the C lanes, and broadcasts the gain, recast as one row
  [1, C], over the R rows. The first normalisation takes whole rows of a [1024, 1536] array (C = 1536) and narrows the
  result to bf16, which changes nothing over the extended reals; the second takes lanes 0 … 511 of the rows of a
  [1024, 576] array (C = 512). Every step is a reading of one operation at one index: nothing here needs finiteness.
-/
import proofs.«158685_j77395310674148_2_alg».proof.Proof.Gen.KernelIdeal.Skeleton
import proofs.«158685_j77395310674148_2_alg».proof.Proof.LibColBroadcast
import proofs.«158685_j77395310674148_2_alg».proof.Proof.LibRowReduce
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.ValueIdx

/-- A reciprocal root at an index is the reciprocal root of the element. -/
theorem rsqrt_apply {s : Shape} {φ : FTy} (a : FVec Ideal s φ) (i : s.Idx) : rsqrt a i = Ideal.rsqrt (a i) := rfl

/-- The column of row scales: entry r of rsqrt(column of row sums of squares / splat of `cw` + splat of `ew`). -/
theorem rowscale_apply {R C : Nat} (u : FVec Ideal ⟨2, ![R, C]⟩ .f32) (cw ew : BitVec 32)
    (hred : (⟨2, ![R, C]⟩ : Shape).Reduces [1] (⟨1, ![R]⟩ : Shape)) (hφ : FKind.Formats .f32)
    (hacc : (0x00000000#32 : BitVec 32) = FKind.add.neutral .f32 hφ)
    (hcol : (⟨1, ![R]⟩ : Shape).ShapeCasts ⟨2, ![R, 1]⟩) (r : Fin R) :
    rsqrt (addf (divf (shapeCast ⟨2, ![R, 1]⟩ (multiReduction .add [1] (⟨1, ![R]⟩ : Shape) (mulf u u) 0x00000000#32 hred hφ hacc) hcol)
        (broadcast ⟨2, ![R, 1]⟩ (Scalar.ofBits (F := Ideal) .f32 cw))) (broadcast ⟨2, ![R, 1]⟩ (Scalar.ofBits (F := Ideal) .f32 ew)))
      (ix2 r (0 : Fin 1))
      = Ideal.rsqrt (Ideal.div (∑ k : Fin C, u (ix2 r k) * u (ix2 r k)) (Ideal.ofBits .f32 cw) + Ideal.ofBits .f32 ew) := by
  refine (rsqrt_apply _ _).trans (congrArg Ideal.rsqrt ?_)
  refine (addf_apply _ _ _).trans (congrArg (· + Ideal.ofBits .f32 ew) ?_)
  refine (divf_apply _ _ _).trans (congrArg (Ideal.div · (Ideal.ofBits .f32 cw)) ?_)
  refine (Cert.LibRowReduce.shapeCast_col_apply _ _ r).trans ?_
  exact Cert.LibRowReduce.multiReduction_add_row (mulf u u) hred hφ hacc r

/-- A row normalisation at an entry: the entry times its row's scale times its lane's gain. -/
theorem rownorm_apply {R C : Nat} (u : FVec Ideal ⟨2, ![R, C]⟩ .f32) (g : FVec Ideal ⟨1, ![C]⟩ .f32) (cw ew : BitVec 32)
    (hred : (⟨2, ![R, C]⟩ : Shape).Reduces [1] (⟨1, ![R]⟩ : Shape)) (hφ : FKind.Formats .f32)
    (hacc : (0x00000000#32 : BitVec 32) = FKind.add.neutral .f32 hφ)
    (hcol : (⟨1, ![R]⟩ : Shape).ShapeCasts ⟨2, ![R, 1]⟩) (hb : (⟨2, ![R, 1]⟩ : Shape).Broadcasts ⟨2, ![R, C]⟩)
    (hrow : (⟨1, ![C]⟩ : Shape).ShapeCasts ⟨2, ![1, C]⟩) (hb' : (⟨2, ![1, C]⟩ : Shape).Broadcasts ⟨2, ![R, C]⟩)
    (r : Fin R) (j : Fin C) :
    mulf (mulf u (broadcastTo ⟨2, ![R, C]⟩
        (rsqrt (addf (divf (shapeCast ⟨2, ![R, 1]⟩ (multiReduction .add [1] (⟨1, ![R]⟩ : Shape) (mulf u u) 0x00000000#32 hred hφ hacc) hcol)
          (broadcast ⟨2, ![R, 1]⟩ (Scalar.ofBits (F := Ideal) .f32 cw))) (broadcast ⟨2, ![R, 1]⟩ (Scalar.ofBits (F := Ideal) .f32 ew)))) hb))
      (broadcastTo ⟨2, ![R, C]⟩ (shapeCast ⟨2, ![1, C]⟩ g hrow) hb') (ix2 r j)
      = u (ix2 r j) * Ideal.rsqrt (Ideal.div (∑ k : Fin C, u (ix2 r k) * u (ix2 r k)) (Ideal.ofBits .f32 cw) + Ideal.ofBits .f32 ew)
          * g (ix1 j) := by
  refine (mulf_apply _ _ _).trans (congrArg₂ (· * ·) ((mulf_apply _ _ _).trans (congrArg (u (ix2 r j) * ·) ?_)) ?_)
  · refine (Cert.LibColBroadcast.broadcastTo_a1_ab_apply _ hb r j).trans ?_
    exact rowscale_apply u cw ew hred hφ hacc hcol r
  · refine (broadcastTo_1b_ab_apply _ hb' r j).trans ?_
    exact shapeCast_a_1a_apply g hrow (0 : Fin 1) j

/-- The first normalisation: whole rows of [1024, 1536], divisor the word of 1536.0, gain g [1536]. -/
theorem pay7_apply (s : Vec Ideal S1024x1536 .f32) (g : Vec Ideal S1536 .f32) (r : Fin 1024) (j : Fin 1536) :
    k0_pay7 s g (ix2 r j)
      = s (ix2 r j) * Ideal.rsqrt (Ideal.div (∑ j' : Fin 1536, s (ix2 r j') * s (ix2 r j')) (Ideal.ofBits .f32 0x44C00000#32)
          + Ideal.ofBits .f32 0x358637BD#32) * g (ix1 j) := by
  unfold k0_pay7
  refine (truncf_apply (φ := .f32) (ψ := .bf16) _ bitsLt_bf16_f32 (ix2 r j)).trans ?_
  exact rownorm_apply (R := 1024) (C := 1536) s g 0x44C00000#32 0x358637BD#32 _ _ _ _ _ _ _ r j

/-- The second normalisation: lanes 0 … 511 of the rows of [1024, 576], divisor the word of 512.0, gain g [512]. -/
theorem pay9_apply (v : Vec Ideal S1024x576 .f32) (g : Vec Ideal S512 .f32) (r : Fin 1024) (j : Fin 512) :
    k0_pay9 v g (ix2 r j)
      = v (ix2 r ⟨j.val, by omega⟩) * Ideal.rsqrt (Ideal.div (∑ j' : Fin 512, v (ix2 r ⟨j'.val, by omega⟩) * v (ix2 r ⟨j'.val, by omega⟩))
          (Ideal.ofBits .f32 0x44000000#32) + Ideal.ofBits .f32 0x358637BD#32) * g (ix1 j) := by
  have hs : ∀ k : Fin 512, extractStridedSlice S1024x512 ![0, 0] v slices_S1024x576_o0_0_S1024x512 (ix2 r k)
      = v (ix2 r ⟨k.val, by omega⟩) :=
    fun k => slice2_axis1_apply 0 v slices_S1024x576_o0_0_S1024x512 r k ⟨k.val, by omega⟩ (Nat.zero_add _).symm
  unfold k0_pay9
  refine (rownorm_apply (R := 1024) (C := 512) (extractStridedSlice S1024x512 ![0, 0] v slices_S1024x576_o0_0_S1024x512) g
    0x44000000#32 0x358637BD#32 _ _ _ _ _ _ _ r j).trans ?_
  rw [hs j]
  simp only [hs]

end Cert.KernelIdeal.HandValue

end
-- ==== Proof.KIRegion0PayloadsC.lean ====
/-
  Region 0's last store, read entry by entry over the extended reals.

  A row of the [1024, 576] accumulator v is split into its first 512 lanes, which are normalised (the second row
  normalisation, with gain g [512]), and its last 64 lanes u[e] = v[r, 512 + e], which are rotated pairwise with the
  row's two tables of 64 factors cs and sn:
      lane 512 + e of the result = u[e] · cs[r, e] + w[e] · sn[r, e],
      w[e] = 0 − u[e + 32] for e < 32,   w[e] = u[e − 32] for e ≥ 32
  (the kernel writes the negation as a subtraction from the zero splat). The result lays the 512 normalised lanes and the
  64 rotated lanes side by side. Only the index arithmetic of slices and concatenations is used.
-/
import proofs.«158685_j77395310674148_2_alg».proof.Proof.Gen.KernelIdeal.Skeleton
import proofs.«158685_j77395310674148_2_alg».proof.Proof.LibConcat2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.ValueIdx

/-- Lane e of the 64 rotated lanes is lane 512 + e of the row. -/
theorem pay8_apply (v : Vec Ideal S1024x576 .f32) (r : Fin 1024) (e : Fin 64) (n : Fin 576) (hn : n.val = 512 + e.val) :
    k0_pay8 v (ix2 r e) = v (ix2 r n) := by
  unfold k0_pay8
  exact slice2_axis1_apply 512 v slices_S1024x576_o0_512_S1024x64 r e n hn

/-- Lane e of the first half of the rotated lanes is lane 512 + e of the row. -/
theorem pay10_apply (v : Vec Ideal S1024x576 .f32) (r : Fin 1024) (e : Fin 32) (n : Fin 576) (hn : n.val = 512 + e.val) :
    k0_pay10 v (ix2 r e) = v (ix2 r n) := by
  unfold k0_pay10
  refine (slice2_axis1_apply 0 (k0_pay8 v) slices_S1024x64_o0_0_S1024x32 r e (⟨e.val, by omega⟩ : Fin 64) (Nat.zero_add _).symm).trans ?_
  exact pay8_apply v r _ n hn

/-- Lane e of the negated second half of the rotated lanes is zero minus lane 544 + e of the row. -/
theorem pay11_apply (v : Vec Ideal S1024x576 .f32) (r : Fin 1024) (e : Fin 32) (n : Fin 576) (hn : n.val = 544 + e.val) :
    k0_pay11 v (ix2 r e) = 0 - v (ix2 r n) := by
  unfold k0_pay11
  refine (subf_apply _ _ _).trans (congrArg₂ (· - ·) Ideal.ofBits_zero_f32 ?_)
  refine (slice2_axis1_apply 32 (k0_pay8 v) slices_S1024x64_o0_32_S1024x32 r e (⟨32 + e.val, by omega⟩ : Fin 64) rfl).trans ?_
  exact pay8_apply v r _ n (by show n.val = 512 + (32 + e.val); omega)

/-- The first 512 lanes of the result are the normalised lanes. -/
theorem rope_apply_lo (v : Vec Ideal S1024x576 .f32) (g : Vec Ideal S512 .f32) (cs sn : Vec Ideal S1024x64 .f32)
    (r : Fin 1024) (n : Fin 576) (h : n.val < 512) :
    k0_pay6 (k0_pay8 v) (k0_pay9 v g) cs sn (k0_pay10 v) (k0_pay11 v) (ix2 r n) = k0_pay9 v g (ix2 r ⟨n.val, h⟩) := by
  unfold k0_pay6
  exact Cert.LibConcat2.concatenate2_left _ _ _ r n (⟨n.val, h⟩ : Fin 512) rfl

/-- Lanes 512 … 543 (e < 32): the lane times its first factor, plus zero minus the lane 32 further on times its second. -/
theorem rope_apply_rot_lo (v : Vec Ideal S1024x576 .f32) (g : Vec Ideal S512 .f32) (cs sn : Vec Ideal S1024x64 .f32)
    (r : Fin 1024) (e : Fin 64) (he : e.val < 32) (n : Fin 576) (hn : n.val = 512 + e.val) (n' : Fin 576) (hn' : n'.val = n.val + 32) :
    k0_pay6 (k0_pay8 v) (k0_pay9 v g) cs sn (k0_pay10 v) (k0_pay11 v) (ix2 r n)
      = v (ix2 r n) * cs (ix2 r e) + (0 - v (ix2 r n')) * sn (ix2 r e) := by
  unfold k0_pay6
  refine (Cert.LibConcat2.concatenate2_right _ _ _ r n e hn).trans ?_
  refine (addf_apply _ _ _).trans ?_
  refine congrArg₂ (· + ·) ((mulf_apply _ _ _).trans (congrArg (· * cs (ix2 r e)) ?_)) ((mulf_apply _ _ _).trans (congrArg (· * sn (ix2 r e)) ?_))
  · exact pay8_apply v r e n hn
  · refine (Cert.LibConcat2.concatenate2_left _ _ _ r e (⟨e.val, he⟩ : Fin 32) rfl).trans ?_
    exact pay11_apply v r _ n' (by show n'.val = 544 + e.val; omega)

/-- Lanes 544 … 575 (e ≥ 32): the lane times its first factor, plus the lane 32 before times its second. -/
theorem rope_apply_rot_hi (v : Vec Ideal S1024x576 .f32) (g : Vec Ideal S512 .f32) (cs sn : Vec Ideal S1024x64 .f32)
    (r : Fin 1024) (e : Fin 64) (he : 32 ≤ e.val) (n : Fin 576) (hn : n.val = 512 + e.val) (n' : Fin 576) (hn' : n'.val + 32 = n.val) :
    k0_pay6 (k0_pay8 v) (k0_pay9 v g) cs sn (k0_pay10 v) (k0_pay11 v) (ix2 r n)
      = v (ix2 r n) * cs (ix2 r e) + v (ix2 r n') * sn (ix2 r e) := by
  unfold k0_pay6
  refine (Cert.LibConcat2.concatenate2_right _ _ _ r n e hn).trans ?_
  refine (addf_apply _ _ _).trans ?_
  refine congrArg₂ (· + ·) ((mulf_apply _ _ _).trans (congrArg (· * cs (ix2 r e)) ?_)) ((mulf_apply _ _ _).trans (congrArg (· * sn (ix2 r e)) ?_))
  · exact pay8_apply v r e n hn
  · refine (Cert.LibConcat2.concatenate2_right _ _ _ r e (⟨e.val - 32, by omega⟩ : Fin 32) (by show e.val = 32 + (e.val - 32); omega)).trans ?_
    exact pay10_apply v r _ n' (by show n'.val = 512 + (e.val - 32); omega)

/-- The whole last store at an entry. -/
theorem rope_apply (v : Vec Ideal S1024x576 .f32) (g : Vec Ideal S512 .f32) (cs sn : Vec Ideal S1024x64 .f32)
    (r : Fin 1024) (n : Fin 576) :
    k0_pay6 (k0_pay8 v) (k0_pay9 v g) cs sn (k0_pay10 v) (k0_pay11 v) (ix2 r n)
      = if h : n.val < 512 then k0_pay9 v g (ix2 r ⟨n.val, h⟩)
        else v (ix2 r n) * cs (ix2 r ⟨n.val - 512, by omega⟩)
          + (if h2 : n.val - 512 < 32 then 0 - v (ix2 r ⟨n.val + 32, by omega⟩) else v (ix2 r ⟨n.val - 32, by omega⟩))
            * sn (ix2 r ⟨n.val - 512, by omega⟩) := by
  by_cases h : n.val < 512
  · rw [dif_pos h]
    exact rope_apply_lo v g cs sn r n h
  · rw [dif_neg h]
    by_cases h2 : n.val - 512 < 32
    · rw [dif_pos h2]
      exact rope_apply_rot_lo v g cs sn r (⟨n.val - 512, by omega⟩ : Fin 64) h2 n (by show n.val = 512 + (n.val - 512); omega)
        (⟨n.val + 32, by omega⟩ : Fin 576) rfl
    · rw [dif_neg h2]
      exact rope_apply_rot_hi v g cs sn r (⟨n.val - 512, by omega⟩ : Fin 64) (by show 32 ≤ n.val - 512; omega) n
        (by show n.val = 512 + (n.val - 512); omega) (⟨n.val - 32, by omega⟩ : Fin 576) (by show n.val - 32 + 32 = n.val; omega)

end Cert.KernelIdeal.HandValue

end
-- ==== Proof.KIRegion0Payloads.lean ====
/-
  Region 0's payloads read at an index, over the extended reals: the three parts together.

  Part A: the cleared accumulators are zero, and one contraction step adds a row-by-column sum of products.
  Part B: the two row normalisations, entry = entry · rsqrt(mean square + ε) · gain.
  Part C: the last 64 lanes rotated pairwise, laid beside the 512 normalised lanes.
-/
import proofs.«158685_j77395310674148_2_alg».proof.Proof.KIRegion0PayloadsA
import proofs.«158685_j77395310674148_2_alg».proof.Proof.KIRegion0PayloadsB
import proofs.«158685_j77395310674148_2_alg».proof.Proof.KIRegion0PayloadsC
-- ==== Proof.KIRegion0Q.lean ====
/-
  Region 0's two results as functions of the arrays it reads, entry by entry over the extended reals.

  The region multiplies the activations X [4096, 7168] by two weight matrices, W [7168, 1536] and Wkv [7168, 576], the
  contraction cut into four blocks of 1792 that are added to a zero accumulator in order:
      acc[R, j] = (((0 + Σ_{k<1792} X[R, k]·W[k, j]) + Σ X[R, 1792 + k]·W[1792 + k, j]) + …) + Σ X[R, 5376 + k]·W[5376 + k, j]
  (the specification's blocked accumulation).
  The first result normalises each row of the first product (mean square over its 1536 lanes, gain g [1536]). The second
  normalises lanes 0 … 511 of each row of the second product (gain g' [512]) and rotates its last 64 lanes pairwise with
  the row's two tables of 64 factors cs, sn [4096, 64].

  A grid point (I, 3) computes rows I·1024 … I·1024 + 1023 of both results from the four points' blocks of X (rows
  I·1024 …, columns k·1792 …) and of the weights (rows k·1792 …), the whole gains and rows I·1024 … of the tables.
-/
import proofs.«158685_j77395310674148_2_alg».proof.Proof.KIRegion0Payloads
import proofs.«158685_j77395310674148_2_alg».proof.Proof.KernelSpec

set_option maxRecDepth 16384

noncomputable section

namespace Cert.KernelIdeal.Hand

open Cert.KernelIdeal Cert.KernelIdeal.Gen Cert.KernelIdeal.HandValue
open Idealize.ShloMosaic Idealize.ShloMosaic.ValueIdx
open Cert.KernelSpec (blk4 accq akv)

/-- The first result at row R, lane j. -/
def G7at (X : S4096x7168.Idx → EReal) (W : S7168x1536.Idx → EReal) (g : S1536.Idx → EReal) (R : Fin 4096) (j : Fin 1536) : EReal :=
  accq X W R j * Ideal.rsqrt (Ideal.div (∑ j' : Fin 1536, accq X W R j' * accq X W R j') (Ideal.ofBits .f32 0x44C00000#32)
    + Ideal.ofBits .f32 0x358637BD#32) * g (ix1 j)

/-- The first result as an array. -/
def G7 (X : S4096x7168.Idx → EReal) (W : S7168x1536.Idx → EReal) (g : S1536.Idx → EReal) : S4096x1536.Idx → EReal :=
  fun i => G7at X W g (i 0) (i 1)

/-- The second result at row R, lane n. -/
def G8at (X : S4096x7168.Idx → EReal) (Wkv : S7168x576.Idx → EReal) (g : S512.Idx → EReal) (cs sn : S4096x64.Idx → EReal)
    (R : Fin 4096) (n : Fin 576) : EReal :=
  if h : n.val < 512 then
    akv X Wkv R n * Ideal.rsqrt (Ideal.div (∑ j' : Fin 512, akv X Wkv R ⟨j'.val, by omega⟩ * akv X Wkv R ⟨j'.val, by omega⟩)
      (Ideal.ofBits .f32 0x44000000#32) + Ideal.ofBits .f32 0x358637BD#32) * g (ix1 ⟨n.val, h⟩)
  else akv X Wkv R n * cs (ix2 R ⟨n.val - 512, by omega⟩)
    + (if h2 : n.val - 512 < 32 then 0 - akv X Wkv R ⟨n.val + 32, by omega⟩ else akv X Wkv R ⟨n.val - 32, by omega⟩)
      * sn (ix2 R ⟨n.val - 512, by omega⟩)

/-- The second result as an array. -/
def G8 (X : S4096x7168.Idx → EReal) (Wkv : S7168x576.Idx → EReal) (g : S512.Idx → EReal) (cs sn : S4096x64.Idx → EReal) :
    S4096x576.Idx → EReal := fun i => G8at X Wkv g cs sn (i 0) (i 1)

section Read
variable (X : S4096x7168.Idx → EReal) (W : S7168x1536.Idx → EReal) (Wkv : S7168x576.Idx → EReal)
variable (g : S1536.Idx → EReal) (g' : S512.Idx → EReal) (cs sn : S4096x64.Idx → EReal)

theorem G7_apply (R : Fin 4096) (j : Fin 1536) :
    G7 X W g (ix2 R j) = accq X W R j * Ideal.rsqrt (Ideal.div (∑ j' : Fin 1536, accq X W R j' * accq X W R j')
      (Ideal.ofBits .f32 0x44C00000#32) + Ideal.ofBits .f32 0x358637BD#32) * g (ix1 j) := rfl

/-- Lanes 0 … 511 of the second result. -/
theorem G8_apply_lo (R : Fin 4096) (j : Fin 512) :
    G8 X Wkv g' cs sn (ix2 R ⟨j.val, by omega⟩)
      = akv X Wkv R ⟨j.val, by omega⟩ * Ideal.rsqrt (Ideal.div (∑ j' : Fin 512, akv X Wkv R ⟨j'.val, by omega⟩ * akv X Wkv R ⟨j'.val, by omega⟩)
          (Ideal.ofBits .f32 0x44000000#32) + Ideal.ofBits .f32 0x358637BD#32) * g' (ix1 j) := by
  show G8at X Wkv g' cs sn R ⟨j.val, _⟩ = _
  unfold G8at
  rw [dif_pos (show (⟨j.val, _⟩ : Fin 576).val < 512 from j.isLt)]

/-- Lanes 512 … 543 of the second result. -/
theorem G8_apply_rot_lo (R : Fin 4096) (e : Fin 64) (he : e.val < 32) :
    G8 X Wkv g' cs sn (ix2 R ⟨512 + e.val, by omega⟩)
      = akv X Wkv R ⟨512 + e.val, by omega⟩ * cs (ix2 R e) + (0 - akv X Wkv R ⟨512 + e.val + 32, by omega⟩) * sn (ix2 R e) := by
  show G8at X Wkv g' cs sn R ⟨512 + e.val, _⟩ = _
  unfold G8at
  have e1 : (⟨512 + e.val - 512, by omega⟩ : Fin 64) = e := Fin.ext (by show 512 + e.val - 512 = e.val; omega)
  rw [dif_neg (show ¬(⟨512 + e.val, _⟩ : Fin 576).val < 512 from by show ¬512 + e.val < 512; omega),
    dif_pos (show (⟨512 + e.val, _⟩ : Fin 576).val - 512 < 32 from by show 512 + e.val - 512 < 32; omega)]
  show _ * cs (ix2 R ⟨512 + e.val - 512, _⟩) + _ * sn (ix2 R ⟨512 + e.val - 512, _⟩) = _
  rw [e1]

/-- Lanes 544 … 575 of the second result. -/
theorem G8_apply_rot_hi (R : Fin 4096) (e : Fin 64) (he : 32 ≤ e.val) :
    G8 X Wkv g' cs sn (ix2 R ⟨512 + e.val, by omega⟩)
      = akv X Wkv R ⟨512 + e.val, by omega⟩ * cs (ix2 R e) + akv X Wkv R ⟨512 + e.val - 32, by omega⟩ * sn (ix2 R e) := by
  show G8at X Wkv g' cs sn R ⟨512 + e.val, _⟩ = _
  unfold G8at
  have e1 : (⟨512 + e.val - 512, by omega⟩ : Fin 64) = e := Fin.ext (by show 512 + e.val - 512 = e.val; omega)
  rw [dif_neg (show ¬(⟨512 + e.val, _⟩ : Fin 576).val < 512 from by show ¬512 + e.val < 512; omega),
    dif_neg (show ¬(⟨512 + e.val, _⟩ : Fin 576).val - 512 < 32 from by show ¬512 + e.val - 512 < 32; omega)]
  show _ * cs (ix2 R ⟨512 + e.val - 512, _⟩) + _ * sn (ix2 R ⟨512 + e.val - 512, _⟩) = _
  rw [e1]

end Read

/-! ## A row tile of the results from the blocks the four points of a row read -/

/-- `a` is rows I·1024 …, columns k·1792 … of X. -/
def RowsOf (X : S4096x7168.Idx → EReal) (I k : Nat) (a : Vec Ideal S1024x1792 .f32) : Prop :=
  ∀ (p : Fin 1024) (kk : Fin 1792) (R : Fin 4096) (K : Fin 7168), R.val = I * 1024 + p.val → K.val = k * 1792 + kk.val →
    a (ix2 p kk) = X (ix2 R K)

/-- `b` is rows k·1792 … of a weight matrix with N columns. -/
def ColsOf {N : Nat} (W : (⟨2, ![7168, N]⟩ : Shape).Idx → EReal) (k : Nat) (b : FVec Ideal ⟨2, ![1792, N]⟩ .bf16) : Prop :=
  ∀ (kk : Fin 1792) (j : Fin N) (K : Fin 7168), K.val = k * 1792 + kk.val → b (ix2 kk j) = W (ix2 K j)

/-- One block's sum of products is that block of the whole contraction. -/
theorem blocksum_eq {N : Nat} (X : S4096x7168.Idx → EReal) (W : (⟨2, ![7168, N]⟩ : Shape).Idx → EReal) (I k : Nat)
    (a : Vec Ideal S1024x1792 .f32) (b : FVec Ideal ⟨2, ![1792, N]⟩ .bf16) (ha : RowsOf X I k a) (hb : ColsOf W k b)
    (p : Fin 1024) (j : Fin N) (R : Fin 4096) (hR : R.val = I * 1024 + p.val)
    (pos : Fin 1792 → Fin 7168) (hpos : ∀ kk, (pos kk).val = k * 1792 + kk.val) :
    ∑ kk : Fin 1792, a (ix2 p kk) * b (ix2 kk j) = ∑ kk : Fin 1792, X (ix2 R (pos kk)) * W (ix2 (pos kk) j) :=
  Finset.sum_congr rfl fun kk _ => by rw [ha p kk R (pos kk) hR (hpos kk), hb kk j (pos kk) (hpos kk)]

section Tile
variable (X : S4096x7168.Idx → EReal) (W : S7168x1536.Idx → EReal) (Wkv : S7168x576.Idx → EReal)
variable (I : Nat)
variable (a0 a1 a2 a3 : Vec Ideal S1024x1792 .f32)
variable (ha0 : RowsOf X I 0 a0) (ha1 : RowsOf X I 1 a1) (ha2 : RowsOf X I 2 a2) (ha3 : RowsOf X I 3 a3)

section Q
variable (b0 b1 b2 b3 : Vec Ideal S1792x1536 .bf16)
variable (hb0 : ColsOf (N := 1536) W 0 b0) (hb1 : ColsOf (N := 1536) W 1 b1) (hb2 : ColsOf (N := 1536) W 2 b2) (hb3 : ColsOf (N := 1536) W 3 b3)

include ha0 ha1 ha2 ha3 hb0 hb1 hb2 hb3 in
/-- The first accumulator after the four points of row block I. -/
theorem accq_tile (p : Fin 1024) (j : Fin 1536) (R : Fin 4096) (hR : R.val = I * 1024 + p.val) :
    k0_pay4 a3 (k0_pay4 a2 (k0_pay4 a1 (k0_pay4 a0 (k0_pay1 (F := Ideal)) b0) b1) b2) b3 (ix2 p j) = accq X W R j := by
  rw [pay4_apply, pay4_apply, pay4_apply, pay4_apply, pay1_apply]
  unfold accq blk4
  rw [blocksum_eq X W I 0 a0 b0 ha0 hb0 p j R hR (fun kk => ⟨kk.val, by omega⟩) (fun kk => by show kk.val = 0 * 1792 + kk.val; omega),
    blocksum_eq X W I 1 a1 b1 ha1 hb1 p j R hR (fun kk => ⟨1792 + kk.val, by omega⟩) (fun kk => by show 1792 + kk.val = 1 * 1792 + kk.val; omega),
    blocksum_eq X W I 2 a2 b2 ha2 hb2 p j R hR (fun kk => ⟨2 * 1792 + kk.val, by omega⟩) (fun kk => rfl),
    blocksum_eq X W I 3 a3 b3 ha3 hb3 p j R hR (fun kk => ⟨3 * 1792 + kk.val, by omega⟩) (fun kk => rfl)]

include ha0 ha1 ha2 ha3 hb0 hb1 hb2 hb3 in
/-- What the last point of row block I stores into the first output block is the row tile of the first result. -/
theorem out7_tile (g3 : Vec Ideal S1536 .f32) (g : S1536.Idx → EReal) (hg : ∀ j : Fin 1536, g3 (ix1 j) = g (ix1 j))
    (y : S1024x1536.Idx) (i : S4096x1536.Idx) (hR : (i 0).val = I * 1024 + (y 0).val) (hj : (i 1).val = (y 1).val) :
    k0_pay7 (k0_pay4 a3 (k0_pay4 a2 (k0_pay4 a1 (k0_pay4 a0 (k0_pay1 (F := Ideal)) b0) b1) b2) b3) g3 y = G7 X W g i := by
  obtain ⟨p, j, rfl⟩ : ∃ (p : Fin 1024) (j : Fin 1536), y = ix2 p j := ⟨y 0, y 1, eq_ix2 y⟩
  obtain ⟨R, j', rfl⟩ : ∃ (R : Fin 4096) (j' : Fin 1536), i = ix2 R j' := ⟨i 0, i 1, eq_ix2 i⟩
  have hR' : R.val = I * 1024 + p.val := hR
  obtain rfl : j' = j := Fin.ext hj
  have hc : ∀ q : Fin 1536, k0_pay4 a3 (k0_pay4 a2 (k0_pay4 a1 (k0_pay4 a0 (k0_pay1 (F := Ideal)) b0) b1) b2) b3 (ix2 p q) = accq X W R q :=
    fun q => accq_tile X W I a0 a1 a2 a3 ha0 ha1 ha2 ha3 b0 b1 b2 b3 hb0 hb1 hb2 hb3 p q R hR'
  rw [pay7_apply, G7_apply, hg]
  simp only [hc]

end Q

section KV
variable (d0 d1 d2 d3 : Vec Ideal S1792x576 .bf16)
variable (hd0 : ColsOf (N := 576) Wkv 0 d0) (hd1 : ColsOf (N := 576) Wkv 1 d1) (hd2 : ColsOf (N := 576) Wkv 2 d2) (hd3 : ColsOf (N := 576) Wkv 3 d3)

include ha0 ha1 ha2 ha3 hd0 hd1 hd2 hd3 in
/-- The second accumulator after the four points of row block I. -/
theorem acckv_tile (p : Fin 1024) (j : Fin 576) (R : Fin 4096) (hR : R.val = I * 1024 + p.val) :
    k0_pay5 a3 (k0_pay5 a2 (k0_pay5 a1 (k0_pay5 a0 (k0_pay2 (F := Ideal)) d0) d1) d2) d3 (ix2 p j) = akv X Wkv R j := by
  rw [pay5_apply, pay5_apply, pay5_apply, pay5_apply, pay2_apply]
  unfold akv blk4
  rw [blocksum_eq X Wkv I 0 a0 d0 ha0 hd0 p j R hR (fun kk => ⟨kk.val, by omega⟩) (fun kk => by show kk.val = 0 * 1792 + kk.val; omega),
    blocksum_eq X Wkv I 1 a1 d1 ha1 hd1 p j R hR (fun kk => ⟨1792 + kk.val, by omega⟩) (fun kk => by show 1792 + kk.val = 1 * 1792 + kk.val; omega),
    blocksum_eq X Wkv I 2 a2 d2 ha2 hd2 p j R hR (fun kk => ⟨2 * 1792 + kk.val, by omega⟩) (fun kk => rfl),
    blocksum_eq X Wkv I 3 a3 d3 ha3 hd3 p j R hR (fun kk => ⟨3 * 1792 + kk.val, by omega⟩) (fun kk => rfl)]

include ha0 ha1 ha2 ha3 hd0 hd1 hd2 hd3 in
/-- What the last point of row block I stores into the second output block is the row tile of the second result. -/
theorem out8_tile (g4 : Vec Ideal S512 .f32) (g' : S512.Idx → EReal) (hg : ∀ j : Fin 512, g4 (ix1 j) = g' (ix1 j))
    (c5 c6 : Vec Ideal S1024x64 .f32) (cs sn : S4096x64.Idx → EReal)
    (h5 : ∀ (p : Fin 1024) (e : Fin 64) (R : Fin 4096), R.val = I * 1024 + p.val → c5 (ix2 p e) = cs (ix2 R e))
    (h6 : ∀ (p : Fin 1024) (e : Fin 64) (R : Fin 4096), R.val = I * 1024 + p.val → c6 (ix2 p e) = sn (ix2 R e))
    (y : S1024x576.Idx) (i : S4096x576.Idx) (hR : (i 0).val = I * 1024 + (y 0).val) (hn : (i 1).val = (y 1).val) :
    k0_pay6 (k0_pay8 (k0_pay5 a3 (k0_pay5 a2 (k0_pay5 a1 (k0_pay5 a0 (k0_pay2 (F := Ideal)) d0) d1) d2) d3))
        (k0_pay9 (k0_pay5 a3 (k0_pay5 a2 (k0_pay5 a1 (k0_pay5 a0 (k0_pay2 (F := Ideal)) d0) d1) d2) d3) g4) c5 c6
        (k0_pay10 (k0_pay5 a3 (k0_pay5 a2 (k0_pay5 a1 (k0_pay5 a0 (k0_pay2 (F := Ideal)) d0) d1) d2) d3))
        (k0_pay11 (k0_pay5 a3 (k0_pay5 a2 (k0_pay5 a1 (k0_pay5 a0 (k0_pay2 (F := Ideal)) d0) d1) d2) d3)) y
      = G8 X Wkv g' cs sn i := by
  obtain ⟨p, n, rfl⟩ : ∃ (p : Fin 1024) (n : Fin 576), y = ix2 p n := ⟨y 0, y 1, eq_ix2 y⟩
  obtain ⟨R, n', rfl⟩ : ∃ (R : Fin 4096) (n' : Fin 576), i = ix2 R n' := ⟨i 0, i 1, eq_ix2 i⟩
  have hR' : R.val = I * 1024 + p.val := hR
  obtain rfl : n' = n := Fin.ext hn
  have hc : ∀ q : Fin 576, k0_pay5 a3 (k0_pay5 a2 (k0_pay5 a1 (k0_pay5 a0 (k0_pay2 (F := Ideal)) d0) d1) d2) d3 (ix2 p q) = akv X Wkv R q :=
    fun q => acckv_tile X Wkv I a0 a1 a2 a3 ha0 ha1 ha2 ha3 d0 d1 d2 d3 hd0 hd1 hd2 hd3 p q R hR'
  rw [rope_apply]
  show _ = G8at X Wkv g' cs sn R n'
  unfold G8at
  by_cases h : n'.val < 512
  · rw [dif_pos h, dif_pos h, pay9_apply, hg]
    simp only [hc]
  · rw [dif_neg h, dif_neg h, h5 p _ R hR', h6 p _ R hR']
    simp only [hc]

end KV
end Tile

end Cert.KernelIdeal.Hand

end
-- ==== Proof.KIRegion0Array.lean ====
/-
  Region 0 from blocks to the first result array.

  Point t of the 4 × 4 grid works on row block I = t / 4 (1024 rows) and contraction block k = t mod 4 (1792 of the
  7168 positions): it reads rows I·1024 … and columns k·1792 … of the activations, rows k·1792 … of the weights, the
  whole gain vector. An element of a block sits in its array, on each axis, at block index × block size + its coordinate
  inside the block. The first accumulator after the point (I, k) is the zero block plus the block products of the
  points (I, 0) … (I, k), added in that order; at k = 3 the point normalises the rows of the accumulator it has just
  completed and that is what it writes back, as rows I·1024 … of the result. The four points with k = 3 cover the result.
-/
import proofs.«158685_j77395310674148_2_alg».proof.Proof.KIRegion0Pieces
import proofs.«158685_j77395310674148_2_alg».proof.Proof.KIRegion0Q

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.KernelSpec (blk4 accq akv)

variable (V : (c : Dev nD) → (b : Ref sig .tc) → Buf (Elt Ideal) ((c : Thread nD τ).loc b))

/-- The index maps over the grid: the activations' block is (t / 4, t mod 4), the weights' (t mod 4, 0), the gain's 0,
    the first result's (t / 4, 0). -/
theorem idx_facts0 : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_3.index t (0 : Fin 1) = 0
    ∧ win0_7.index t (0 : Fin 2) = t.val / 4 ∧ win0_7.index t (1 : Fin 2) = 0 :=
  (by decide +kernel : ∀ t : Fin grid0.N, _)

/-! ## The input blocks inside their arrays -/

/-- The activations' block at point t is rows (t / 4)·1024 …, columns (t mod 4)·1792 … of their array. -/
theorem iblk0_0_apply (c : Dev nD) (t : Fin cfg0.N) (I k : Nat) (hI : t.val / 4 = I) (hk : t.val % 4 = k) :
    RowsOf (V c main_arg0 : S4096x7168.Idx → EReal) I k (iblk0 V c 0 t : Vec Ideal S1024x1792 .f32) := by
  intro p kk R K hR hK
  obtain ⟨e0, e1, -⟩ := idx_facts0 t
  unfold iblk0
  rw [View.read_apply]
  show V c main_arg0 _ = V c main_arg0 _
  congr 1
  funext a; apply Fin.ext
  match a with
  | ⟨0, _⟩ => show win0_0.index t (0 : Fin 2) * 1024 + 1 * p.val = R.val; rw [e0, hR, hI]; omega
  | ⟨1, _⟩ => show win0_0.index t (1 : Fin 2) * 1792 + 1 * kk.val = K.val; rw [e1, hK, hk]; omega

/-- The weights' block at point t is rows (t mod 4)·1792 … of their array. -/
theorem iblk0_1_apply (c : Dev nD) (t : Fin cfg0.N) (k : Nat) (hk : t.val % 4 = k) :
    ColsOf (N := 1536) (V c main_v0 : S7168x1536.Idx → EReal) k (iblk0 V c 1 t : Vec Ideal S1792x1536 .bf16) := by
  intro kk j K hK
  obtain ⟨-, -, e2, e3, -⟩ := idx_facts0 t
  unfold iblk0
  rw [View.read_apply]
  show V c main_v0 _ = V c main_v0 _
  congr 1
  funext a; apply Fin.ext
  match a with
  | ⟨0, _⟩ => show win0_1.index t (0 : Fin 2) * 1792 + 1 * kk.val = K.val; rw [e2, hK, hk]; omega
  | ⟨1, _⟩ => show win0_1.index t (1 : Fin 2) * 1536 + 1 * j.val = j.val; rw [e3]; omega

/-- The gain's block at every point is the whole gain vector. -/
theorem iblk0_3_apply (c : Dev nD) (t : Fin cfg0.N) (j : Fin 1536) :
    (iblk0 V c 3 t : Vec Ideal S1536 .f32) (ix1 j) = (V c main_arg6 : S1536.Idx → EReal) (ix1 j) := by
  obtain ⟨-, -, -, -, e4, -⟩ := idx_facts0 t
  unfold iblk0
  rw [View.read_apply]
  show V c main_arg6 _ = V c main_arg6 _
  congr 1
  funext a; apply Fin.ext
  match a with
  | ⟨0, _⟩ => show win0_3.index t (0 : Fin 1) * 1536 + 1 * j.val = j.val; rw [e4]; omega

/-! ## The first accumulator, point by point -/

/-- What the point before left is what the point of the position before left. -/
theorem prev_eq (c : Dev nD) (t tp : Fin cfg0.N) (htp : tp.val = t.val - 1) :
    outsAt0 (F := Ideal) V c (t.val - 1) (Nat.lt_of_le_of_lt (Nat.sub_le _ _) t.isLt) = outsAt0 V c tp.val tp.isLt := by
  obtain ⟨n, hn⟩ := tp
  have e : n = t.val - 1 := htp
  subst e
  rfl

/-- k = 0: the zero block plus the point's block product. -/
theorem acc0_A (c : Dev nD) (t : Fin cfg0.N) (h0 : t.val % 4 = 0) (h1 : ¬t.val % 4 = 3) :
    (outsAt0 (F := Ideal) V c t.val t.isLt).2.2.1 = k0_pay4 (F := Ideal) (iblk0 V c 0 t) (k0_pay1 (F := Ideal)) (iblk0 V c 1 t) := by
  have e := outsAt0_A (F := Ideal) V c t h0 h1
  have e2 := sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t)
  rw [e]
  dsimp only
  exact e2

/-- k = 1, 2: what the point before left plus the point's block product. -/
theorem acc0_B (c : Dev nD) (t : Fin cfg0.N) (h0 : ¬t.val % 4 = 0) (h1 : ¬t.val % 4 = 3) (tp : Fin cfg0.N) (htp : tp.val = t.val - 1) :
    (outsAt0 (F := Ideal) V c t.val t.isLt).2.2.1
      = k0_pay4 (F := Ideal) (iblk0 V c 0 t) (outsAt0 (F := Ideal) V c tp.val tp.isLt).2.2.1 (iblk0 V c 1 t) := by
  have e := outsAt0_B (F := Ideal) V c t h0 h1
  have e2 := sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2
  rw [← prev_eq V c t tp htp, e]
  dsimp only
  exact e2

/-- k = 3: the first output block is the normalisation of what the point before left plus the point's block product. -/
theorem out7_C (c : Dev nD) (t : Fin cfg0.N) (h0 : ¬t.val % 4 = 0) (h1 : t.val % 4 = 3) (tp : Fin cfg0.N) (htp : tp.val = t.val - 1) :
    (outsAt0 (F := Ideal) V c t.val t.isLt).1
      = k0_pay7 (F := Ideal) (k0_pay4 (F := Ideal) (iblk0 V c 0 t) (outsAt0 (F := Ideal) V c tp.val tp.isLt).2.2.1 (iblk0 V c 1 t)) (iblk0 V c 3 t) := by
  have e := outsAt0_C (F := Ideal) V c t h0 h1
  have e2 := out_C_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2
  rw [← prev_eq V c t tp htp, e]
  dsimp only
  exact e2

/-- The first output block at a point with k = 3, from the four points of its row block. -/
theorem out7_at3 (c : Dev nD) (t t2 t1 t0 : Fin cfg0.N) (h3 : t.val % 4 = 3)
    (e2 : t2.val = t.val - 1) (e1 : t1.val = t2.val - 1) (e0 : t0.val = t1.val - 1) :
    (outsAt0 V c t.val t.isLt).1
      = k0_pay7 (F := Ideal) (k0_pay4 (F := Ideal) (iblk0 V c 0 t) (k0_pay4 (iblk0 V c 0 t2) (k0_pay4 (iblk0 V c 0 t1)
          (k0_pay4 (iblk0 V c 0 t0) (k0_pay1 (F := Ideal)) (iblk0 V c 1 t0)) (iblk0 V c 1 t1)) (iblk0 V c 1 t2)) (iblk0 V c 1 t))
          (iblk0 V c 3 t) := by
  rw [out7_C V c t (by omega) h3 t2 e2, acc0_B V c t2 (by omega) (by omega) t1 e1, acc0_B V c t1 (by omega) (by omega) t0 e0,
    acc0_A V c t0 (by omega) (by omega)]

/-! ## What a point writes back, and the cover -/

/-- What a point with k = 3 writes back is its row tile of the first result. -/
theorem flushed0_7_eq (c : Dev nD) (t : Fin cfg0.N) (hf : (cfg0.win 7).flush t = true) :
    (dat0 (F := Ideal) V c).flushed 7 t
      = ((cfg0.win 7).blk t).view.read (Elt Ideal) (G7 (V c main_arg0) (V c main_v0) (V c main_arg6)) := by
  have h3 : t.val % 4 = 3 := (flush0_7 t).mp hf
  have hN : cfg0.N = 16 := N_0
  have ht : t.val < 16 := hN ▸ t.isLt
  obtain ⟨-, -, -, -, -, e5, e6⟩ := idx_facts0 t
  show (cfg0.win 7).cut (grid0.coords t) ((dat0 V c).after 7 t) = _
  rw [after0_7, out7_at3 V c t ⟨t.val - 1, by omega⟩ ⟨t.val - 1 - 1, by omega⟩ ⟨t.val - 1 - 1 - 1, by omega⟩ h3 rfl rfl rfl]
  funext y
  show k0_pay7 _ (iblk0 V c 3 t) y = G7 (V c main_arg0) (V c main_v0) (V c main_arg6) (((cfg0.win 7).blk t).view.emb y)
  exact out7_tile (V c main_arg0) (V c main_v0) (t.val / 4)
    (iblk0 V c 0 ⟨t.val - 1 - 1 - 1, by omega⟩) (iblk0 V c 0 ⟨t.val - 1 - 1, by omega⟩) (iblk0 V c 0 ⟨t.val - 1, by omega⟩) (iblk0 V c 0 t)
    (iblk0_0_apply V c ⟨t.val - 1 - 1 - 1, by omega⟩ (t.val / 4) 0 (by show (t.val - 1 - 1 - 1) / 4 = t.val / 4; omega) (by show (t.val - 1 - 1 - 1) % 4 = 0; omega))
    (iblk0_0_apply V c ⟨t.val - 1 - 1, by omega⟩ (t.val / 4) 1 (by show (t.val - 1 - 1) / 4 = t.val / 4; omega) (by show (t.val - 1 - 1) % 4 = 1; omega))
    (iblk0_0_apply V c ⟨t.val - 1, by omega⟩ (t.val / 4) 2 (by show (t.val - 1) / 4 = t.val / 4; omega) (by show (t.val - 1) % 4 = 2; omega))
    (iblk0_0_apply V c t (t.val / 4) 3 rfl h3)
    (iblk0 V c 1 ⟨t.val - 1 - 1 - 1, by omega⟩) (iblk0 V c 1 ⟨t.val - 1 - 1, by omega⟩) (iblk0 V c 1 ⟨t.val - 1, by omega⟩) (iblk0 V c 1 t)
    (iblk0_1_apply V c ⟨t.val - 1 - 1 - 1, by omega⟩ 0 (by show (t.val - 1 - 1 - 1) % 4 = 0; omega))
    (iblk0_1_apply V c ⟨t.val - 1 - 1, by omega⟩ 1 (by show (t.val - 1 - 1) % 4 = 1; omega))
    (iblk0_1_apply V c ⟨t.val - 1, by omega⟩ 2 (by show (t.val - 1) % 4 = 2; omega))
    (iblk0_1_apply V c t 3 h3)
    (iblk0 V c 3 t) (V c main_arg6) (fun j => iblk0_3_apply V c t j)
    y (((cfg0.win 7).blk t).view.emb y)
    (by show win0_7.index t (0 : Fin 2) * 1024 + 1 * (y 0).val = t.val / 4 * 1024 + (y 0).val; rw [e5]; omega)
    (by show win0_7.index t (1 : Fin 2) * 1536 + 1 * (y 1).val = (y 1).val; rw [e6]; omega)

/-- An index of the first result is in point t's block iff each coordinate is in the block's range on its axis. -/
theorem mem_blk0_7 (t : Fin cfg0.N) (i : S4096x1536.Idx) :
    i ∈ ((cfg0.win 7).blk t).view.set
      ↔ ∀ a : Fin 2, win0_7.index t a * S1024x1536.size a ≤ (i a).val ∧ (i a).val < win0_7.index t a * S1024x1536.size a + S1024x1536.size a := by
  show i ∈ ((View.whole main_v3_0).slice (win0_7.rect t)).set ↔ _
  rw [View.set_slice_whole, Rect.mem_set_unit]
  exact Iff.rfl

/-- Every index of the first result is in the block of the last point of its row block. -/
theorem cover0_7_arr (i : S4096x1536.Idx) :
    ∃ t : Fin cfg0.N, (cfg0.win 7).flush t = true ∧ i ∈ ((cfg0.win 7).blk t).view.set := by
  have hi0 : (i 0).val < 4096 := (i 0).isLt
  have hi1 : (i 1).val < 1536 := (i 1).isLt
  have hN : cfg0.N = 16 := N_0
  let t : Fin cfg0.N := ⟨4 * ((i 0).val / 1024) + 3, by rw [hN]; omega⟩
  have htv : t.val = 4 * ((i 0).val / 1024) + 3 := rfl
  obtain ⟨-, -, -, -, -, e5, e6⟩ := idx_facts0 t
  refine ⟨t, (flush0_7 t).mpr (by rw [htv]; omega), ?_⟩
  rw [mem_blk0_7]
  intro a
  match a with
  | ⟨0, _⟩ => show win0_7.index t (0 : Fin 2) * 1024 ≤ (i 0).val ∧ (i 0).val < win0_7.index t (0 : Fin 2) * 1024 + 1024; rw [e5, htv]; omega
  | ⟨1, _⟩ => show win0_7.index t (1 : Fin 2) * 1536 ≤ (i 1).val ∧ (i 1).val < win0_7.index t (1 : Fin 2) * 1536 + 1536; rw [e6]; omega

/-- THE FIRST RESULT ARRAY after region 0. -/
theorem final0_7_arr (c : Dev nD) :
    (dat0 (F := Ideal) V c).arrAt 7 cfg0.N = G7 (V c main_arg0) (V c main_v0) (V c main_arg6) :=
  (dat0 (F := Ideal) V c).arrAt_eq_of_cover 7 (G7 (V c main_arg0) (V c main_v0) (V c main_arg6))
    (fun t hf => flushed0_7_eq V c t hf) cover0_7_arr

/-- The first result entry by entry: the blocked product's entry times its row's scale times its lane's gain. -/
theorem final0_7 (c : Dev nD) (R : Fin 4096) (j : Fin 1536) :
    ((dat0 (F := Ideal) V c).arrAt 7 cfg0.N : S4096x1536.Idx → EReal) (ix2 R j)
      = accq (V c main_arg0) (V c main_v0) R j
        * Ideal.rsqrt (Ideal.div (∑ j' : Fin 1536, accq (V c main_arg0) (V c main_v0) R j' * accq (V c main_arg0) (V c main_v0) R j')
            (Ideal.ofBits .f32 0x44C00000#32) + Ideal.ofBits .f32 0x358637BD#32) * (V c main_arg6 : S1536.Idx → EReal) (ix1 j) := by
  rw [final0_7_arr V c]
  exact G7_apply (V c main_arg0) (V c main_v0) (V c main_arg6) R j

end Cert.KernelIdeal.Hand

end
-- ==== Proof.KIRegion0KVAcc.lean ====
/-
  Region 0's key/value accumulator, read entry by entry.

  The grid is 4 × 4: point t works on row block t / 4 (1024 rows) and contraction block t % 4 (1792 of the 7168
  hidden positions). An element of a window's block sits in its array, on each axis, at block index × block size
  + its coordinate inside the block: the activations' block at t is rows (t/4)·1024 …, columns (t%4)·1792 …; the
  key/value weights' block is rows (t%4)·1792 … of all 576 columns; the gain is whole; cos and sin are rows
  (t/4)·1024 …. The accumulator is cleared at contraction block 0 and receives one block product per point, so
  after the last block of a row block it holds, at (r, j), zero plus the four block sums in order: the blocked dot
  product of row (t/4)·1024 + r with column j.
-/
import proofs.«158685_j77395310674148_2_alg».proof.Proof.KIRegion0Pieces
import proofs.«158685_j77395310674148_2_alg».proof.Proof.KIRegion0Payloads
import proofs.«158685_j77395310674148_2_alg».proof.Proof.KernelSpec

set_option maxRecDepth 16384

noncomputable section

namespace Cert.KernelIdeal.HandKV

open Cert.KernelIdeal Cert.KernelIdeal.Gen Cert.KernelIdeal.Hand Cert.KernelIdeal.HandValue
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The index maps over the grid: row block t / 4, contraction block t % 4. -/
theorem idx_facts0 : ∀ t : Fin cfg0.N,
    win0_0.index t (0 : Fin 2) = t.val / 4 ∧ win0_0.index t (1 : Fin 2) = t.val % 4
    ∧ win0_2.index t (0 : Fin 2) = t.val % 4 ∧ win0_2.index t (1 : Fin 2) = 0
    ∧ win0_4.index t (0 : Fin 1) = 0
    ∧ win0_5.index t (0 : Fin 2) = t.val / 4 ∧ win0_5.index t (1 : Fin 2) = 0
    ∧ win0_6.index t (0 : Fin 2) = t.val / 4 ∧ win0_6.index t (1 : Fin 2) = 0
    ∧ win0_8.index t (0 : Fin 2) = t.val / 4 ∧ win0_8.index t (1 : Fin 2) = 0 :=
  (by decide +kernel : ∀ t : Fin grid0.N, _)

/-! ## The input blocks as rows or columns of their arrays -/

/-- The activations' block at point t. -/
theorem iblk0_0_apply (c : Dev nD) (t : Fin cfg0.N) (r : Fin 1024) (kk : Fin 1792) (R : Fin 4096) (K : Fin 7168)
    (hR : R.val = t.val / 4 * 1024 + r.val) (hK : K.val = t.val % 4 * 1792 + kk.val) :
    (iblk0 V c 0 t : Vec Ideal S1024x1792 .f32) (ix2 r kk) = (V c main_arg0 : S4096x7168.Idx → EReal) (ix2 R K) := by
  obtain ⟨e0, e1, -⟩ := idx_facts0 t
  unfold iblk0
  rw [View.read_apply]
  show V c main_arg0 _ = V c main_arg0 _
  congr 1
  funext a; apply Fin.ext
  match a with
  | ⟨0, _⟩ => show win0_0.index t (0 : Fin 2) * 1024 + 1 * r.val = R.val; rw [e0, hR]; omega
  | ⟨1, _⟩ => show win0_0.index t (1 : Fin 2) * 1792 + 1 * kk.val = K.val; rw [e1, hK]; omega

/-- The key/value weights' block at point t. -/
theorem iblk0_2_apply (c : Dev nD) (t : Fin cfg0.N) (kk : Fin 1792) (j : Fin 576) (K : Fin 7168)
    (hK : K.val = t.val % 4 * 1792 + kk.val) :
    (iblk0 V c 2 t : Vec Ideal S1792x576 .bf16) (ix2 kk j) = (V c main_v2 : S7168x576.Idx → EReal) (ix2 K j) := by
  obtain ⟨-, -, e2, e3, -⟩ := idx_facts0 t
  unfold iblk0
  rw [View.read_apply]
  show V c main_v2 _ = V c main_v2 _
  congr 1
  funext a; apply Fin.ext
  match a with
  | ⟨0, _⟩ => show win0_2.index t (0 : Fin 2) * 1792 + 1 * kk.val = K.val; rw [e2, hK]; omega
  | ⟨1, _⟩ => show win0_2.index t (1 : Fin 2) * 576 + 1 * j.val = j.val; rw [e3]; omega

/-- The latent gain's block is the whole gain. -/
theorem iblk0_4_apply (c : Dev nD) (t : Fin cfg0.N) (j : Fin 512) :
    (iblk0 V c 4 t : Vec Ideal S512 .f32) (ix1 j) = (V c main_arg7 : S512.Idx → EReal) (ix1 j) := by
  obtain ⟨-, -, -, -, e4, -⟩ := idx_facts0 t
  unfold iblk0
  rw [View.read_apply]
  show V c main_arg7 _ = V c main_arg7 _
  congr 1
  funext a; apply Fin.ext
  match a with
  | ⟨0, _⟩ => show win0_4.index t (0 : Fin 1) * 512 + 1 * j.val = j.val; rw [e4]; omega

/-- The cosines' block at point t. -/
theorem iblk0_5_apply (c : Dev nD) (t : Fin cfg0.N) (r : Fin 1024) (e : Fin 64) (R : Fin 4096)
    (hR : R.val = t.val / 4 * 1024 + r.val) :
    (iblk0 V c 5 t : Vec Ideal S1024x64 .f32) (ix2 r e) = (V c main_arg4 : S4096x64.Idx → EReal) (ix2 R e) := by
  obtain ⟨-, -, -, -, -, e5, e6, -⟩ := idx_facts0 t
  unfold iblk0
  rw [View.read_apply]
  show V c main_arg4 _ = V c main_arg4 _
  congr 1
  funext a; apply Fin.ext
  match a with
  | ⟨0, _⟩ => show win0_5.index t (0 : Fin 2) * 1024 + 1 * r.val = R.val; rw [e5, hR]; omega
  | ⟨1, _⟩ => show win0_5.index t (1 : Fin 2) * 64 + 1 * e.val = e.val; rw [e6]; omega

/-- The sines' block at point t. -/
theorem iblk0_6_apply (c : Dev nD) (t : Fin cfg0.N) (r : Fin 1024) (e : Fin 64) (R : Fin 4096)
    (hR : R.val = t.val / 4 * 1024 + r.val) :
    (iblk0 V c 6 t : Vec Ideal S1024x64 .f32) (ix2 r e) = (V c main_arg5 : S4096x64.Idx → EReal) (ix2 R e) := by
  obtain ⟨-, -, -, -, -, -, -, e7, e8, -⟩ := idx_facts0 t
  unfold iblk0
  rw [View.read_apply]
  show V c main_arg5 _ = V c main_arg5 _
  congr 1
  funext a; apply Fin.ext
  match a with
  | ⟨0, _⟩ => show win0_6.index t (0 : Fin 2) * 1024 + 1 * r.val = R.val; rw [e7, hR]; omega
  | ⟨1, _⟩ => show win0_6.index t (1 : Fin 2) * 64 + 1 * e.val = e.val; rw [e8]; omega

/-! ## The accumulator after each point -/

/-- The key/value accumulator after point t. -/
def acc1 (c : Dev nD) (t : Fin cfg0.N) : Vec Ideal S1024x576 .f32 := (outsAt0 (F := Ideal) V c t.val t.isLt).2.2.2

/-- What the accumulator held before point t is what it held after the point before. -/
theorem prev_eq (c : Dev nD) (t' : Fin cfg0.N) (n : ℕ) (hn : n < cfg0.N) (h : n = t'.val) :
    (outsAt0 (F := Ideal) V c n hn).2.2.2 = acc1 V c t' := by
  subst h; rfl

/-- Contraction block 0: the cleared accumulator plus the first block product. -/
theorem acc1_A (c : Dev nD) (t : Fin cfg0.N) (h0 : t.val % 4 = 0) :
    acc1 V c t = k0_pay5 (iblk0 V c 0 t) (k0_pay2 (F := Ideal)) (iblk0 V c 2 t) := by
  have h1 : ¬t.val % 4 = 3 := by omega
  have e := outsAt0_A V c t h0 h1
  have e2 := sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t)
  show (outsAt0 (F := Ideal) V c t.val t.isLt).2.2.2 = _
  rw [e]
  dsimp only
  exact e2

/-- Contraction blocks 1 and 2: what the accumulator held plus one block product. -/
theorem acc1_B (c : Dev nD) (t : Fin cfg0.N) (h0 : ¬t.val % 4 = 0) (h1 : ¬t.val % 4 = 3) (t' : Fin cfg0.N)
    (ht' : t.val - 1 = t'.val) :
    acc1 V c t = k0_pay5 (iblk0 V c 0 t) (acc1 V c t') (iblk0 V c 2 t) := by
  have e := outsAt0_B V c t h0 h1
  have e2 := sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2
  have e3 := prev_eq V c t' (t.val - 1) (Nat.lt_of_le_of_lt (Nat.sub_le _ _) t.isLt) ht'
  show (outsAt0 (F := Ideal) V c t.val t.isLt).2.2.2 = _
  rw [e]
  dsimp only
  exact e2.trans (congrArg (fun s => k0_pay5 (iblk0 V c 0 t) s (iblk0 V c 2 t)) e3)

/-- Contraction block 3: the same step. -/
theorem acc1_C (c : Dev nD) (t : Fin cfg0.N) (h0 : ¬t.val % 4 = 0) (h1 : t.val % 4 = 3) (t' : Fin cfg0.N)
    (ht' : t.val - 1 = t'.val) :
    acc1 V c t = k0_pay5 (iblk0 V c 0 t) (acc1 V c t') (iblk0 V c 2 t) := by
  have e := outsAt0_C V c t h0 h1
  have e2 := sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2
  have e3 := prev_eq V c t' (t.val - 1) (Nat.lt_of_le_of_lt (Nat.sub_le _ _) t.isLt) ht'
  show (outsAt0 (F := Ideal) V c t.val t.isLt).2.2.2 = _
  rw [e]
  dsimp only
  exact e2.trans (congrArg (fun s => k0_pay5 (iblk0 V c 0 t) s (iblk0 V c 2 t)) e3)

/-! ## The accumulator read at an entry -/

/-- The activations and the key/value weights as the region finds them, as matrices of extended reals. -/
abbrev A0 (c : Dev nD) : Cert.Spec.Mat 4096 7168 := V c main_arg0
abbrev A2 (c : Dev nD) : Cert.Spec.Mat 7168 576 := V c main_v2

/-- One block product at (r, j): the block's entries are entries of the arrays, so the block sum is a sum over
    the arrays' own coordinates. -/
theorem step_sum (x : Vec Ideal S1024x1792 .f32) (w : Vec Ideal S1792x576 .bf16)
    (a0 : Cert.Spec.Mat 4096 7168) (a2 : Cert.Spec.Mat 7168 576)
    (r : Fin 1024) (j : Fin 576) (R : Fin 4096) (Kf : Fin 1792 → Fin 7168)
    (hx : ∀ kk : Fin 1792, x (ix2 r kk) = a0 (ix2 R (Kf kk))) (hw : ∀ kk : Fin 1792, w (ix2 kk j) = a2 (ix2 (Kf kk) j)) :
    (∑ kk : Fin 1792, x (ix2 r kk) * w (ix2 kk j)) = ∑ kk : Fin 1792, a0 (ix2 R (Kf kk)) * a2 (ix2 (Kf kk) j) :=
  Finset.sum_congr rfl fun kk _ => by rw [hx kk, hw kk]

/-- After contraction block 0. -/
theorem acc1_A_apply (c : Dev nD) (t : Fin cfg0.N) (h0 : t.val % 4 = 0) (r : Fin 1024) (j : Fin 576) (R : Fin 4096)
    (hR : R.val = t.val / 4 * 1024 + r.val) (Kf : Fin 1792 → Fin 7168)
    (hK : ∀ kk : Fin 1792, (Kf kk).val = t.val % 4 * 1792 + kk.val) :
    acc1 V c t (ix2 r j) = 0 + ∑ kk : Fin 1792, A0 V c (ix2 R (Kf kk)) * A2 V c (ix2 (Kf kk) j) := by
  rw [acc1_A V c t h0]
  refine (pay5_apply (iblk0 V c 0 t) (k0_pay2 (F := Ideal)) (iblk0 V c 2 t) r j).trans ?_
  rw [pay2_apply]
  exact congrArg (fun s : EReal => 0 + s) (step_sum (iblk0 V c 0 t) (iblk0 V c 2 t) (A0 V c) (A2 V c) r j R Kf
    (fun kk => iblk0_0_apply V c t r kk R (Kf kk) hR (hK kk)) (fun kk => iblk0_2_apply V c t kk j (Kf kk) (hK kk)))

/-- After a later contraction block. -/
theorem acc1_S_apply (c : Dev nD) (t : Fin cfg0.N) (h0 : ¬t.val % 4 = 0) (t' : Fin cfg0.N) (ht' : t.val - 1 = t'.val)
    (r : Fin 1024) (j : Fin 576) (R : Fin 4096)
    (hR : R.val = t.val / 4 * 1024 + r.val) (Kf : Fin 1792 → Fin 7168)
    (hK : ∀ kk : Fin 1792, (Kf kk).val = t.val % 4 * 1792 + kk.val) :
    acc1 V c t (ix2 r j)
      = acc1 V c t' (ix2 r j) + ∑ kk : Fin 1792, A0 V c (ix2 R (Kf kk)) * A2 V c (ix2 (Kf kk) j) := by
  have e : acc1 V c t = k0_pay5 (iblk0 V c 0 t) (acc1 V c t') (iblk0 V c 2 t) := by
    by_cases h1 : t.val % 4 = 3
    · exact acc1_C V c t h0 h1 t' ht'
    · exact acc1_B V c t h0 h1 t' ht'
  rw [e]
  refine (pay5_apply (iblk0 V c 0 t) (acc1 V c t') (iblk0 V c 2 t) r j).trans ?_
  exact congrArg (fun s : EReal => acc1 V c t' (ix2 r j) + s) (step_sum (iblk0 V c 0 t) (iblk0 V c 2 t) (A0 V c) (A2 V c) r j R Kf
    (fun kk => iblk0_0_apply V c t r kk R (Kf kk) hR (hK kk)) (fun kk => iblk0_2_apply V c t kk j (Kf kk) (hK kk)))

/-- **After the last contraction block of a row block the accumulator holds the blocked dot products** of the
    block's rows with the key/value weights' columns. -/
theorem acc1_final (c : Dev nD) (t : Fin cfg0.N) (h3 : t.val % 4 = 3) (r : Fin 1024) (j : Fin 576) (R : Fin 4096)
    (hR : R.val = t.val / 4 * 1024 + r.val) :
    acc1 V c t (ix2 r j) = Cert.KernelSpec.akv (V c main_arg0) (V c main_v2) R j := by
  have ht := t.isLt
  have lt1 : t.val - 1 < cfg0.N := Nat.lt_of_le_of_lt (Nat.sub_le _ _) ht
  have lt2 : t.val - 2 < cfg0.N := Nat.lt_of_le_of_lt (Nat.sub_le _ _) ht
  have lt3 : t.val - 3 < cfg0.N := Nat.lt_of_le_of_lt (Nat.sub_le _ _) ht
  rw [acc1_S_apply V c t (by omega) ⟨t.val - 1, lt1⟩ rfl r j R hR
      (fun kk => ⟨3 * 1792 + kk.val, by have := kk.isLt; omega⟩) (fun kk => by show 3 * 1792 + kk.val = t.val % 4 * 1792 + kk.val; omega),
    acc1_S_apply V c ⟨t.val - 1, lt1⟩ (by show ¬(t.val - 1) % 4 = 0; omega) ⟨t.val - 2, lt2⟩ (by show t.val - 1 - 1 = t.val - 2; omega) r j R
      (by show R.val = (t.val - 1) / 4 * 1024 + r.val; omega)
      (fun kk => ⟨2 * 1792 + kk.val, by have := kk.isLt; omega⟩) (fun kk => by show 2 * 1792 + kk.val = (t.val - 1) % 4 * 1792 + kk.val; omega),
    acc1_S_apply V c ⟨t.val - 2, lt2⟩ (by show ¬(t.val - 2) % 4 = 0; omega) ⟨t.val - 3, lt3⟩ (by show t.val - 2 - 1 = t.val - 3; omega) r j R
      (by show R.val = (t.val - 2) / 4 * 1024 + r.val; omega)
      (fun kk => ⟨1792 + kk.val, by have := kk.isLt; omega⟩) (fun kk => by show 1792 + kk.val = (t.val - 2) % 4 * 1792 + kk.val; omega),
    acc1_A_apply V c ⟨t.val - 3, lt3⟩ (by show (t.val - 3) % 4 = 0; omega) r j R
      (by show R.val = (t.val - 3) / 4 * 1024 + r.val; omega)
      (fun kk => ⟨kk.val, by have := kk.isLt; omega⟩) (fun kk => by show kk.val = (t.val - 3) % 4 * 1792 + kk.val; omega)]
  rfl

end Cert.KernelIdeal.HandKV

end
-- ==== Proof.KIRegion0ArrayKV.lean ====
/-
  Region 0, the key/value result: from the blocks written back to the array.

  The second output block is stored and written back only at the last contraction block of a row block (points
  t with t % 4 = 3). There it is the accumulator's 576 lanes treated row by row: lanes 0..511 divided by their
  root mean square (ε under the root) and weighted by the gain; lanes 512..575 rotated in half-pairs against the
  row's cosines and sines, the partner of rotary lane e being lane e + 32 subtracted from zero for e < 32 and
  lane e − 32 for e ≥ 32. The accumulator holds the blocked dot products of rows (t/4)·1024 … with the key/value
  weights, so block t / 4 of the result array is that function of the region's input arrays, and the four
  blocks written back cover the array.
-/
import proofs.«158685_j77395310674148_2_alg».proof.Proof.KIRegion0KVAcc

set_option maxRecDepth 16384

noncomputable section

namespace Cert.KernelIdeal.HandKV

open Cert.KernelIdeal Cert.KernelIdeal.Gen Cert.KernelIdeal.Hand Cert.KernelIdeal.HandValue
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The output block at the last contraction block -/

/-- The second output block as the body computes it from the accumulator and the point's gain, cosines and sines. -/
def pay8 (c : Dev nD) (t : Fin cfg0.N) : Vec Ideal S1024x576 .f32 :=
  k0_pay6 (k0_pay8 (acc1 V c t)) (k0_pay9 (acc1 V c t) (iblk0 V c 4 t)) (iblk0 V c 5 t) (iblk0 V c 6 t)
    (k0_pay10 (acc1 V c t)) (k0_pay11 (acc1 V c t))

theorem out8_C (c : Dev nD) (t : Fin cfg0.N) (h3 : t.val % 4 = 3) :
    (outsAt0 (F := Ideal) V c t.val t.isLt).2.1 = pay8 V c t := by
  have h0 : ¬t.val % 4 = 0 := by omega
  have e := outsAt0_C V c t h0 h3
  have e1 := sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h3) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2
  have e2 := out_C_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h3) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.1 (outsAt0 V c (t.val - 1) (Nat.lt_of_le_of_lt (Nat.sub_le _ _) t.isLt)).2.2.2
  have hs : acc1 V c t = k0_pay5 (iblk0 V c 0 t) (outsAt0 V c (t.val - 1) (Nat.lt_of_le_of_lt (Nat.sub_le _ _) t.isLt)).2.2.2 (iblk0 V c 2 t) := by
    show (outsAt0 (F := Ideal) V c t.val t.isLt).2.2.2 = _
    rw [e]
    dsimp only
    exact e1
  unfold pay8
  rw [hs, e]
  dsimp only
  exact e2

/-! ## The result as one function of the region's input arrays -/

/-- Row R, lane n of the key/value result. -/
def kvRow (c : Dev nD) (R : Fin 4096) (n : Fin 576) : EReal :=
  if h : n.val < 512 then
    Cert.KernelSpec.akv (V c main_arg0) (V c main_v2) R ⟨n.val, by omega⟩
      * Ideal.rsqrt (Ideal.div (∑ j' : Fin 512, Cert.KernelSpec.akv (V c main_arg0) (V c main_v2) R ⟨j'.val, by have := j'.isLt; omega⟩
            * Cert.KernelSpec.akv (V c main_arg0) (V c main_v2) R ⟨j'.val, by have := j'.isLt; omega⟩)
          (Ideal.ofBits .f32 0x44000000#32) + Ideal.ofBits .f32 0x358637BD#32)
      * (V c main_arg7 : S512.Idx → EReal) (ix1 ⟨n.val, h⟩)
  else
    Cert.KernelSpec.akv (V c main_arg0) (V c main_v2) R n * (V c main_arg4 : S4096x64.Idx → EReal) (ix2 R ⟨n.val - 512, by have := n.isLt; omega⟩)
    + (if h2 : n.val - 512 < 32 then 0 - Cert.KernelSpec.akv (V c main_arg0) (V c main_v2) R ⟨n.val + 32, by omega⟩
        else Cert.KernelSpec.akv (V c main_arg0) (V c main_v2) R ⟨n.val - 32, by have := n.isLt; omega⟩)
      * (V c main_arg5 : S4096x64.Idx → EReal) (ix2 R ⟨n.val - 512, by have := n.isLt; omega⟩)

/-- The key/value result array. -/
def GKV (c : Dev nD) : S4096x576.Idx → EReal := fun i => kvRow V c (i 0) (i 1)

/-- The output block of point t at (r, n) is the result's row (t/4)·1024 + r, lane n. -/
theorem tile8 (c : Dev nD) (t : Fin cfg0.N) (h3 : t.val % 4 = 3) (r : Fin 1024) (n : Fin 576) (R : Fin 4096)
    (hR : R.val = t.val / 4 * 1024 + r.val) :
    pay8 V c t (ix2 r n) = kvRow V c R n := by
  have hn := n.isLt
  have hacc : ∀ j : Fin 576, acc1 V c t (ix2 r j) = Cert.KernelSpec.akv (V c main_arg0) (V c main_v2) R j := fun j => acc1_final V c t h3 r j R hR
  unfold pay8
  refine (rope_apply (acc1 V c t) (iblk0 V c 4 t) (iblk0 V c 5 t) (iblk0 V c 6 t) r n).trans ?_
  unfold kvRow
  by_cases h : n.val < 512
  · rw [dif_pos h, dif_pos h]
    refine (pay9_apply (acc1 V c t) (iblk0 V c 4 t) r ⟨n.val, h⟩).trans ?_
    rw [iblk0_4_apply V c t ⟨n.val, h⟩]
    simp only [hacc]
  · rw [dif_neg h, dif_neg h]
    rw [iblk0_5_apply V c t r (⟨n.val - 512, by omega⟩ : Fin 64) R hR, iblk0_6_apply V c t r (⟨n.val - 512, by omega⟩ : Fin 64) R hR]
    simp only [hacc]

/-! ## What a point writes back, and the cover -/

/-- What a flushing point writes back is its block of the result array. -/
theorem flushed0_8_eq (c : Dev nD) (t : Fin cfg0.N) (hf : (cfg0.win 8).flush t = true) :
    (dat0 (F := Ideal) V c).flushed 8 t = ((cfg0.win 8).blk t).view.read (Elt Ideal) (GKV V c) := by
  have h3 : t.val % 4 = 3 := (flush0_8 t).mp hf
  obtain ⟨-, -, -, -, -, -, -, -, -, e9, e10⟩ := idx_facts0 t
  have hN : cfg0.N = 16 := N_0
  have ht := t.isLt
  show (cfg0.win 8).cut (grid0.coords t) ((dat0 V c).after 8 t) = _
  rw [after0_8, out8_C V c t h3]
  funext y
  show pay8 V c t y = GKV V c (((cfg0.win 8).blk t).view.emb y)
  have hy0 : (y 0).val < 1024 := (y 0).isLt
  have hy1 : (y 1).val < 576 := (y 1).isLt
  have key := tile8 V c t h3 ⟨(y 0).val, hy0⟩ ⟨(y 1).val, hy1⟩ ⟨t.val / 4 * 1024 + (y 0).val, by omega⟩ rfl
  have ey : (ix2 (⟨(y 0).val, hy0⟩ : Fin 1024) (⟨(y 1).val, hy1⟩ : Fin 576) : S1024x576.Idx) = y := by
    funext a; match a with | ⟨0, _⟩ => rfl | ⟨1, _⟩ => rfl
  rw [ey] at key
  refine key.trans ?_
  unfold GKV
  refine congrArg₂ (kvRow V c) (Fin.ext ?_) (Fin.ext ?_)
  · show t.val / 4 * 1024 + (y 0).val = win0_8.index t (0 : Fin 2) * 1024 + 1 * (y 0).val
    rw [e9]; omega
  · show (y 1).val = win0_8.index t (1 : Fin 2) * 576 + 1 * (y 1).val
    rw [e10]; omega

/-- An index of the array is in point t's block iff each coordinate is in the block's range on its axis. -/
theorem mem_blk0_8 (t : Fin cfg0.N) (i : S4096x576.Idx) :
    i ∈ ((cfg0.win 8).blk t).view.set
      ↔ ∀ a : Fin 2, win0_8.index t a * S1024x576.size a ≤ (i a).val ∧ (i a).val < win0_8.index t a * S1024x576.size a + S1024x576.size a := by
  show i ∈ ((View.whole main_v3_1).slice (win0_8.rect t)).set ↔ _
  rw [View.set_slice_whole, Rect.mem_set_unit]
  exact Iff.rfl

/-- Every index of the array is in the block written back at the last contraction block of its row block. -/
theorem cover0_8_arr (i : S4096x576.Idx) :
    ∃ t : Fin cfg0.N, (cfg0.win 8).flush t = true ∧ i ∈ ((cfg0.win 8).blk t).view.set := by
  have hi0 : (i 0).val < 4096 := (i 0).isLt
  have hi1 : (i 1).val < 576 := (i 1).isLt
  have hN : cfg0.N = 16 := N_0
  obtain ⟨t, htv⟩ : ∃ t : Fin cfg0.N, t.val = 4 * ((i 0).val / 1024) + 3 := ⟨⟨4 * ((i 0).val / 1024) + 3, by omega⟩, rfl⟩
  obtain ⟨-, -, -, -, -, -, -, -, -, e9, e10⟩ := idx_facts0 t
  refine ⟨t, (flush0_8 t).mpr (by omega), ?_⟩
  rw [mem_blk0_8]
  intro a
  match a with
  | ⟨0, _⟩ => show win0_8.index t (0 : Fin 2) * 1024 ≤ (i 0).val ∧ (i 0).val < win0_8.index t (0 : Fin 2) * 1024 + 1024; rw [e9]; omega
  | ⟨1, _⟩ => show win0_8.index t (1 : Fin 2) * 576 ≤ (i 1).val ∧ (i 1).val < win0_8.index t (1 : Fin 2) * 576 + 576; rw [e10]; omega

/-- THE ARRAY after region 0: the key/value result as one function of the arrays the region reads. -/
theorem final0_8 (c : Dev nD) : (dat0 (F := Ideal) V c).arrAt 8 cfg0.N = GKV V c :=
  (dat0 (F := Ideal) V c).arrAt_eq_of_cover 8 (GKV V c) (fun t hf => flushed0_8_eq V c t hf) cover0_8_arr

/-! ## The array read at an entry -/

/-- The latent lanes. -/
theorem final0_8_lo (c : Dev nD) (R : Fin 4096) (j : Fin 512) :
    ((dat0 (F := Ideal) V c).arrAt 8 cfg0.N : S4096x576.Idx → EReal) (ix2 R ⟨j.val, by have := j.isLt; omega⟩)
      = Cert.KernelSpec.akv (V c main_arg0) (V c main_v2) R ⟨j.val, by have := j.isLt; omega⟩
        * Ideal.rsqrt (Ideal.div (∑ j' : Fin 512, Cert.KernelSpec.akv (V c main_arg0) (V c main_v2) R ⟨j'.val, by have := j'.isLt; omega⟩
              * Cert.KernelSpec.akv (V c main_arg0) (V c main_v2) R ⟨j'.val, by have := j'.isLt; omega⟩)
            (Ideal.ofBits .f32 0x44000000#32) + Ideal.ofBits .f32 0x358637BD#32)
        * (V c main_arg7 : S512.Idx → EReal) (ix1 j) := by
  rw [final0_8]
  show kvRow V c R ⟨j.val, _⟩ = _
  unfold kvRow
  dsimp only
  rw [dif_pos j.isLt]

/-- The rotary lanes below 32. -/
theorem final0_8_rot_lo (c : Dev nD) (R : Fin 4096) (e : Fin 64) (he : e.val < 32) :
    ((dat0 (F := Ideal) V c).arrAt 8 cfg0.N : S4096x576.Idx → EReal) (ix2 R ⟨512 + e.val, by omega⟩)
      = Cert.KernelSpec.akv (V c main_arg0) (V c main_v2) R ⟨512 + e.val, by omega⟩ * (V c main_arg4 : S4096x64.Idx → EReal) (ix2 R e)
        + (0 - Cert.KernelSpec.akv (V c main_arg0) (V c main_v2) R ⟨512 + e.val + 32, by omega⟩) * (V c main_arg5 : S4096x64.Idx → EReal) (ix2 R e) := by
  rw [final0_8]
  show kvRow V c R ⟨512 + e.val, _⟩ = _
  unfold kvRow
  dsimp only
  have ee : (⟨512 + e.val - 512, by omega⟩ : Fin 64) = e := Fin.ext (by show 512 + e.val - 512 = e.val; omega)
  rw [dif_neg (show ¬(512 + e.val < 512) by omega), dif_pos (show 512 + e.val - 512 < 32 by omega), ee]

/-- The rotary lanes from 32 on. -/
theorem final0_8_rot_hi (c : Dev nD) (R : Fin 4096) (e : Fin 64) (_he : 32 ≤ e.val) :
    ((dat0 (F := Ideal) V c).arrAt 8 cfg0.N : S4096x576.Idx → EReal) (ix2 R ⟨512 + e.val, by have := e.isLt; omega⟩)
      = Cert.KernelSpec.akv (V c main_arg0) (V c main_v2) R ⟨512 + e.val, by have := e.isLt; omega⟩ * (V c main_arg4 : S4096x64.Idx → EReal) (ix2 R e)
        + Cert.KernelSpec.akv (V c main_arg0) (V c main_v2) R ⟨512 + e.val - 32, by have := e.isLt; omega⟩ * (V c main_arg5 : S4096x64.Idx → EReal) (ix2 R e) := by
  have hlt := e.isLt
  rw [final0_8]
  show kvRow V c R ⟨512 + e.val, _⟩ = _
  unfold kvRow
  dsimp only
  have ee : (⟨512 + e.val - 512, by omega⟩ : Fin 64) = e := Fin.ext (by show 512 + e.val - 512 = e.val; omega)
  rw [dif_neg (show ¬(512 + e.val < 512) by omega), dif_neg (show ¬(512 + e.val - 512 < 32) by omega), ee]

end Cert.KernelIdeal.HandKV

end
-- ==== Proof.CatRead.lean ====
/-
  Arrays laid side by side along their last axis, read at an index.

  Three matrices [R, n₁], [R, n₂], [R, n₃] joined along the lanes form an [R, n₁ + n₂ + n₃] matrix whose row r is
  the three rows r one after another: lane q of the first piece sits at lane q, lane q of the second at n₁ + q, lane
  q of the third at n₁ + n₂ + q. Two rank-3 arrays [A, B, n₁], [A, B, n₂] joined along the last axis behave the same
  way in every (p, q) fibre.
-/
import Idealize.ShloMosaic.Lib.Pipeline.Value
import Idealize.ShloMosaic.Lib.ValueIdx

namespace Cert.CatRead

open Idealize.ShloMosaic Idealize.ShloMosaic.ValueIdx

variable {α : Type}

section matrices

variable {R n₁ n₂ n₃ w : Nat}

/-- Off the joined axis a piece's coordinates are the result's. -/
private theorem off2 {n : Nat} (r : Fin R) (l : Fin w) (i : (⟨2, ![R, n]⟩ : Shape).Idx) (hi : (i 0).val = r.val) :
    ∀ bb : Fin (⟨2, ![R, n]⟩ : Shape).rank, bb.cast (rfl : (⟨2, ![R, n]⟩ : Shape).rank = (⟨2, ![R, w]⟩ : Shape).rank) ≠ (1 : Fin 2) →
      (i bb).val = ((ix2 r l : (⟨2, ![R, w]⟩ : Shape).Idx) (bb.cast rfl)).val := by
  intro bb hbb
  match bb with
  | ⟨0, _⟩ => exact hi
  | ⟨1, _⟩ => exact absurd rfl hbb

/-- A lane of the first of three pieces. -/
theorem cat3_first (a : (⟨2, ![R, n₁]⟩ : Shape).Idx → α) (b : (⟨2, ![R, n₂]⟩ : Shape).Idx → α) (c : (⟨2, ![R, n₃]⟩ : Shape).Idx → α)
    (h : Shape.Concatenates ([(⟨⟨2, ![R, n₁]⟩, a⟩ : (s : Shape) × (s.Idx → α)), ⟨⟨2, ![R, n₂]⟩, b⟩, ⟨⟨2, ![R, n₃]⟩, c⟩].map (·.1))
      ⟨2, ![R, w]⟩ (1 : Fin 2))
    (r : Fin R) (l : Fin w) (q : Fin n₁) (hl : l.val = q.val) :
    concatenate ⟨2, ![R, w]⟩ (1 : Fin 2) [⟨⟨2, ![R, n₁]⟩, a⟩, ⟨⟨2, ![R, n₂]⟩, b⟩, ⟨⟨2, ![R, n₃]⟩, c⟩] h (ix2 r l) = a (ix2 r q) :=
  concatenate_apply_piece (1 : Fin 2) _ h (ix2 r l) 0 (by simp) ⟨2, ![R, n₁]⟩ a rfl rfl 0 rfl
    (ix2 r q) (off2 r l _ rfl) (by show 0 + q.val = l.val; omega)

/-- A lane of the second of three pieces. -/
theorem cat3_second (a : (⟨2, ![R, n₁]⟩ : Shape).Idx → α) (b : (⟨2, ![R, n₂]⟩ : Shape).Idx → α) (c : (⟨2, ![R, n₃]⟩ : Shape).Idx → α)
    (h : Shape.Concatenates ([(⟨⟨2, ![R, n₁]⟩, a⟩ : (s : Shape) × (s.Idx → α)), ⟨⟨2, ![R, n₂]⟩, b⟩, ⟨⟨2, ![R, n₃]⟩, c⟩].map (·.1))
      ⟨2, ![R, w]⟩ (1 : Fin 2))
    (r : Fin R) (l : Fin w) (q : Fin n₂) (hl : l.val = n₁ + q.val) :
    concatenate ⟨2, ![R, w]⟩ (1 : Fin 2) [⟨⟨2, ![R, n₁]⟩, a⟩, ⟨⟨2, ![R, n₂]⟩, b⟩, ⟨⟨2, ![R, n₃]⟩, c⟩] h (ix2 r l) = b (ix2 r q) :=
  concatenate_apply_piece (1 : Fin 2) _ h (ix2 r l) 1 (by simp) ⟨2, ![R, n₂]⟩ b rfl rfl n₁ (by simp)
    (ix2 r q) (off2 r l _ rfl) (by show n₁ + q.val = l.val; omega)

/-- A lane of the third of three pieces. -/
theorem cat3_third (a : (⟨2, ![R, n₁]⟩ : Shape).Idx → α) (b : (⟨2, ![R, n₂]⟩ : Shape).Idx → α) (c : (⟨2, ![R, n₃]⟩ : Shape).Idx → α)
    (h : Shape.Concatenates ([(⟨⟨2, ![R, n₁]⟩, a⟩ : (s : Shape) × (s.Idx → α)), ⟨⟨2, ![R, n₂]⟩, b⟩, ⟨⟨2, ![R, n₃]⟩, c⟩].map (·.1))
      ⟨2, ![R, w]⟩ (1 : Fin 2))
    (r : Fin R) (l : Fin w) (q : Fin n₃) (hl : l.val = n₁ + n₂ + q.val) :
    concatenate ⟨2, ![R, w]⟩ (1 : Fin 2) [⟨⟨2, ![R, n₁]⟩, a⟩, ⟨⟨2, ![R, n₂]⟩, b⟩, ⟨⟨2, ![R, n₃]⟩, c⟩] h (ix2 r l) = c (ix2 r q) :=
  concatenate_apply_piece (1 : Fin 2) _ h (ix2 r l) 2 (by simp) ⟨2, ![R, n₃]⟩ c rfl rfl (n₁ + n₂) (by simp)
    (ix2 r q) (off2 r l _ rfl) (by show n₁ + n₂ + q.val = l.val; omega)

end matrices

section cubes

variable {A B n₁ n₂ w : Nat}

/-- Off the joined (last) axis a piece's coordinates are the result's. -/
private theorem off3 {n : Nat} (p : Fin A) (q : Fin B) (l : Fin w) (i : (⟨3, ![A, B, n]⟩ : Shape).Idx)
    (h0 : (i 0).val = p.val) (h1 : (i 1).val = q.val) :
    ∀ bb : Fin (⟨3, ![A, B, n]⟩ : Shape).rank, bb.cast (rfl : (⟨3, ![A, B, n]⟩ : Shape).rank = (⟨3, ![A, B, w]⟩ : Shape).rank) ≠ (2 : Fin 3) →
      (i bb).val = ((ix3 p q l : (⟨3, ![A, B, w]⟩ : Shape).Idx) (bb.cast rfl)).val := by
  intro bb hbb
  match bb with
  | ⟨0, _⟩ => exact h0
  | ⟨1, _⟩ => exact h1
  | ⟨2, _⟩ => exact absurd rfl hbb

/-- A last-axis coordinate inside the first of two rank-3 pieces. -/
theorem cube2_left (a : (⟨3, ![A, B, n₁]⟩ : Shape).Idx → α) (b : (⟨3, ![A, B, n₂]⟩ : Shape).Idx → α)
    (h : Shape.Concatenates ([(⟨⟨3, ![A, B, n₁]⟩, a⟩ : (s : Shape) × (s.Idx → α)), ⟨⟨3, ![A, B, n₂]⟩, b⟩].map (·.1))
      ⟨3, ![A, B, w]⟩ (2 : Fin 3))
    (p : Fin A) (q : Fin B) (l : Fin w) (e : Fin n₁) (hl : l.val = e.val) :
    concatenate ⟨3, ![A, B, w]⟩ (2 : Fin 3) [⟨⟨3, ![A, B, n₁]⟩, a⟩, ⟨⟨3, ![A, B, n₂]⟩, b⟩] h (ix3 p q l) = a (ix3 p q e) :=
  concatenate_apply_piece (2 : Fin 3) _ h (ix3 p q l) 0 (by simp) ⟨3, ![A, B, n₁]⟩ a rfl rfl 0 rfl
    (ix3 p q e) (off3 p q l _ rfl rfl) (by show 0 + e.val = l.val; omega)

/-- A last-axis coordinate inside the second of two rank-3 pieces. -/
theorem cube2_right (a : (⟨3, ![A, B, n₁]⟩ : Shape).Idx → α) (b : (⟨3, ![A, B, n₂]⟩ : Shape).Idx → α)
    (h : Shape.Concatenates ([(⟨⟨3, ![A, B, n₁]⟩, a⟩ : (s : Shape) × (s.Idx → α)), ⟨⟨3, ![A, B, n₂]⟩, b⟩].map (·.1))
      ⟨3, ![A, B, w]⟩ (2 : Fin 3))
    (p : Fin A) (q : Fin B) (l : Fin w) (e : Fin n₂) (hl : l.val = n₁ + e.val) :
    concatenate ⟨3, ![A, B, w]⟩ (2 : Fin 3) [⟨⟨3, ![A, B, n₁]⟩, a⟩, ⟨⟨3, ![A, B, n₂]⟩, b⟩] h (ix3 p q l) = b (ix3 p q e) :=
  concatenate_apply_piece (2 : Fin 3) _ h (ix3 p q l) 1 (by simp) ⟨3, ![A, B, n₂]⟩ b rfl rfl n₁ (by simp)
    (ix3 p q e) (off3 p q l _ rfl rfl) (by show n₁ + e.val = l.val; omega)

end cubes

end Cert.CatRead
-- ==== Proof.RefQ.lean ====
/-
  The reference's query path, read entry by entry.

  x·wa (1536 lanes) is divided by the root mean square of its row (plus ε under the root), weighted by gq and
  multiplied into wb: 24576 lanes, which the reference views as 128 heads of 192 lanes, lane n of the flat row
  being lane n % 192 of head n / 192. In every head lanes 0..127 pass through and lanes 128..191 are rotated in
  half-pairs against cos and sin: rotary lane e pairs with rotary lane e+32 (negated) for e < 32 and with e−32 for
  e ≥ 32; in the flat row those partners sit 32 lanes to the right and to the left. Each stage is read at a row
  and a lane; the last one is the specification's queryOut.
-/
import proofs.«158685_j77395310674148_2_alg».proof.Proof.Gen.ReferenceIdeal.Read
import proofs.«158685_j77395310674148_2_alg».proof.Proof.Spec
import proofs.«158685_j77395310674148_2_alg».proof.Proof.CatRead

noncomputable section

namespace Cert.ReferenceIdeal.RefQ

open Cert.ReferenceIdeal Cert.ReferenceIdeal.Read Idealize.ShloMosaic Idealize.ShloMosaic.ValueIdx Cert.Spec

/-- Two rank-3 indices with the same three coordinates are equal. -/
local macro "ix_rfl3" : tactic =>
  `(tactic| (funext a; match a with | ⟨0, _⟩ => rfl | ⟨1, _⟩ => rfl | ⟨2, _⟩ => rfl))
/-- Two rank-2 indices with the same two coordinates are equal. -/
local macro "ix_rfl2" : tactic =>
  `(tactic| (funext a; match a with | ⟨0, _⟩ => rfl | ⟨1, _⟩ => rfl))
/-- Two rank-1 indices with the same coordinate are equal. -/
local macro "ix_rfl1" : tactic =>
  `(tactic| (funext a; match a with | ⟨0, _⟩ => rfl))

variable (x0 : Mat 4096 7168) (x1 : Mat 7168 1536) (x2 : Mat 1536 24576) (x4 x5 : Mat 4096 64) (x6 : Vect 1536)

/-- The down-projection at row r, lane j is the dot product of row r of x with column j of wa. -/
theorem v0_at (r : Fin 4096) (j : Fin 1536) :
    val_main_v0 (F := Ideal) x0 x1 (ix2 r j) = accQ x0 x1 r j := by
  rw [val_main_v0_apply]
  unfold accQ
  refine Finset.sum_congr rfl fun k _ => ?_
  have el : lidx_main_v0 (ix2 r j) k = ix2 r k := by ix_rfl2
  have er : ridx_main_v0 (ix2 r j) k = ix2 k j := by ix_rfl2
  rw [el, er]

/-- The sum of squares of row r of the down-projection (the sum starts from the zero word, which is 0). -/
theorem v2_at (r : Fin 4096) :
    val_main_v2 (F := Ideal) x0 x1 (ix1 r) = ∑ j : Fin 1536, accQ x0 x1 r j * accQ x0 x1 r j := by
  rw [val_main_v2_apply, val_main_cst_apply, Ideal.ofBits_def, Ideal.ofBits_zero_f32, zero_add]
  refine Finset.sum_congr rfl fun k _ => ?_
  have e : idx_main_v2 (ix1 r) k = ix2 r k := by ix_rfl2
  rw [e, val_main_v1_apply, v0_at, Ideal.mulf_def]

/-- Row r's reciprocal root mean square, kept as a column. -/
theorem v8_at (r : Fin 4096) (z : Fin 1) :
    val_main_v8 (F := Ideal) x0 x1 (ix2 r z) = scaleQ x0 x1 r := by
  have e : idx_main_v3 (ix2 r z) = ix1 r := by ix_rfl1
  rw [val_main_v8_apply, val_main_v7_apply, val_main_v5_apply, val_main_v3_apply, e, v2_at, val_main_v4_apply,
    val_main_cst_0_apply, val_main_v6_apply, val_main_cst_1_apply]
  rfl

/-- The normalised, weighted down-projection. -/
theorem v13_at (r : Fin 4096) (j : Fin 1536) :
    val_main_v13 (F := Ideal) x0 x1 x6 (ix2 r j) = cqRow x0 x1 x6 r j := by
  have e9 : idx_main_v9 (ix2 r j) = ix2 r (⟨0, Nat.one_pos⟩ : Fin 1) := by ix_rfl2
  have e12 : idx_main_v12 (ix2 r j) = ix2 (⟨0, Nat.one_pos⟩ : Fin 1) j := by ix_rfl2
  have e11 : idx_main_v11 (ix2 (⟨0, Nat.one_pos⟩ : Fin 1) j) = ix1 j := by ix_rfl1
  rw [val_main_v13_apply, val_main_v10_apply, v0_at, val_main_v9_apply, e9, v8_at, val_main_v12_apply, e12,
    val_main_v11_apply, e11]
  rfl

/-- The up-projection at row r, flat lane n. -/
theorem v14_at (r : Fin 4096) (n : Fin 24576) :
    val_main_v14 (F := Ideal) x0 x1 x2 x6 (ix2 r n) = qFull x0 x1 x2 x6 r n := by
  rw [val_main_v14_apply]
  unfold qFull
  refine Finset.sum_congr rfl fun k _ => ?_
  have el : lidx_main_v14 (ix2 r n) k = ix2 r k := by ix_rfl2
  have er : ridx_main_v14 (ix2 r n) k = ix2 k n := by ix_rfl2
  rw [el, er, v13_at]

/-- The head view: lane d of head h is flat lane h·192 + d. -/
theorem v15_at (r : Fin 4096) (h : Fin 128) (d : Fin 192) (n : Fin 24576) (hn : n.val = h.val * 192 + d.val) :
    val_main_v15 (F := Ideal) x0 x1 x2 x6 (ix3 r h d) = qFull x0 x1 x2 x6 r n := by
  have e : idx_main_v15 (ix3 r h d) = ix2 r n := funext fun a => Fin.ext (by
    have hr := r.isLt; have hh := h.isLt; have hd := d.isLt
    match a with
    | ⟨0, _⟩ => show ((r.val * 128 + h.val) * 192 + d.val) / 24576 = r.val; omega
    | ⟨1, _⟩ => show ((r.val * 128 + h.val) * 192 + d.val) % 24576 = n.val; omega)
  rw [val_main_v15_apply, e, v14_at]

/-- The pass-through lanes of a head. -/
theorem v16_at (r : Fin 4096) (h : Fin 128) (d : Fin 128) (n : Fin 24576) (hn : n.val = h.val * 192 + d.val) :
    val_main_v16 (F := Ideal) x0 x1 x2 x6 (ix3 r h d) = qFull x0 x1 x2 x6 r n := by
  have e : idx_main_v16 (ix3 r h d) = ix3 r h (⟨d.val, by have := d.isLt; omega⟩ : Fin 192) := by ix_rfl3
  rw [val_main_v16_apply, e]
  exact v15_at x0 x1 x2 x6 r h _ n hn

/-- The rotary lanes of a head: rotary lane e is lane 128 + e. -/
theorem v17_at (r : Fin 4096) (h : Fin 128) (e : Fin 64) (n : Fin 24576) (hn : n.val = h.val * 192 + 128 + e.val) :
    val_main_v17 (F := Ideal) x0 x1 x2 x6 (ix3 r h e) = qFull x0 x1 x2 x6 r n := by
  have e' : idx_main_v17 (ix3 r h e) = ix3 r h (⟨128 + e.val, by have := e.isLt; omega⟩ : Fin 192) := by ix_rfl3
  rw [val_main_v17_apply, e']
  exact v15_at x0 x1 x2 x6 r h _ n (by show n.val = h.val * 192 + (128 + e.val); omega)

/-- The rotated partner of rotary lane e of head h, n being that lane's flat position: the lane 32 to the right,
    negated, for e < 32; the lane 32 to the left for e ≥ 32. -/
theorem v23_at (r : Fin 4096) (h : Fin 128) (e : Fin 64) (n : Fin 24576) (hn : n.val = h.val * 192 + 128 + e.val) :
    val_main_v23 (F := Ideal) x0 x1 x2 x6 (ix3 r h e)
      = if he : e.val < 32 then -(qFull x0 x1 x2 x6 r ⟨n.val + 32, by have := h.isLt; omega⟩)
        else qFull x0 x1 x2 x6 r ⟨n.val - 32, by have := n.isLt; omega⟩ := by
  unfold val_main_v23
  by_cases he : e.val < 32
  · rw [dif_pos he]
    refine (Cert.CatRead.cube2_left _ _ _ r h e (⟨e.val, he⟩ : Fin 32) rfl).trans ?_
    have h21 : idx_main_v21 (ix3 r h (⟨e.val, he⟩ : Fin 32)) = ix3 r h (⟨32 + e.val, by omega⟩ : Fin 64) := by ix_rfl3
    rw [val_main_v22_apply, val_main_v21_apply, h21, Ideal.hostNegf_def, Ideal.negf_def]
    exact congrArg (fun t => -t) (v17_at x0 x1 x2 x6 r h _ _ (by show n.val + 32 = h.val * 192 + 128 + (32 + e.val); omega))
  · rw [dif_neg he]
    refine (Cert.CatRead.cube2_right _ _ _ r h e (⟨e.val - 32, by have := e.isLt; omega⟩ : Fin 32)
      (by show e.val = 32 + (e.val - 32); omega)).trans ?_
    have h20 : idx_main_v20 (ix3 r h (⟨e.val - 32, by have := e.isLt; omega⟩ : Fin 32))
        = ix3 r h (⟨e.val - 32, by have := e.isLt; omega⟩ : Fin 64) := by ix_rfl3
    rw [val_main_v20_apply, h20]
    exact v17_at x0 x1 x2 x6 r h _ _ (by show n.val - 32 = h.val * 192 + 128 + (e.val - 32); omega)

/-- The rotated rotary lanes of a head. -/
theorem v28_at (r : Fin 4096) (h : Fin 128) (e : Fin 64) (n : Fin 24576) (hn : n.val = h.val * 192 + 128 + e.val) :
    val_main_v28 (F := Ideal) x0 x1 x2 x4 x5 x6 (ix3 r h e)
      = qFull x0 x1 x2 x6 r n * x4 (ix2 r e)
        + (if he : e.val < 32 then -(qFull x0 x1 x2 x6 r ⟨n.val + 32, by have := h.isLt; omega⟩)
            else qFull x0 x1 x2 x6 r ⟨n.val - 32, by have := n.isLt; omega⟩) * x5 (ix2 r e) := by
  have e24 : idx_main_v24 (ix3 r h e) = ix3 r (⟨0, Nat.one_pos⟩ : Fin 1) e := by ix_rfl3
  have e26 : idx_main_v26 (ix3 r h e) = ix3 r (⟨0, Nat.one_pos⟩ : Fin 1) e := by ix_rfl3
  have e18 : idx_main_v18 (ix3 r (⟨0, Nat.one_pos⟩ : Fin 1) e) = ix2 r e := by ix_rfl2
  have e19 : idx_main_v19 (ix3 r (⟨0, Nat.one_pos⟩ : Fin 1) e) = ix2 r e := by ix_rfl2
  rw [val_main_v28_apply, val_main_v25_apply, val_main_v27_apply, v17_at x0 x1 x2 x6 r h e n hn,
    v23_at x0 x1 x2 x6 r h e n hn, val_main_v24_apply, e24, val_main_v18_apply, e18, val_main_v26_apply, e26,
    val_main_v19_apply, e19]
  rfl

/-- A pass-through lane of the joined head. -/
theorem v29_lo (r : Fin 4096) (h : Fin 128) (d : Fin 192) (hd : d.val < 128) (n : Fin 24576)
    (hn : n.val = h.val * 192 + d.val) :
    val_main_v29 (F := Ideal) x0 x1 x2 x4 x5 x6 (ix3 r h d) = qFull x0 x1 x2 x6 r n := by
  unfold val_main_v29
  refine (Cert.CatRead.cube2_left _ _ _ r h d (⟨d.val, hd⟩ : Fin 128) rfl).trans ?_
  exact v16_at x0 x1 x2 x6 r h _ n hn

/-- A rotary lane of the joined head. -/
theorem v29_hi (r : Fin 4096) (h : Fin 128) (d : Fin 192) (e : Fin 64) (hd : d.val = 128 + e.val) (n : Fin 24576)
    (hn : n.val = h.val * 192 + d.val) :
    val_main_v29 (F := Ideal) x0 x1 x2 x4 x5 x6 (ix3 r h d)
      = qFull x0 x1 x2 x6 r n * x4 (ix2 r e)
        + (if he : e.val < 32 then -(qFull x0 x1 x2 x6 r ⟨n.val + 32, by have := h.isLt; omega⟩)
            else qFull x0 x1 x2 x6 r ⟨n.val - 32, by have := n.isLt; omega⟩) * x5 (ix2 r e) := by
  unfold val_main_v29
  refine (Cert.CatRead.cube2_right _ _ _ r h d e hd).trans ?_
  exact v28_at x0 x1 x2 x4 x5 x6 r h e n (by omega)

/-- The flat query row: the specification's queryOut. -/
theorem v53_at (r : Fin 4096) (n : Fin 24576) :
    val_main_v53 (F := Ideal) x0 x1 x2 x4 x5 x6 (ix2 r n) = queryOut x0 x1 x2 x4 x5 x6 r n := by
  have hn := n.isLt
  have e : idx_main_v53 (ix2 r n)
      = ix3 r (⟨n.val / 192, by omega⟩ : Fin 128) (⟨n.val % 192, by omega⟩ : Fin 192) := funext fun a => Fin.ext (by
    have hr := r.isLt
    match a with
    | ⟨0, _⟩ => show (r.val * 24576 + n.val) / 24576 = r.val; omega
    | ⟨1, _⟩ => show (r.val * 24576 + n.val) / 192 % 128 = n.val / 192; omega
    | ⟨2, _⟩ => show (r.val * 24576 + n.val) % 192 = n.val % 192; omega)
  rw [val_main_v53_apply, e]
  unfold queryOut
  by_cases hd : n.val % 192 < 128
  · rw [dif_pos hd]
    exact v29_lo x0 x1 x2 x4 x5 x6 r _ _ hd n (by show n.val = n.val / 192 * 192 + n.val % 192; omega)
  · rw [dif_neg hd]
    exact v29_hi x0 x1 x2 x4 x5 x6 r _ _ (⟨n.val % 192 - 128, by omega⟩ : Fin 64)
      (by show n.val % 192 = 128 + (n.val % 192 - 128); omega) n
      (by show n.val = n.val / 192 * 192 + n.val % 192; omega)

end Cert.ReferenceIdeal.RefQ

end
-- ==== Proof.RefKV.lean ====
/-
  The reference's key/value path, read entry by entry.

  The joint down-projection x·wkv has 576 lanes. Lanes 0..511 are divided by the root mean square of those 512
  lanes (plus ε under the root) and weighted by gkv; lanes 512..575 are rotated in half-pairs against cos and sin:
  lane 512+e pairs with lane 512+e+32 (negated) for e < 32 and with lane 512+e−32 for e ≥ 32. Each stage of the
  reference is read at a row r and a lane, and the two results are the specification's ckvOut and kropeOut.
-/
import proofs.«158685_j77395310674148_2_alg».proof.Proof.Gen.ReferenceIdeal.Read
import proofs.«158685_j77395310674148_2_alg».proof.Proof.Spec
import proofs.«158685_j77395310674148_2_alg».proof.Proof.LibConcat2

noncomputable section

namespace Cert.ReferenceIdeal.RefKV

open Cert.ReferenceIdeal Cert.ReferenceIdeal.Read Idealize.ShloMosaic Idealize.ShloMosaic.ValueIdx Cert.Spec

/-- Two rank-2 indices with the same two coordinates are equal. -/
local macro "ix_rfl2" : tactic =>
  `(tactic| (funext a; match a with | ⟨0, _⟩ => rfl | ⟨1, _⟩ => rfl))
/-- Two rank-1 indices with the same coordinate are equal. -/
local macro "ix_rfl1" : tactic =>
  `(tactic| (funext a; match a with | ⟨0, _⟩ => rfl))

variable (x0 : Mat 4096 7168) (x3 : Mat 7168 576) (x4 x5 : Mat 4096 64) (x7 : Vect 512)

/-- The joint projection at row r, lane j is the dot product of row r of x with column j of wkv. -/
theorem v30_at (r : Fin 4096) (j : Fin 576) :
    val_main_v30 (F := Ideal) x0 x3 (ix2 r j) = kvAcc x0 x3 r j := by
  rw [val_main_v30_apply]
  unfold kvAcc
  refine Finset.sum_congr rfl fun k _ => ?_
  have el : lidx_main_v30 (ix2 r j) k = ix2 r k := by ix_rfl2
  have er : ridx_main_v30 (ix2 r j) k = ix2 k j := by ix_rfl2
  rw [el, er]

/-- The latent lanes are the first 512 lanes of the projection. -/
theorem v31_at (r : Fin 4096) (j : Fin 512) :
    val_main_v31 (F := Ideal) x0 x3 (ix2 r j) = kvAcc x0 x3 r ⟨j.val, by have := j.isLt; omega⟩ := by
  have e : idx_main_v31 (ix2 r j) = ix2 r (⟨j.val, by have := j.isLt; omega⟩ : Fin 576) := by ix_rfl2
  rw [val_main_v31_apply, e, v30_at]

/-- The sum of squares of row r's latent lanes (the sum starts from the zero word, which is 0). -/
theorem v33_at (r : Fin 4096) :
    val_main_v33 (F := Ideal) x0 x3 (ix1 r)
      = ∑ j : Fin 512, kvAcc x0 x3 r ⟨j.val, by have := j.isLt; omega⟩ * kvAcc x0 x3 r ⟨j.val, by have := j.isLt; omega⟩ := by
  rw [val_main_v33_apply, val_main_cst_2_apply, Ideal.ofBits_def, Ideal.ofBits_zero_f32, zero_add]
  refine Finset.sum_congr rfl fun k _ => ?_
  have e : idx_main_v33 (ix1 r) k = ix2 r k := by ix_rfl2
  rw [e, val_main_v32_apply, v31_at, Ideal.mulf_def]

/-- Row r's reciprocal root mean square, kept as a column. -/
theorem v39_at (r : Fin 4096) (z : Fin 1) :
    val_main_v39 (F := Ideal) x0 x3 (ix2 r z) = scaleKV x0 x3 r := by
  have e : idx_main_v34 (ix2 r z) = ix1 r := by ix_rfl1
  rw [val_main_v39_apply, val_main_v38_apply, val_main_v36_apply, val_main_v34_apply, e, v33_at, val_main_v35_apply,
    val_main_cst_3_apply, val_main_v37_apply, val_main_cst_4_apply]
  rfl

/-- The normalised, weighted latent. -/
theorem v44_at (r : Fin 4096) (j : Fin 512) :
    val_main_v44 (F := Ideal) x0 x3 x7 (ix2 r j) = ckvOut x0 x3 x7 r j := by
  have e40 : idx_main_v40 (ix2 r j) = ix2 r (⟨0, Nat.one_pos⟩ : Fin 1) := by ix_rfl2
  have e43 : idx_main_v43 (ix2 r j) = ix2 (⟨0, Nat.one_pos⟩ : Fin 1) j := by ix_rfl2
  have e42 : idx_main_v42 (ix2 (⟨0, Nat.one_pos⟩ : Fin 1) j) = ix1 j := by ix_rfl1
  rw [val_main_v44_apply, val_main_v41_apply, v31_at, val_main_v40_apply, e40, v39_at, val_main_v43_apply, e43,
    val_main_v42_apply, e42]
  rfl

/-- The key's rotary lanes are lanes 512..575 of the projection. -/
theorem v45_at (r : Fin 4096) (e : Fin 64) :
    val_main_v45 (F := Ideal) x0 x3 (ix2 r e) = kvAcc x0 x3 r ⟨512 + e.val, by have := e.isLt; omega⟩ := by
  have h : idx_main_v45 (ix2 r e) = ix2 r (⟨512 + e.val, by have := e.isLt; omega⟩ : Fin 576) := by ix_rfl2
  rw [val_main_v45_apply, h, v30_at]

/-- The rotated partner of rotary lane e: the negated upper half below 32, the lower half from 32 on. -/
theorem v49_at (r : Fin 4096) (e : Fin 64) :
    val_main_v49 (F := Ideal) x0 x3 (ix2 r e)
      = if he : e.val < 32 then -(kvAcc x0 x3 r ⟨512 + e.val + 32, by omega⟩)
        else kvAcc x0 x3 r ⟨512 + e.val - 32, by have := e.isLt; omega⟩ := by
  unfold val_main_v49
  by_cases he : e.val < 32
  · rw [dif_pos he]
    refine (Cert.LibConcat2.concatenate2_left _ _ _ r e (⟨e.val, he⟩ : Fin 32) rfl).trans ?_
    have h47 : idx_main_v47 (ix2 r (⟨e.val, he⟩ : Fin 32)) = ix2 r (⟨32 + e.val, by omega⟩ : Fin 64) := by ix_rfl2
    rw [val_main_v48_apply, val_main_v47_apply, h47, v45_at, Ideal.hostNegf_def, Ideal.negf_def]
    exact congrArg (fun t => -(kvAcc x0 x3 r t)) (Fin.ext (by show 512 + (32 + e.val) = 512 + e.val + 32; omega))
  · rw [dif_neg he]
    refine (Cert.LibConcat2.concatenate2_right _ _ _ r e (⟨e.val - 32, by have := e.isLt; omega⟩ : Fin 32)
      (by show e.val = 32 + (e.val - 32); omega)).trans ?_
    have h46 : idx_main_v46 (ix2 r (⟨e.val - 32, by have := e.isLt; omega⟩ : Fin 32))
        = ix2 r (⟨e.val - 32, by have := e.isLt; omega⟩ : Fin 64) := by ix_rfl2
    rw [val_main_v46_apply, h46, v45_at]
    exact congrArg (kvAcc x0 x3 r) (Fin.ext (by show 512 + (e.val - 32) = 512 + e.val - 32; omega))

/-- The rotated key. -/
theorem v52_at (r : Fin 4096) (e : Fin 64) :
    val_main_v52 (F := Ideal) x0 x3 x4 x5 (ix2 r e) = kropeOut x0 x3 x4 x5 r e := by
  rw [val_main_v52_apply, val_main_v50_apply, val_main_v51_apply, v45_at, v49_at]
  rfl

end Cert.ReferenceIdeal.RefKV

end
-- ==== Proof.RefSpec.lean ====
/-
  The reference computes the specification: its result array, read index by index, is the function G of the
  eight argument arrays. The result row is three pieces side by side — the query's 24576 lanes, the latent's 512,
  the rotated key's 64 — and each piece, read at a row and a lane, is the specification's (the query path and the
  key/value path are read stage by stage in their own modules).
-/
import proofs.«158685_j77395310674148_2_alg».proof.Defs
import proofs.«158685_j77395310674148_2_alg».proof.Proof.Gen.ReferenceIdeal
import proofs.«158685_j77395310674148_2_alg».proof.Proof.Gen.ReferenceIdeal.Read
import proofs.«158685_j77395310674148_2_alg».proof.Proof.Spec
import proofs.«158685_j77395310674148_2_alg».proof.Proof.CatRead
import proofs.«158685_j77395310674148_2_alg».proof.Proof.RefQ
import proofs.«158685_j77395310674148_2_alg».proof.Proof.RefKV

noncomputable section

open Idealize.ShloMosaic Idealize.ShloMosaic.TcCoe Idealize.SL.Sem

namespace Cert.ReferenceIdeal.RefSpec

open Cert.ReferenceIdeal Cert.ReferenceIdeal.Read Idealize.ShloMosaic.ValueIdx Cert.Spec

/-- The reference's last stage, as a function of the argument arrays, is the specification. -/
theorem val_is_G (a0 : Mat 4096 7168) (a1 : Mat 7168 1536) (a2 : Mat 1536 24576) (a3 : Mat 7168 576)
    (a4 a5 : Mat 4096 64) (a6 : Vect 1536) (a7 : Vect 512) :
    val_main_v54 (F := Ideal) a0 a1 a2 a3 a4 a5 a6 a7 = G a0 a1 a2 a3 a4 a5 a6 a7 := by
  refine eq_G_of_apply a0 a1 a2 a3 a4 a5 a6 a7 _ fun r c => ?_
  have hc := c.isLt
  unfold val_main_v54
  by_cases h0 : c.val < 24576
  · refine (Cert.CatRead.cat3_first _ _ _ _ r c (⟨c.val, h0⟩ : Fin 24576) rfl).trans ?_
    rw [RefQ.v53_at]
    exact (Grc_query a0 a1 a2 a3 a4 a5 a6 a7 r c _ rfl).symm
  · by_cases h1 : c.val < 25088
    · refine (Cert.CatRead.cat3_second _ _ _ _ r c (⟨c.val - 24576, by omega⟩ : Fin 512)
        (by show c.val = 24576 + (c.val - 24576); omega)).trans ?_
      rw [RefKV.v44_at]
      exact (Grc_ckv a0 a1 a2 a3 a4 a5 a6 a7 r c _ (by show c.val = 24576 + (c.val - 24576); omega)).symm
    · refine (Cert.CatRead.cat3_third _ _ _ _ r c (⟨c.val - 25088, by omega⟩ : Fin 64)
        (by show c.val = 24576 + 512 + (c.val - 25088); omega)).trans ?_
      rw [RefKV.v52_at]
      exact (Grc_krope a0 a1 a2 a3 a4 a5 a6 a7 r c _ (by show c.val = 25088 + (c.val - 25088); omega)).symm

/-- The term the reference's run ends with, on any device from any memory, is the specification of the
    memory's eight argument arrays. -/
theorem ref_is_G (m : (ℓ : Loc nD τ sig) → Buf (Elt Ideal) ℓ) (c : Dev nD) :
    Cert.ReferenceIdeal.Value.res_main_v54 (F := Ideal) m c
      = G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  (val_main_v54_eq (F := Ideal) m c).trans (val_is_G _ _ _ _ _ _ _ _)

/-- The reference's run with its result named by the specification: every weakly fair execution terminates
    with the result array at G of the memory's argument arrays, and the argument arrays unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v54)
        = G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (ref_is_G m c), (h c).2⟩)
    (Cert.ReferenceIdeal.Value.run (F := Ideal) m ρ)

end Cert.ReferenceIdeal.RefSpec

end
-- ==== Proof.KIAlgebraic.lean ====
/-
  The two idealized programs end with the same array.  From memories that agree on the eight arguments, the kernel
  program's run ends with its packed result at `Cert.Spec.G` of its arguments — the first region's two output arrays
  read from its accumulators' closed forms, the rest by the assembly of the boundary contents — and the reference's run
  ends with its result at `G` of its own arguments, which are the same arrays.
-/
import proofs.«158685_j77395310674148_2_alg».proof.Defs
import proofs.«158685_j77395310674148_2_alg».proof.Proof.KIAssemble
import proofs.«158685_j77395310674148_2_alg».proof.Proof.KIRegion0Array
import proofs.«158685_j77395310674148_2_alg».proof.Proof.KIRegion0ArrayKV
import proofs.«158685_j77395310674148_2_alg».proof.Proof.RefSpec
import proofs.«158685_j77395310674148_2_alg».proof.Proof.Gen.KernelIdeal
import proofs.«158685_j77395310674148_2_alg».proof.Proof.Gen.ReferenceIdeal
import proofs.«158685_j77395310674148_2_alg».proof.Proof.Gen.Pre_finite_inputs

noncomputable section

namespace Cert.Proof.Alg

open Idealize.ShloMosaic Idealize.ShloMosaic.TcCoe Idealize.SL.Sem

theorem algebraic : Cert.algebraic_KernelIdeal_ReferenceIdeal := by
  intro m ρ m' ρ' _ hagree
  refine ⟨_, Cert.KernelIdeal.Hand.run_G m ρ
    (fun c => Cert.KernelIdeal.Hand.final0_7 (Cert.KernelIdeal.Hand.V1 m ρ) c)
    (fun c => Cert.KernelIdeal.HandKV.final0_8_lo (Cert.KernelIdeal.Hand.V1 m ρ) c)
    (fun c => Cert.KernelIdeal.HandKV.final0_8_rot_lo (Cert.KernelIdeal.Hand.V1 m ρ) c)
    (fun c => Cert.KernelIdeal.HandKV.final0_8_rot_hi (Cert.KernelIdeal.Hand.V1 m ρ) c), ?_⟩
  refine (θ_run Cert.ReferenceIdeal.defs _ _).mono (fun _ h c => ⟨?_, (h c).2⟩) (Cert.ReferenceIdeal.RefSpec.run_G m' ρ')
  rw [(h c).1, (hagree c).1, (hagree c).2.1, (hagree c).2.2.1, (hagree c).2.2.2.1, (hagree c).2.2.2.2.1,
    (hagree c).2.2.2.2.2.1, (hagree c).2.2.2.2.2.2.1, (hagree c).2.2.2.2.2.2.2]

end Cert.Proof.Alg

end
-- ==== Proof.lean ====
/- The proof of `Cert.Claim`: a multi-head latent attention prologue.  From token activations x [4096, 7168] the
   kernel program computes, in a first fused region over a 4 × 4 grid (row block, contraction block), the two
   down-projections x·wq_a and x·wkv accumulated block by block in two scratch accumulators, and at the last
   contraction block normalises the rows (reciprocal root of the mean square plus ε, times a gain vector) and rotates
   the 64 rope lanes of the key by the cosine and sine tables; a second region multiplies the normalised query latent by
   wq_b tile by tile and rotates the last 64 lanes of each of the 128 heads; a host concatenation packs query, key-value
   latent and rope key into [4096, 25152].  The reference does the same with whole-array host operations.
   Claims: each of the three programs runs to the end and leaves its arguments unchanged (Proof/Frames.lean, over
   Proof/KRun.lean, Proof/KIRun.lean and the reference's run); the idealized kernel is the kernel's own text over the
   extended reals; and at the extended reals both programs end with the same array, the function `Cert.Spec.G` of the
   arguments (Proof/KIAlgebraic.lean): a sum over 7168 taken as four consecutive blocks of 1792 from a zero start is the
   whole sum, 0 − v is −v, and a two-step concatenation is the three-part one — associativity and commutativity only,
   so the precondition is never opened. -/
import proofs.«158685_j77395310674148_2_alg».proof.Defs
import proofs.«158685_j77395310674148_2_alg».proof.Proof.Frames
import proofs.«158685_j77395310674148_2_alg».proof.Proof.KIAlgebraic
import proofs.«158685_j77395310674148_2_alg».proof.Proof.Gen.Kernel
import proofs.«158685_j77395310674148_2_alg».proof.Proof.Gen.Kernel.Skeleton
import proofs.«158685_j77395310674148_2_alg».proof.Proof.Gen.Kernel.Launch
import proofs.«158685_j77395310674148_2_alg».proof.Proof.Gen.Kernel.Regions
import proofs.«158685_j77395310674148_2_alg».proof.Proof.Gen.Kernel.Points
import proofs.«158685_j77395310674148_2_alg».proof.Proof.Gen.KernelIdeal
import proofs.«158685_j77395310674148_2_alg».proof.Proof.Gen.KernelIdeal.Skeleton
import proofs.«158685_j77395310674148_2_alg».proof.Proof.Gen.KernelIdeal.Launch
import proofs.«158685_j77395310674148_2_alg».proof.Proof.Gen.KernelIdeal.Regions
import proofs.«158685_j77395310674148_2_alg».proof.Proof.Gen.KernelIdeal.Points
import proofs.«158685_j77395310674148_2_alg».proof.Proof.Gen.ReferenceIdeal
import proofs.«158685_j77395310674148_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_k, Frames.frame_ki, Frames.frame_ri, Frames.preserves, Alg.algebraic⟩

end Cert.Proof

end
